-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S2x96x96 : Shape := ⟨3, ![2, 96, 96]⟩
abbrev S2x96 : Shape := ⟨2, ![2, 96]⟩
abbrev S96x40 : Shape := ⟨2, ![96, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S2x96x96 : S_.BroadcastsInDim S2x96x96 (![] : Fin 0 → Fin S2x96x96.rank)
  reducesTo_S2x96x96_S_d0_1_2 : S2x96x96.ReducesTo [0, 1, 2] S_
  bcast_S_S2x96 : S_.BroadcastsInDim S2x96 (![] : Fin 0 → Fin S2x96.rank)
  reducesTo_S2x96_S_d0_1 : S2x96.ReducesTo [0, 1] S_
  bcast_S_S96x40 : S_.BroadcastsInDim S96x40 (![] : Fin 0 → Fin S96x40.rank)
  reducesTo_S96x40_S_d0_1 : S96x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S2x96 .f32) (main_arg6 : FVec F S96x40 .f32) (main_arg7 : FVec F S40 .f32) (main_v13 : IVec S_ 1) (main_v16 : IVec S2x96x96 1) : IVec S_ 1 :=
  let main_c_5 : IVec S_ 1 := constantI S_ 1 1#1
  let main_v17 : IVec S_ 1 := (fun x v => Host.reduce IntOp.andi x v reducesTo_S2x96x96_S_d0_1_2 h_S_) main_v16 main_c_5
  let main_v18 : IVec S_ 1 := andi main_v13 main_v17
  let main_v19 : FVec F S2x96 .f32 := Host.absf main_arg5
  let main_cst_6 : FVec F S_ .f32 := constant S_ .f32 0x7F800000#32
  let main_v20 : FVec F S2x96 .f32 := broadcastInDim S2x96 ![] bcast_S_S2x96 main_cst_6
  let main_v21 : IVec S2x96 1 := cmpf .olt main_v19 main_v20
  let main_c_7 : IVec S_ 1 := constantI S_ 1 1#1
  let main_v22 : IVec S_ 1 := (fun x v => Host.reduce IntOp.andi x v reducesTo_S2x96_S_d0_1 h_S_) main_v21 main_c_7
  let main_v23 : IVec S_ 1 := andi main_v18 main_v22
  let main_v24 : FVec F S96x40 .f32 := Host.absf main_arg6
  let main_cst_8 : FVec F S_ .f32 := constant S_ .f32 0x7F800000#32
  let main_v25 : FVec F S96x40 .f32 := broadcastInDim S96x40 ![] bcast_S_S96x40 main_cst_8
  let main_v26 : IVec S96x40 1 := cmpf .olt main_v24 main_v25
  let main_c_9 : IVec S_ 1 := constantI S_ 1 1#1
  let main_v27 : IVec S_ 1 := (fun x v => Host.reduce IntOp.andi x v reducesTo_S96x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x96 .f32) (main_arg3 : FVec F S96 .f32) (main_arg4 : FVec F S2x96x96 .f32) (main_arg5 : FVec F S2x96 .f32) (main_arg6 : FVec F S96x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x96 .f32 := Host.absf main_arg2
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S2x96x96 .f32 := Host.absf main_arg4
  let main_cst_4 : FVec F S_ .f32 := constant S_ .f32 0x7F800000#32
  let main_v15 : FVec F S2x96x96 .f32 := broadcastInDim S2x96x96 ![] bcast_S_S2x96x96 main_cst_4
  let main_v16 : IVec S2x96x96 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S2x96x96 : Shape := ⟨3, ![2, 96, 96]⟩
abbrev S2x96 : Shape := ⟨2, ![2, 96]⟩
abbrev S96x40 : Shape := ⟨2, ![96, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S50000x96 : Shape := ⟨2, ![50000, 96]⟩
abbrev S5000x128 : Shape := ⟨2, ![5000, 128]⟩
abbrev S5000x96 : Shape := ⟨2, ![5000, 96]⟩
abbrev S1x96 : Shape := ⟨2, ![1, 96]⟩
abbrev S1x96x96 : Shape := ⟨3, ![1, 96, 96]⟩
abbrev S96x96 : Shape := ⟨2, ![96, 96]⟩
abbrev S850000x96 : Shape := ⟨2, ![850000, 96]⟩
abbrev S50000x40 : Shape := ⟨2, ![50000, 40]⟩
abbrev S5000x40 : Shape := ⟨2, ![5000, 40]⟩
abbrev S1x40 : Shape := ⟨2, ![1, 40]⟩
abbrev S50000x1 : Shape := ⟨2, ![50000, 1]⟩

abbrev nBuf : Space → Nat
  | .hbm => 157
  | .vmem => 38
  | .smem => 0
  | _ => 0

abbrev hbmTy0_0 (i : Nat) : BufTy := match i % 128 with
  | 0 => ⟨S50000x128, .f32⟩
  | 1 => ⟨S2x800000, .i32⟩
  | 2 => ⟨S128x96, .f32⟩
  | 3 => ⟨S96, .f32⟩
  | 4 => ⟨S2x96x96, .f32⟩
  | 5 => ⟨S2x96, .f32⟩
  | 6 => ⟨S96x40, .f32⟩
  | 7 => ⟨S40, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S50000, .f32⟩
  | 17 => ⟨S_, .i32⟩
  | 18 => ⟨S850000, .i32⟩
  | 19 => ⟨S850000, .i1⟩
  | 20 => ⟨S_, .i32⟩
  | 21 => ⟨S850000, .i32⟩
  | 22 => ⟨S850000, .i32⟩
  | 23 => ⟨S850000, .i32⟩
  | 24 => ⟨S850000x1, .i32⟩
  | 25 => ⟨S_, .f32⟩
  | 26 => ⟨S850000, .f32⟩
  | 27 => ⟨S50000, .f32⟩
  | 28 => ⟨S_, .f32⟩
  | 29 => ⟨S50000, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .i32⟩
  | 66 => ⟨S850000, .i32⟩
  | 67 => ⟨S850000, .i1⟩
  | 68 => ⟨S_, .i32⟩
  | 69 => ⟨S850000, .i32⟩
  | 70 => ⟨S850000, .i32⟩
  | 71 => ⟨S850000, .i32⟩
  | 72 => ⟨S850000x1, .i32⟩
  | 73 => ⟨S50000x128, .f32⟩
  | 74 => ⟨S50000x96, .f32⟩
  | 75 => ⟨S1x96x96, .f32⟩
  | 76 => ⟨S96x96, .f32⟩
  | 77 => ⟨S1x96, .f32⟩
  | 78 => ⟨S96, .f32⟩
  | 79 => ⟨S_, .f32⟩
  | 80 => ⟨S96, .f32⟩
  | 81 => ⟨S50000x96, .f32⟩
  | 82 => ⟨S_, .f32⟩
  | 83 => ⟨S50000x96, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000x96, .f32⟩
  | 93 => ⟨S850000x1, .f32⟩
  | 94 => ⟨S850000x96, .f32⟩
  | 95 => ⟨S850000x96, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S50000x96, .f32⟩
  | 105 => ⟨S1x96, .f32⟩
  | 106 => ⟨S96, .f32⟩
  | 107 => ⟨S50000x96, .f32⟩
  | 108 => ⟨S1x96x96, .f32⟩
  | 109 => ⟨S96x96, .f32⟩
  | 110 => ⟨S1x96, .f32⟩
  | 111 => ⟨S96, .f32⟩
  | 112 => ⟨S_, .f32⟩
  | 113 => ⟨S96, .f32⟩
  | 114 => ⟨S50000x96, .f32⟩
  | 115 => ⟨S_, .f32⟩
  | 116 => ⟨S50000x96, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x96, .f32⟩
  | 126 => ⟨S850000x1, .f32⟩
  | 127 => ⟨S850000x96, .f32⟩
  | _ => ⟨S50000x128, .f32⟩

abbrev hbmTy0_1 (i : Nat) : BufTy := match i % 128 with
  | 0 => ⟨S850000x96, .f32⟩
  | 1 => ⟨S_, .i32⟩
  | 2 => ⟨S850000, .i32⟩
  | 3 => ⟨S850000, .i1⟩
  | 4 => ⟨S_, .i32⟩
  | 5 => ⟨S850000, .i32⟩
  | 6 => ⟨S850000, .i32⟩
  | 7 => ⟨S850000, .i32⟩
  | 8 => ⟨S850000x1, .i32⟩
  | 9 => ⟨S50000x96, .f32⟩
  | 10 => ⟨S1x96, .f32⟩
  | 11 => ⟨S96, .f32⟩
  | 12 => ⟨S50000x96, .f32⟩
  | 13 => ⟨S50000x40, .f32⟩
  | 14 => ⟨S_, .f32⟩
  | 15 => ⟨S50000, .f32⟩
  | 16 => ⟨S_, .f32⟩
  | 17 => ⟨S50000, .f32⟩
  | 18 => ⟨S50000, .f32⟩
  | 19 => ⟨S50000x1, .f32⟩
  | 20 => ⟨S50000x40, .f32⟩
  | 21 => ⟨S50000x40, .f32⟩
  | 22 => ⟨S50000x40, .f32⟩
  | 23 => ⟨S_, .f32⟩
  | 24 => ⟨S50000, .f32⟩
  | 25 => ⟨S50000x1, .f32⟩
  | 26 => ⟨S50000x1, .f32⟩
  | 27 => ⟨S50000x40, .f32⟩
  | 28 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x96, .f32⟩
  | .local _ .vmem, ⟨3, _⟩ => ⟨S96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S96x96, .f32⟩
  | .local _ .vmem, ⟨9, _⟩ => ⟨S96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S5000x96, .f32⟩
  | .local _ .vmem, ⟨14, _⟩ => ⟨S5000x96, .f32⟩
  | .local _ .vmem, ⟨15, _⟩ => ⟨S5000x96, .f32⟩
  | .local _ .vmem, ⟨16, _⟩ => ⟨S96, .f32⟩
  | .local _ .vmem, ⟨17, _⟩ => ⟨S5000x96, .f32⟩
  | .local _ .vmem, ⟨18, _⟩ => ⟨S5000x96, .f32⟩
  | .local _ .vmem, ⟨19, _⟩ => ⟨S5000x96, .f32⟩
  | .local _ .vmem, ⟨20, _⟩ => ⟨S5000x96, .f32⟩
  | .local _ .vmem, ⟨21, _⟩ => ⟨S96x96, .f32⟩
  | .local _ .vmem, ⟨22, _⟩ => ⟨S96, .f32⟩
  | .local _ .vmem, ⟨23, _⟩ => ⟨S5000x96, .f32⟩
  | .local _ .vmem, ⟨24, _⟩ => ⟨S5000x96, .f32⟩
  | .local _ .vmem, ⟨25, _⟩ => ⟨S5000x96, .f32⟩
  | .local _ .vmem, ⟨26, _⟩ => ⟨S5000x96, .f32⟩
  | .local _ .vmem, ⟨27, _⟩ => ⟨S5000x96, .f32⟩
  | .local _ .vmem, ⟨28, _⟩ => ⟨S5000x96, .f32⟩
  | .local _ .vmem, ⟨29, _⟩ => ⟨S96, .f32⟩
  | .local _ .vmem, ⟨30, _⟩ => ⟨S5000x96, .f32⟩
  | .local _ .vmem, ⟨31, _⟩ => ⟨S5000x96, .f32⟩
  | .local _ .vmem, ⟨32, _⟩ => ⟨S5000x96, .f32⟩
  | .local _ .vmem, ⟨33, _⟩ => ⟨S5000x96, .f32⟩
  | .local _ .vmem, ⟨34, _⟩ => ⟨S96x40, .f32⟩
  | .local _ .vmem, ⟨35, _⟩ => ⟨S40, .f32⟩
  | .local _ .vmem, ⟨36, _⟩ => ⟨S5000x40, .f32⟩
  | .local _ .vmem, ⟨37, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_10 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_c_14 : Ref sig .tc := ⟨.hbm, 84, rfl⟩
abbrev main_v60 : Ref sig .tc := ⟨.hbm, 85, rfl⟩
abbrev main_v61 : Ref sig .tc := ⟨.hbm, 86, rfl⟩
abbrev main_c_15 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_16 : Ref sig .tc := ⟨.hbm, 96, rfl⟩
abbrev main_v70 : Ref sig .tc := ⟨.hbm, 97, rfl⟩
abbrev main_v71 : Ref sig .tc := ⟨.hbm, 98, rfl⟩
abbrev main_c_17 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_18 : Ref sig .tc := ⟨.hbm, 112, rfl⟩
abbrev main_v84 : Ref sig .tc := ⟨.hbm, 113, rfl⟩
abbrev main_v85 : Ref sig .tc := ⟨.hbm, 114, rfl⟩
abbrev main_cst_19 : Ref sig .tc := ⟨.hbm, 115, rfl⟩
abbrev main_v86 : Ref sig .tc := ⟨.hbm, 116, rfl⟩
abbrev main_c_20 : Ref sig .tc := ⟨.hbm, 117, rfl⟩
abbrev main_v87 : Ref sig .tc := ⟨.hbm, 118, rfl⟩
abbrev main_v88 : Ref sig .tc := ⟨.hbm, 119, rfl⟩
abbrev main_c_21 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_c_22 : Ref sig .tc := ⟨.hbm, 129, rfl⟩
abbrev main_v97 : Ref sig .tc := ⟨.hbm, 130, rfl⟩
abbrev main_v98 : Ref sig .tc := ⟨.hbm, 131, rfl⟩
abbrev main_c_23 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_call6_cst : Ref sig .tc := ⟨.hbm, 142, rfl⟩
abbrev main_call6_v0 : Ref sig .tc := ⟨.hbm, 143, rfl⟩
abbrev main_call6_cst_0 : Ref sig .tc := ⟨.hbm, 144, rfl⟩
abbrev main_call6_v1 : Ref sig .tc := ⟨.hbm, 145, rfl⟩
abbrev main_call6_v2 : Ref sig .tc := ⟨.hbm, 146, rfl⟩
abbrev main_call6_v3 : Ref sig .tc := ⟨.hbm, 147, rfl⟩
abbrev main_call6_v4 : Ref sig .tc := ⟨.hbm, 148, rfl⟩
abbrev main_call6_v5 : Ref sig .tc := ⟨.hbm, 149, rfl⟩
abbrev main_call6_v6 : Ref sig .tc := ⟨.hbm, 150, rfl⟩
abbrev main_call6_cst_1 : Ref sig .tc := ⟨.hbm, 151, rfl⟩
abbrev main_call6_v7 : Ref sig .tc := ⟨.hbm, 152, rfl⟩
abbrev main_call6_v8 : Ref sig .tc := ⟨.hbm, 153, rfl⟩
abbrev main_call6_v9 : Ref sig .tc := ⟨.hbm, 154, rfl⟩
abbrev main_call6_v10 : Ref sig .tc := ⟨.hbm, 155, rfl⟩
abbrev main_v108 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem3_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x96 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S96x96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x96 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x96 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S96 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x96 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S96x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x40 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S_S50000x128 : S_.BroadcastsInDim S50000x128 (![] : Fin 0 → Fin S50000x128.rank)
  bcast_S850000x1_S850000x128_0_1 : S850000x1.BroadcastsInDim S850000x128 (![0, 1] : Fin 2 → Fin S850000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S96_S96_0 : ∀ a, (![0] : Fin 1 → Nat) a + S96.size a ≤ S96.size a
  h_S96 : 0 < S96.numel
  shapeCasts_S96_S1x96 : S96.ShapeCasts S1x96
  broadcasts_S1x96_S5000x96 : S1x96.Broadcasts S5000x96
  inb_S5000x96_S5000x96_0_0 : ∀ a, (![0, 0] : Fin 2 → Nat) a + S5000x96.size a ≤ S5000x96.size a
  h_S5000x96 : 0 < S5000x96.numel
  slices_S2x96x96_S1x96x96_0_0_0 : S2x96x96.Slices ![0, 0, 0] S1x96x96
  shapeCasts_S1x96x96_S96x96 : S1x96x96.ShapeCasts S96x96
  slices_S2x96_S1x96_0_0 : S2x96.Slices ![0, 0] S1x96
  shapeCasts_S1x96_S96 : S1x96.ShapeCasts S96
  bcast_S_S96 : S_.BroadcastsInDim S96 (![] : Fin 0 → Fin S96.rank)
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  shapeCasts_S96_S96 : S96.ShapeCasts S96
  bcast_S_S50000x96 : S_.BroadcastsInDim S50000x96 (![] : Fin 0 → Fin S50000x96.rank)
  bcast_S850000x1_S850000x96_0_1 : S850000x1.BroadcastsInDim S850000x96 (![0, 1] : Fin 2 → Fin S850000x96.rank)
  slices_S2x96x96_S1x96x96_1_0_0 : S2x96x96.Slices ![1, 0, 0] S1x96x96
  slices_S2x96_S1x96_1_0 : S2x96.Slices ![1, 0] S1x96
  inb_S96x40_S96x40_0_0 : ∀ a, (![0, 0] : Fin 2 → Nat) a + S96x40.size a ≤ S96x40.size a
  h_S96x40 : 0 < S96x40.numel
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x96_S5000x96_1_0_0_1_n_n_wf : DotDims.WF S5000x128 S128x96 S5000x96 [1] [0] [0] [1] [] []
  dot_S5000x96_S96x96_S5000x96_1_0_0_1_n_n_wf : DotDims.WF S5000x96 S96x96 S5000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S5000x96_S96x40_S5000x40_1_0_0_1_n_n_wf : DotDims.WF S5000x96 S96x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96.size a ≤ S96.size a
  hwx0_2 : ∀ i : grid0.Coords, EltTy.bits .f32 = 32 ∨ (Rect.block (s := S96) S96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .f32 = 32 ∨ (Rect.block (s := S50000x96) S5000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x96.size a ≤ S96x96.size a
  hwx1_1 : ∀ i : grid1.Coords, EltTy.bits .f32 = 32 ∨ (Rect.block (s := S96x96) S96x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96.size a ≤ S96.size a
  hwx1_2 : ∀ i : grid1.Coords, EltTy.bits .f32 = 32 ∨ (Rect.block (s := S96) S96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x96.size a ≤ S50000x96.size a
  hwx1_3 : ∀ i : grid1.Coords, EltTy.bits .f32 = 32 ∨ (Rect.block (s := S50000x96) S5000x96.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x96.size a ≤ S50000x96.size a
  hwx2_1 : ∀ i : grid2.Coords, EltTy.bits .f32 = 32 ∨ (Rect.block (s := S50000x96) S5000x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96.size a ≤ S96.size a
  hwx2_2 : ∀ i : grid2.Coords, EltTy.bits .f32 = 32 ∨ (Rect.block (s := S96) S96.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x96.size a ≤ S50000x96.size a
  hwx2_3 : ∀ i : grid2.Coords, EltTy.bits .f32 = 32 ∨ (Rect.block (s := S50000x96) S5000x96.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S96x96.size a ≤ S96x96.size a
  hwx3_1 : ∀ i : grid3.Coords, EltTy.bits .f32 = 32 ∨ (Rect.block (s := S96x96) S96x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S96.size a ≤ S96.size a
  hwx3_2 : ∀ i : grid3.Coords, EltTy.bits .f32 = 32 ∨ (Rect.block (s := S96) S96.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x96.size a ≤ S50000x96.size a
  hwx3_3 : ∀ i : grid3.Coords, EltTy.bits .f32 = 32 ∨ (Rect.block (s := S50000x96) S5000x96.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S50000x96.size a
  hwx4_0 : ∀ i : grid4.Coords, EltTy.bits .f32 = 32 ∨ (Rect.block (s := S50000x96) S5000x96.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x96.size a ≤ S50000x96.size a
  hwx4_1 : ∀ i : grid4.Coords, EltTy.bits .f32 = 32 ∨ (Rect.block (s := S50000x96) S5000x96.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S96.size a ≤ S96.size a
  hwx4_2 : ∀ i : grid4.Coords, EltTy.bits .f32 = 32 ∨ (Rect.block (s := S96) S96.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x96.size a ≤ S50000x96.size a
  hwx4_3 : ∀ i : grid4.Coords, EltTy.bits .f32 = 32 ∨ (Rect.block (s := S50000x96) S5000x96.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x96.size a ≤ S50000x96.size a
  hwx5_0 : ∀ i : grid5.Coords, EltTy.bits .f32 = 32 ∨ (Rect.block (s := S50000x96) S5000x96.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S96x40.size a ≤ S96x40.size a
  hwx5_1 : ∀ i : grid5.Coords, EltTy.bits .f32 = 32 ∨ (Rect.block (s := S96x40) S96x40.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S40.size a ≤ S40.size a
  hwx5_2 : ∀ i : grid5.Coords, EltTy.bits .f32 = 32 ∨ (Rect.block (s := S40) S40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x40.size a ≤ S50000x40.size a
  hwx5_3 : ∀ i : grid5.Coords, EltTy.bits .f32 = 32 ∨ (Rect.block (s := S50000x40) S5000x40.size (cc5_transform_3 i) (hinb5_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S5000x96_S96x40_S5000x40_1_0_0_1_n_n : DotDims S5000x96 S96x40 S5000x40 where
  lhsContracting := [1]
  rhsContracting := [0]
  lhsNonContracting := [0]
  rhsNonContracting := [1]
  lhsBatch := []
  rhsBatch := []
  wf := dot_S5000x96_S96x40_S5000x40_1_0_0_1_n_n_wf

abbrev win0_0 : Pipeline.Window sig grid0 :=
  Pipeline.Window.ofSpec (Memref.whole main_v51) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v52) S5000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v52) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S96x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S5000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v52) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S5000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v78) S96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v79) S5000x96.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v79) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v81) S96x96.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v85) S5000x96.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v79) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v103) S5000x96.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v105) S96.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v106) S5000x96.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v106) S5000x96.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg6) S96x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v107) S5000x40.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S2x96x96 : Shape := ⟨3, ![2, 96, 96]⟩
abbrev S2x96 : Shape := ⟨2, ![2, 96]⟩
abbrev S96x40 : Shape := ⟨2, ![96, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S50000x96 : Shape := ⟨2, ![50000, 96]⟩
abbrev S1x96 : Shape := ⟨2, ![1, 96]⟩
abbrev S1x96x96 : Shape := ⟨3, ![1, 96, 96]⟩
abbrev S96x96 : Shape := ⟨2, ![96, 96]⟩
abbrev S850000x96 : Shape := ⟨2, ![850000, 96]⟩
abbrev S50000x40 : Shape := ⟨2, ![50000, 40]⟩
abbrev S1x40 : Shape := ⟨2, ![1, 40]⟩
abbrev S50000x1 : Shape := ⟨2, ![50000, 1]⟩

abbrev nBuf : Space → Nat
  | .hbm => 170
  | .vmem => 0
  | .smem => 0
  | _ => 0

abbrev hbmTy0_0 (i : Nat) : BufTy := match i % 128 with
  | 0 => ⟨S50000x128, .f32⟩
  | 1 => ⟨S2x800000, .i32⟩
  | 2 => ⟨S128x96, .f32⟩
  | 3 => ⟨S96, .f32⟩
  | 4 => ⟨S2x96x96, .f32⟩
  | 5 => ⟨S2x96, .f32⟩
  | 6 => ⟨S96x40, .f32⟩
  | 7 => ⟨S40, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S50000, .f32⟩
  | 17 => ⟨S_, .i32⟩
  | 18 => ⟨S850000, .i32⟩
  | 19 => ⟨S850000, .i1⟩
  | 20 => ⟨S_, .i32⟩
  | 21 => ⟨S850000, .i32⟩
  | 22 => ⟨S850000, .i32⟩
  | 23 => ⟨S850000, .i32⟩
  | 24 => ⟨S850000x1, .i32⟩
  | 25 => ⟨S_, .f32⟩
  | 26 => ⟨S850000, .f32⟩
  | 27 => ⟨S50000, .f32⟩
  | 28 => ⟨S_, .f32⟩
  | 29 => ⟨S50000, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .i32⟩
  | 66 => ⟨S850000, .i32⟩
  | 67 => ⟨S850000, .i1⟩
  | 68 => ⟨S_, .i32⟩
  | 69 => ⟨S850000, .i32⟩
  | 70 => ⟨S850000, .i32⟩
  | 71 => ⟨S850000, .i32⟩
  | 72 => ⟨S850000x1, .i32⟩
  | 73 => ⟨S50000x128, .f32⟩
  | 74 => ⟨S50000x96, .f32⟩
  | 75 => ⟨S1x96, .f32⟩
  | 76 => ⟨S50000x96, .f32⟩
  | 77 => ⟨S50000x96, .f32⟩
  | 78 => ⟨S_, .f32⟩
  | 79 => ⟨S50000x96, .f32⟩
  | 80 => ⟨S50000x96, .f32⟩
  | 81 => ⟨S1x96x96, .f32⟩
  | 82 => ⟨S96x96, .f32⟩
  | 83 => ⟨S50000x96, .f32⟩
  | 84 => ⟨S_, .f32⟩
  | 85 => ⟨S50000x96, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000x96, .f32⟩
  | 95 => ⟨S850000x1, .f32⟩
  | 96 => ⟨S850000x96, .f32⟩
  | 97 => ⟨S850000x96, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S50000x96, .f32⟩
  | 107 => ⟨S1x96, .f32⟩
  | 108 => ⟨S96, .f32⟩
  | 109 => ⟨S1x96, .f32⟩
  | 110 => ⟨S50000x96, .f32⟩
  | 111 => ⟨S50000x96, .f32⟩
  | 112 => ⟨S50000x96, .f32⟩
  | 113 => ⟨S_, .f32⟩
  | 114 => ⟨S50000x96, .f32⟩
  | 115 => ⟨S50000x96, .f32⟩
  | 116 => ⟨S1x96x96, .f32⟩
  | 117 => ⟨S96x96, .f32⟩
  | 118 => ⟨S50000x96, .f32⟩
  | 119 => ⟨S_, .f32⟩
  | 120 => ⟨S50000x96, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x128, .f32⟩

abbrev hbmTy0_1 (i : Nat) : BufTy := match i % 128 with
  | 0 => ⟨S850000x1, .i32⟩
  | 1 => ⟨S850000x96, .f32⟩
  | 2 => ⟨S850000x1, .f32⟩
  | 3 => ⟨S850000x96, .f32⟩
  | 4 => ⟨S850000x96, .f32⟩
  | 5 => ⟨S_, .i32⟩
  | 6 => ⟨S850000, .i32⟩
  | 7 => ⟨S850000, .i1⟩
  | 8 => ⟨S_, .i32⟩
  | 9 => ⟨S850000, .i32⟩
  | 10 => ⟨S850000, .i32⟩
  | 11 => ⟨S850000, .i32⟩
  | 12 => ⟨S850000x1, .i32⟩
  | 13 => ⟨S50000x96, .f32⟩
  | 14 => ⟨S1x96, .f32⟩
  | 15 => ⟨S96, .f32⟩
  | 16 => ⟨S1x96, .f32⟩
  | 17 => ⟨S50000x96, .f32⟩
  | 18 => ⟨S50000x96, .f32⟩
  | 19 => ⟨S50000x96, .f32⟩
  | 20 => ⟨S_, .f32⟩
  | 21 => ⟨S50000x96, .f32⟩
  | 22 => ⟨S50000x96, .f32⟩
  | 23 => ⟨S50000x40, .f32⟩
  | 24 => ⟨S1x40, .f32⟩
  | 25 => ⟨S50000x40, .f32⟩
  | 26 => ⟨S50000x40, .f32⟩
  | 27 => ⟨S_, .f32⟩
  | 28 => ⟨S50000, .f32⟩
  | 29 => ⟨S_, .f32⟩
  | 30 => ⟨S50000, .f32⟩
  | 31 => ⟨S50000, .f32⟩
  | 32 => ⟨S50000x1, .f32⟩
  | 33 => ⟨S50000x40, .f32⟩
  | 34 => ⟨S50000x40, .f32⟩
  | 35 => ⟨S50000x40, .f32⟩
  | 36 => ⟨S_, .f32⟩
  | 37 => ⟨S50000, .f32⟩
  | 38 => ⟨S50000x1, .f32⟩
  | 39 => ⟨S50000x1, .f32⟩
  | 40 => ⟨S50000x40, .f32⟩
  | 41 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_10 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call0_cst : Ref sig .tc := ⟨.hbm, 78, rfl⟩
abbrev main_call0_v0 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_c_13 : Ref sig .tc := ⟨.hbm, 86, rfl⟩
abbrev main_v61 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_15 : Ref sig .tc := ⟨.hbm, 98, rfl⟩
abbrev main_v71 : Ref sig .tc := ⟨.hbm, 99, rfl⟩
abbrev main_v72 : Ref sig .tc := ⟨.hbm, 100, rfl⟩
abbrev main_c_16 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_call1_cst : Ref sig .tc := ⟨.hbm, 113, rfl⟩
abbrev main_call1_v0 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_17 : Ref sig .tc := ⟨.hbm, 119, rfl⟩
abbrev main_v88 : Ref sig .tc := ⟨.hbm, 120, rfl⟩
abbrev main_c_18 : Ref sig .tc := ⟨.hbm, 121, rfl⟩
abbrev main_v89 : Ref sig .tc := ⟨.hbm, 122, rfl⟩
abbrev main_v90 : Ref sig .tc := ⟨.hbm, 123, rfl⟩
abbrev main_c_19 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_c_20 : Ref sig .tc := ⟨.hbm, 133, rfl⟩
abbrev main_v99 : Ref sig .tc := ⟨.hbm, 134, rfl⟩
abbrev main_v100 : Ref sig .tc := ⟨.hbm, 135, rfl⟩
abbrev main_c_21 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_call2_cst : Ref sig .tc := ⟨.hbm, 148, rfl⟩
abbrev main_call2_v0 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_call3_cst : Ref sig .tc := ⟨.hbm, 155, rfl⟩
abbrev main_call3_v0 : Ref sig .tc := ⟨.hbm, 156, rfl⟩
abbrev main_call3_cst_0 : Ref sig .tc := ⟨.hbm, 157, rfl⟩
abbrev main_call3_v1 : Ref sig .tc := ⟨.hbm, 158, rfl⟩
abbrev main_call3_v2 : Ref sig .tc := ⟨.hbm, 159, rfl⟩
abbrev main_call3_v3 : Ref sig .tc := ⟨.hbm, 160, rfl⟩
abbrev main_call3_v4 : Ref sig .tc := ⟨.hbm, 161, rfl⟩
abbrev main_call3_v5 : Ref sig .tc := ⟨.hbm, 162, rfl⟩
abbrev main_call3_v6 : Ref sig .tc := ⟨.hbm, 163, rfl⟩
abbrev main_call3_cst_1 : Ref sig .tc := ⟨.hbm, 164, rfl⟩
abbrev main_call3_v7 : Ref sig .tc := ⟨.hbm, 165, rfl⟩
abbrev main_call3_v8 : Ref sig .tc := ⟨.hbm, 166, rfl⟩
abbrev main_call3_v9 : Ref sig .tc := ⟨.hbm, 167, rfl⟩
abbrev main_call3_v10 : Ref sig .tc := ⟨.hbm, 168, rfl⟩
abbrev main_v117 : Ref sig .tc := ⟨.hbm, 169, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S_S50000x128 : S_.BroadcastsInDim S50000x128 (![] : Fin 0 → Fin S50000x128.rank)
  bcast_S850000x1_S850000x128_0_1 : S850000x1.BroadcastsInDim S850000x128 (![0, 1] : Fin 2 → Fin S850000x128.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S50000x96 : S_.BroadcastsInDim S50000x96 (![] : Fin 0 → Fin S50000x96.rank)
  slices_S2x96x96_S1x96x96_0_0_0 : S2x96x96.Slices ![0, 0, 0] S1x96x96
  shapeCasts_S1x96x96_S96x96 : S1x96x96.ShapeCasts S96x96
  bcast_S850000x1_S850000x96_0_1 : S850000x1.BroadcastsInDim S850000x96 (![0, 1] : Fin 2 → Fin S850000x96.rank)
  slices_S2x96_S1x96_0_0 : S2x96.Slices ![0, 0] S1x96
  shapeCasts_S1x96_S96 : S1x96.ShapeCasts S96
  slices_S2x96x96_S1x96x96_1_0_0 : S2x96x96.Slices ![1, 0, 0] S1x96x96
  slices_S2x96_S1x96_1_0 : S2x96.Slices ![1, 0] S1x96
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x96_S50000x96_1_0_0_1_n_n_wf : DotDims.WF S50000x128 S128x96 S50000x96 [1] [0] [0] [1] [] []
  dot_S50000x96_S96x96_S50000x96_1_0_0_1_n_n_wf : DotDims.WF S50000x96 S96x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x40_S50000x40_1_0_0_1_n_n_wf : DotDims.WF S50000x96 S96x40 S50000x40 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x40_S50000x40_1_0_0_1_n_n : DotDims S50000x96 S96x40 S50000x40 where
  lhsContracting := [1]
  rhsContracting := [0]
  lhsNonContracting := [0]
  rhsNonContracting := [1]
  lhsBatch := []
  rhsBatch := []
  wf := dot_S50000x96_S96x40_S50000x40_1_0_0_1_n_n_wf

class Facts : Prop extends Facts₀ where

variable [Facts]
-- ==== Proof.KernelRun.lean ====
/-
  The idealized kernel's run with its result named.

  The program is six kernel launches among stretches of host operations.  Its buffer contents at every segment
  boundary are a fold from the launch memory: a host stretch applies its operations, a launch replaces its
  arrays by what its write-backs leave and keeps every other buffer.  Every weakly fair execution ends with
  each unscoped buffer at the last boundary's contents; read at the result buffer this names the result, and
  read at an argument buffer it walks back to the launch memory.
-/
import proofs.«172156_j52261162057813_1_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents and every argument array as launched. -/
theorem run_result : θ_run defs (onTc (τ := τ) (main (F := F))) ⟨m, fun _ => 0, ρ⟩ (fun r => ∀ c : Dev nD,
      r.2.mem ((c.tc : Thread nD τ).loc main_v108) = W12 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v108 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Net

end
-- ==== Proof.Layers.lean ====
/-
  The dense layers of the network, as whole-array functions on the extended reals.

  A node's features are a row.  An affine layer sends row `r` of `x` to `x r · w + b`: entry `(r, c)` is the sum
  over `k` of `x (r, k) * w (k, c)`, plus `b c`.  A residual layer adds a row of `h`, the same row of the
  aggregated messages and the bias, and clips below at zero.  Every layer is row-local: row `r` of the result
  depends on row `r` of the node features only, so the layer of a block of rows is the block of the layer.
-/
import Idealize.ShloMosaic.Lib.ValueIdx
import Idealize.ShloMosaic.PureOps.Ideal.Laws

noncomputable section

open scoped BigOperators

namespace Cert.Net

open Idealize.ShloMosaic Idealize.ShloMosaic.ValueIdx

/-- `x · w`: entry `(r, c)` is `∑ k, x (r, k) * w (k, c)`. -/
def matprod {M K N : Nat} (x : (⟨2, ![M, K]⟩ : Shape).Idx → EReal) (w : (⟨2, ![K, N]⟩ : Shape).Idx → EReal) :
    (⟨2, ![M, N]⟩ : Shape).Idx → EReal :=
  fun j => ∑ k : Fin K, x (ix2 (j 0) k) * w (ix2 k (j 1))

/-- `x · w + b`, the bias added along every row. -/
def affine {M K N : Nat} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun j => matprod x w j + b (ix1 (j 1))

/-- `max (x · w + b) 0`. -/
def affineRelu {M K N : Nat} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun j => max (affine x w b j) 0

/-- `max (h + (a + b)) 0`, the bias added along every row. -/
def residual {M N : Nat} (h a : (⟨2, ![M, N]⟩ : Shape).Idx → EReal) (b : (⟨1, ![N]⟩ : Shape).Idx → EReal) :
    (⟨2, ![M, N]⟩ : Shape).Idx → EReal :=
  fun j => max (h j + (a j + b (ix1 (j 1)))) 0

/-- An affine layer with the zero bias is the plain product: `y + 0 = y` on the extended reals. -/
theorem affine_zero {M K N : Nat} (x : (⟨2, ![M, K]⟩ : Shape).Idx → EReal) (w : (⟨2, ![K, N]⟩ : Shape).Idx → EReal) :
    affine x w (fun _ => 0) = matprod x w :=
  funext fun j => add_zero _

/-- The residual sum grouped from the left, `(h + a) + b`, is the same: addition of extended reals is
    associative. -/
theorem residual_left {M N : Nat} (h a : (⟨2, ![M, N]⟩ : Shape).Idx → EReal) (b : (⟨1, ![N]⟩ : Shape).Idx → EReal) :
    (fun j => max (h j + a j + b (ix1 (j 1))) 0) = residual h a b :=
  funext fun j => congrArg (fun v => max v 0) (add_assoc _ _ _)

end Cert.Net

end
-- ==== Proof.Spec.lean ====
/-
  The network as one function of the argument arrays.

  The graph has 50000 nodes and 800000 given edges; every node also gets a self loop, so there are 850000 edges,
  each with a source and a target node.  A node's degree counts the edges that end at it (at least 1 after the
  clip), and an edge's weight is the product of the inverse square roots of its two ends' degrees.  To propagate
  node features is to gather each edge's source row, scale it by the edge's weight and add it into the edge's
  target row.  The network propagates the input features and applies an affine layer with a clip at zero; twice
  multiplies by a square weight matrix, propagates, and adds the result and a bias back onto the features, with a
  clip at zero; applies a last affine layer; and normalizes every row by the logarithm of its softmax.
-/
import proofs.«172156_j52261162057813_1_alg».proof.KernelIdeal
import proofs.«172156_j52261162057813_1_alg».proof.Proof.Layers

noncomputable section

namespace Cert.KernelIdeal.Net

open Cert.KernelIdeal Cert.Net Idealize.ShloMosaic

variable [Facts₀]
open Facts₀

/-- A float array of a shape, on the extended reals. -/
abbrev FArr (s : Shape) := (⟨s, .f32⟩ : BufTy).Contents (Elt Ideal)
/-- A 32-bit integer array of a shape. -/
abbrev IArr (s : Shape) := (⟨s, .i32⟩ : BufTy).Contents (Elt Ideal)

/-- The edges' source nodes: row 0 of the edge list followed by the node ids `0 … 49999` (the self loops). -/
def srcIdx (e : IArr S2x800000) : IArr S850000 :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0
/-- The edges' target nodes: row 1 of the edge list followed by the node ids. -/
def dstIdx (e : IArr S2x800000) : IArr S850000 :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- Node ids as a column of start indices, a negative id counted from the end. -/
def startCol (u : IArr S850000) : IArr S850000x1 :=
  broadcastInDim S850000x1 ![0] bcast_S850000_S850000x1_0
    (select (cmpi .slt u (broadcastInDim S850000 ![] bcast_S_S850000 (constantI S_ 32 0#32)))
      (addi u (broadcastInDim S850000 ![] bcast_S_S850000 (constantI S_ 32 50000#32))) u)

/-- The number of edges ending at each node, for the edges' target nodes `d`. -/
def degree (d : IArr S850000) : FArr S50000 :=
  Host.scatterAdd (F := Ideal) scatter_S50000_S850000x1_S850000_n_0_0_1
    (broadcastInDim S50000 ![] bcast_S_S50000 (constant (F := Ideal) S_ .f32 0x00000000#32))
    (startCol d)
    (broadcastInDim S850000 ![] bcast_S_S850000 (constant (F := Ideal) S_ .f32 0x3F800000#32))

/-- `1 / sqrt (max degree 1)` per node. -/
def invSqrtDeg (d : IArr S850000) : FArr S50000 :=
  Host.rsqrt (F := Ideal) (maximumf (degree d) (broadcastInDim S50000 ![] bcast_S_S50000 (constant (F := Ideal) S_ .f32 0x3F800000#32)))

/-- An edge's weight: the product of its two ends' inverse square-root degrees. -/
def edgeWeight (s d : IArr S850000) : FArr S850000 :=
  mulf (F := Ideal) (φ := .f32) (Host.gather gather_S50000_S850000x1_S850000_n_0_n_n_0_1_1 (invSqrtDeg d) (startCol s))
    (Host.gather gather_S50000_S850000x1_S850000_n_0_n_n_0_1_1 (invSqrtDeg d) (startCol d))

/-- Propagation of 128 features per node along edges with sources `s`, targets `d` and weights `w`. -/
def propagate128 (s d : IArr S850000) (w : FArr S850000) (x : FArr S50000x128) : FArr S50000x128 :=
  Host.scatterAdd (F := Ideal) scatter_S50000x128_S850000x1_S850000x128_1_0_0_1
    (broadcastInDim S50000x128 ![] bcast_S_S50000x128 (constant (F := Ideal) S_ .f32 0x00000000#32))
    (startCol d)
    (mulf (Host.gather gather_S50000x128_S850000x1_S850000x128_1_0_n_n_0_1_1128 x (startCol s))
      (broadcastInDim S850000x128 ![0, 1] bcast_S850000x1_S850000x128_0_1 (broadcastInDim S850000x1 ![0] bcast_S850000_S850000x1_0 w)))

/-- Propagation of 96 features per node. -/
def propagate96 (s d : IArr S850000) (w : FArr S850000) (t : FArr S50000x96) : FArr S50000x96 :=
  Host.scatterAdd (F := Ideal) scatter_S50000x96_S850000x1_S850000x96_1_0_0_1
    (broadcastInDim S50000x96 ![] bcast_S_S50000x96 (constant (F := Ideal) S_ .f32 0x00000000#32))
    (startCol d)
    (mulf (Host.gather gather_S50000x96_S850000x1_S850000x96_1_0_n_n_0_1_196 t (startCol s))
      (broadcastInDim S850000x96 ![0, 1] bcast_S850000x1_S850000x96_0_1 (broadcastInDim S850000x1 ![0] bcast_S850000_S850000x1_0 w)))

/-- The two square weight matrices and their biases, sliced out of the stacked arguments. -/
def weight0 (Wg : FArr S2x96x96) : FArr S96x96 := shapeCast S96x96 (extractStridedSlice S1x96x96 ![0, 0, 0] Wg slices_S2x96x96_S1x96x96_0_0_0) shapeCasts_S1x96x96_S96x96
def weight1 (Wg : FArr S2x96x96) : FArr S96x96 := shapeCast S96x96 (extractStridedSlice S1x96x96 ![1, 0, 0] Wg slices_S2x96x96_S1x96x96_1_0_0) shapeCasts_S1x96x96_S96x96
def bias0 (bg : FArr S2x96) : FArr S96 := shapeCast S96 (extractStridedSlice S1x96 ![0, 0] bg slices_S2x96_S1x96_0_0) shapeCasts_S1x96_S96
def bias1 (bg : FArr S2x96) : FArr S96 := shapeCast S96 (extractStridedSlice S1x96 ![1, 0] bg slices_S2x96_S1x96_1_0) shapeCasts_S1x96_S96

/-- The zero bias of length 96. -/
def zeros96 : FArr S96 := broadcastInDim S96 ![] bcast_S_S96 (constant (F := Ideal) S_ .f32 0x00000000#32)

/-- `z - max z - log (∑ exp (z - max z))` along every row. -/
def logSoftmax (z : FArr S50000x40) : FArr S50000x40 :=
  subf (subf z (broadcastInDim S50000x40 ![0, 1] bcast_S50000x1_S50000x40_0_1 (broadcastInDim S50000x1 ![0] bcast_S50000_S50000x1_0
      (maximumf (broadcastInDim S50000 ![] bcast_S_S50000 (constant (F := Ideal) S_ .f32 0xFF800000#32))
        (Host.reduce (FloatOps.maximumf (F := Ideal)) z (constant (F := Ideal) S_ .f32 0xFF800000#32) reducesTo_S50000x40_S50000_d1 h_S_)))))
    (broadcastInDim S50000x40 ![0, 1] bcast_S50000x1_S50000x40_0_1 (Host.log (F := Ideal) (broadcastInDim S50000x1 ![0] bcast_S50000_S50000x1_0
      (Host.reduceAdd (F := Ideal) (Host.exp (F := Ideal) (subf z (broadcastInDim S50000x40 ![0, 1] bcast_S50000x1_S50000x40_0_1 (broadcastInDim S50000x1 ![0] bcast_S50000_S50000x1_0
        (maximumf (broadcastInDim S50000 ![] bcast_S_S50000 (constant (F := Ideal) S_ .f32 0xFF800000#32))
          (Host.reduce (FloatOps.maximumf (F := Ideal)) z (constant (F := Ideal) S_ .f32 0xFF800000#32) reducesTo_S50000x40_S50000_d1 h_S_))))))
        (constant (F := Ideal) S_ .f32 0x00000000#32) reducesTo_S50000x40_S50000_d1 h_S_))))

/-- One residual layer over the graph: `max (h + (propagate (h · w) + b)) 0`. -/
def graphLayer (s d : IArr S850000) (wt : FArr S850000) (h : FArr S50000x96) (w : FArr S96x96) (b : FArr S96) : FArr S50000x96 :=
  residual (M := 50000) (N := 96) h (propagate96 s d wt (matprod (M := 50000) (K := 96) (N := 96) h w)) b

/-- The network's result. -/
def net (x : FArr S50000x128) (e : IArr S2x800000) (W1 : FArr S128x96) (b1 : FArr S96) (Wg : FArr S2x96x96) (bg : FArr S2x96)
    (Wl : FArr S96x40) (bl : FArr S40) : FArr S50000x40 :=
  logSoftmax (affine (M := 50000) (K := 96) (N := 40)
    (graphLayer (srcIdx e) (dstIdx e) (edgeWeight (srcIdx e) (dstIdx e))
      (graphLayer (srcIdx e) (dstIdx e) (edgeWeight (srcIdx e) (dstIdx e))
        (affineRelu (M := 50000) (K := 128) (N := 96) (propagate128 (srcIdx e) (dstIdx e) (edgeWeight (srcIdx e) (dstIdx e)) x) W1 b1)
        (weight0 Wg) (bias0 bg))
      (weight1 Wg) (bias1 bg))
    Wl bl)

end Cert.KernelIdeal.Net

end
-- ==== Proof.ResidualRegions.lean ====
/-
  The two residual launches.

  Each runs over ten blocks of 5000 rows.  At a block it loads the same rows of the node features `h` and of the
  aggregated messages, and the whole bias, and stores `max (h + agg + b) 0`.  A row of the result depends on the
  same row of the two feature arrays only, so the ten blocks written back are the ten blocks of ONE whole-array
  function of the arrays the launch found; and they tile the output array.
-/
import proofs.«172156_j52261162057813_1_alg».proof.Proof.Gen.KernelIdeal.Frame
import proofs.«172156_j52261162057813_1_alg».proof.Proof.Layers
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Net

open Cert.KernelIdeal Cert.KernelIdeal.Gen Cert.Net
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a; rfl

/-- A bias of length 96 laid along every row of a 5000 × 96 block. -/
theorem bias_row96 (b : Vec Ideal S96 .f32) (p : Fin 5000) (q : Fin 96) :
    broadcastTo S5000x96 (shapeCast S1x96 b shapeCasts_S96_S1x96) broadcasts_S1x96_S5000x96 (ix2 p q) = b (ix1 q) := by
  refine (broadcastTo_apply (s := S1x96) (t := S5000x96) (shapeCast S1x96 b shapeCasts_S96_S1x96) broadcasts_S1x96_S5000x96
    (ix2 p q) (ix2 ⟨0, by decide⟩ q) (fun a => by match a with | ⟨0, _⟩ => rfl | ⟨1, _⟩ => rfl)).trans ?_
  exact (shapeCast_addUnit_apply ![96] b _ _).trans (congrArg b (funext fun a => by match a with | ⟨0, _⟩ => rfl))

variable (V : (c : Dev nD) → (b : Ref sig .tc) → Buf (Elt Ideal) ((c : Thread nD τ).loc b))

/-! ## Launch 2: `max (h + agg + b) 0` on blocks of 5000 rows -/

/-- The body's value on a block: entry `(r, c)` is `max (h (r, c) + agg (r, c) + b c) 0`. -/
theorem pay2 (x0 x1 : Vec Ideal S5000x96 .f32) (x2 : Vec Ideal S96 .f32) :
    k2_pay1 x0 x1 x2 = (fun j => max (x0 j + x1 j + x2 (ix1 (j 1))) 0) := by
  funext j
  obtain ⟨p, q, rfl⟩ : ∃ (p : Fin 5000) (q : Fin 96), j = ix2 p q := ⟨j 0, j 1, eq_ix2 j⟩
  unfold k2_pay1
  simp only [shapeCast_self]
  show max (x0 (ix2 p q) + x1 (ix2 p q) + broadcastTo S5000x96 (shapeCast S1x96 x2 shapeCasts_S96_S1x96) broadcasts_S1x96_S5000x96 (ix2 p q)) (Ideal.ofBits .f32 0x00000000#32) = max (x0 (ix2 p q) + x1 (ix2 p q) + x2 (ix1 q)) 0
  rw [bias_row96, Ideal.ofBits_zero_f32]

/-- At grid point `t` the two feature windows and the output window hold rows `5000 t … 5000 t + 4999`, all
    96 columns; the bias window holds the whole bias. -/
theorem idx_facts2 : ∀ t : Fin cfg2.N, win2_0.index t (0 : Fin 2) = win2_3.index t (0 : Fin 2)
    ∧ win2_0.index t (1 : Fin 2) = win2_3.index t (1 : Fin 2)
    ∧ win2_1.index t (0 : Fin 2) = win2_3.index t (0 : Fin 2)
    ∧ win2_1.index t (1 : Fin 2) = win2_3.index t (1 : Fin 2)
    ∧ win2_2.index t (0 : Fin 1) = 0
    ∧ win2_3.index t (0 : Fin 2) = t.val ∧ win2_3.index t (1 : Fin 2) = 0 :=
  (by decide +kernel : ∀ t : Fin grid2.N, _)

/-- What point `t` writes back is block `t` of the residual layer of the arrays as the launch finds them. -/
theorem flushed2 (c : Dev nD) (t : Fin cfg2.N) :
    (dat2 V c).flushed 3 t = ((cfg2.win 3).blk t).view.read (Elt Ideal)
      (residual (M := 50000) (N := 96) (V c main_v52) (V c main_v76) (V c main_v78)) := by
  show (cfg2.win 3).cut (grid2.coords t) ((dat2 V c).after 3 t) = _
  rw [after2_3]
  unfold out2_3
  rw [View.canon_unit_zero hz2]
  simp only [View.ld_unit_zero (S := S5000x96) hz2, View.ld_unit_zero (S := S96) hz1]
  rw [pay2]
  obtain ⟨e0, e1, e2, e3, e4, e5, e6⟩ := idx_facts2 t
  funext j
  have h0 : ((cfg2.win 0).blk t).view.emb j = ((cfg2.win 3).blk t).view.emb j := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 96 + 1 * (j 1).val = win2_3.index t (1 : Fin 2) * 96 + 1 * (j 1).val; omega
  have h1 : ((cfg2.win 1).blk t).view.emb j = ((cfg2.win 3).blk t).view.emb j := by
    funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 96 + 1 * (j 1).val = win2_3.index t (1 : Fin 2) * 96 + 1 * (j 1).val; omega
  have h2 : ((cfg2.win 2).blk t).view.emb (ix1 (j 1)) = ix1 ((((cfg2.win 3).blk t).view.emb j) 1) := by
    funext a; apply Fin.ext
    match a with
    | ⟨0, _⟩ => show win2_2.index t (0 : Fin 1) * 96 + 1 * (j 1).val = win2_3.index t (1 : Fin 2) * 96 + 1 * (j 1).val; omega
  let P : S50000x96.Idx → EReal := V c main_v52
  let A : S50000x96.Idx → EReal := V c main_v76
  let B : S96.Idx → EReal := V c main_v78
  show max (P (((cfg2.win 0).blk t).view.emb j) + A (((cfg2.win 1).blk t).view.emb j) + B (((cfg2.win 2).blk t).view.emb (ix1 (j 1)))) 0
    = max (P (((cfg2.win 3).blk t).view.emb j) + (A (((cfg2.win 3).blk t).view.emb j) + B (ix1 ((((cfg2.win 3).blk t).view.emb j) 1)))) 0
  rw [h0, h1, h2, add_assoc]
  rfl

/-- An index of the output array lies in point `t`'s block iff each coordinate lies in the block's range. -/
theorem mem_blk2 (t : Fin cfg2.N) (i : S50000x96.Idx) :
    i ∈ ((cfg2.win 3).blk t).view.set ↔ ∀ a : Fin 2, win2_3.index t a * S5000x96.size a ≤ (i a).val ∧ (i a).val < win2_3.index t a * S5000x96.size a + S5000x96.size a := by
  show i ∈ ((View.whole main_v79).slice (win2_3.rect t)).set ↔ _
  rw [View.set_slice_whole, Rect.mem_set_unit]
  exact Iff.rfl

/-- Row `r` of the output array lies in the block of point `r / 5000`: the ten blocks cover the array. -/
theorem cover2 (i : S50000x96.Idx) :
    ∃ t : Fin cfg2.N, (cfg2.win 3).flush t = true ∧ i ∈ ((cfg2.win 3).blk t).view.set := by
  have hi0 : (i 0).val < 50000 := (i 0).isLt
  have hi1 : (i 1).val < 96 := (i 1).isLt
  have ht : (i 0).val / 5000 < 10 := by omega
  obtain ⟨-, -, -, -, -, e5, e6⟩ := idx_facts2 ⟨(i 0).val / 5000, ht⟩
  have e5' : win2_3.index ⟨(i 0).val / 5000, ht⟩ (0 : Fin 2) = (i 0).val / 5000 := e5
  refine ⟨⟨(i 0).val / 5000, ht⟩, flush2_3 _, ?_⟩
  rw [mem_blk2]
  intro a
  match a with
  | ⟨0, _⟩ => show win2_3.index ⟨(i 0).val / 5000, ht⟩ (0 : Fin 2) * 5000 ≤ (i 0).val ∧ (i 0).val < win2_3.index ⟨(i 0).val / 5000, ht⟩ (0 : Fin 2) * 5000 + 5000; omega
  | ⟨1, _⟩ => show win2_3.index ⟨(i 0).val / 5000, ht⟩ (1 : Fin 2) * 96 ≤ (i 1).val ∧ (i 1).val < win2_3.index ⟨(i 0).val / 5000, ht⟩ (1 : Fin 2) * 96 + 96; omega

/-- The output array after the launch is the residual layer of the arrays the launch found. -/
theorem final2 (c : Dev nD) :
    (dat2 V c).arrAt 3 cfg2.N = residual (M := 50000) (N := 96) (V c main_v52) (V c main_v76) (V c main_v78) :=
  (dat2 V c).arrAt_eq_of_cover 3 _ (fun t _ => flushed2 V c t) (cover2)

/-! ## Launch 4: `max (h + agg + b) 0` on blocks of 5000 rows -/

/-- The body's value on a block: entry `(r, c)` is `max (h (r, c) + agg (r, c) + b c) 0`. -/
theorem pay4 (x0 x1 : Vec Ideal S5000x96 .f32) (x2 : Vec Ideal S96 .f32) :
    k4_pay1 x0 x1 x2 = (fun j => max (x0 j + x1 j + x2 (ix1 (j 1))) 0) := by
  funext j
  obtain ⟨p, q, rfl⟩ : ∃ (p : Fin 5000) (q : Fin 96), j = ix2 p q := ⟨j 0, j 1, eq_ix2 j⟩
  unfold k4_pay1
  simp only [shapeCast_self]
  show max (x0 (ix2 p q) + x1 (ix2 p q) + broadcastTo S5000x96 (shapeCast S1x96 x2 shapeCasts_S96_S1x96) broadcasts_S1x96_S5000x96 (ix2 p q)) (Ideal.ofBits .f32 0x00000000#32) = max (x0 (ix2 p q) + x1 (ix2 p q) + x2 (ix1 q)) 0
  rw [bias_row96, Ideal.ofBits_zero_f32]

/-- At grid point `t` the two feature windows and the output window hold rows `5000 t … 5000 t + 4999`, all
    96 columns; the bias window holds the whole bias. -/
theorem idx_facts4 : ∀ t : Fin cfg4.N, win4_0.index t (0 : Fin 2) = win4_3.index t (0 : Fin 2)
    ∧ win4_0.index t (1 : Fin 2) = win4_3.index t (1 : Fin 2)
    ∧ win4_1.index t (0 : Fin 2) = win4_3.index t (0 : Fin 2)
    ∧ win4_1.index t (1 : Fin 2) = win4_3.index t (1 : Fin 2)
    ∧ win4_2.index t (0 : Fin 1) = 0
    ∧ win4_3.index t (0 : Fin 2) = t.val ∧ win4_3.index t (1 : Fin 2) = 0 :=
  (by decide +kernel : ∀ t : Fin grid4.N, _)

/-- What point `t` writes back is block `t` of the residual layer of the arrays as the launch finds them. -/
theorem flushed4 (c : Dev nD) (t : Fin cfg4.N) :
    (dat4 V c).flushed 3 t = ((cfg4.win 3).blk t).view.read (Elt Ideal)
      (residual (M := 50000) (N := 96) (V c main_v79) (V c main_v103) (V c main_v105)) := by
  show (cfg4.win 3).cut (grid4.coords t) ((dat4 V c).after 3 t) = _
  rw [after4_3]
  unfold out4_3
  rw [View.canon_unit_zero hz2]
  simp only [View.ld_unit_zero (S := S5000x96) hz2, View.ld_unit_zero (S := S96) hz1]
  rw [pay4]
  obtain ⟨e0, e1, e2, e3, e4, e5, e6⟩ := idx_facts4 t
  funext j
  have h0 : ((cfg4.win 0).blk t).view.emb j = ((cfg4.win 3).blk t).view.emb j := by
    funext a; apply Fin.ext
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 96 + 1 * (j 1).val = win4_3.index t (1 : Fin 2) * 96 + 1 * (j 1).val; omega
  have h1 : ((cfg4.win 1).blk t).view.emb j = ((cfg4.win 3).blk t).view.emb j := by
    funext a; apply Fin.ext
    match a with
    | ⟨0, _⟩ => show win4_1.index t (0 : Fin 2) * 5000 + 1 * (j 0).val = win4_3.index t (0 : Fin 2) * 5000 + 1 * (j 0).val; omega
    | ⟨1, _⟩ => show win4_1.index t (1 : Fin 2) * 96 + 1 * (j 1).val = win4_3.index t (1 : Fin 2) * 96 + 1 * (j 1).val; omega
  have h2 : ((cfg4.win 2).blk t).view.emb (ix1 (j 1)) = ix1 ((((cfg4.win 3).blk t).view.emb j) 1) := by
    funext a; apply Fin.ext
    match a with
    | ⟨0, _⟩ => show win4_2.index t (0 : Fin 1) * 96 + 1 * (j 1).val = win4_3.index t (1 : Fin 2) * 96 + 1 * (j 1).val; omega
  let P : S50000x96.Idx → EReal := V c main_v79
  let A : S50000x96.Idx → EReal := V c main_v103
  let B : S96.Idx → EReal := V c main_v105
  show max (P (((cfg4.win 0).blk t).view.emb j) + A (((cfg4.win 1).blk t).view.emb j) + B (((cfg4.win 2).blk t).view.emb (ix1 (j 1)))) 0
    = max (P (((cfg4.win 3).blk t).view.emb j) + (A (((cfg4.win 3).blk t).view.emb j) + B (ix1 ((((cfg4.win 3).blk t).view.emb j) 1)))) 0
  rw [h0, h1, h2, add_assoc]
  rfl

/-- An index of the output array lies in point `t`'s block iff each coordinate lies in the block's range. -/
theorem mem_blk4 (t : Fin cfg4.N) (i : S50000x96.Idx) :
    i ∈ ((cfg4.win 3).blk t).view.set ↔ ∀ a : Fin 2, win4_3.index t a * S5000x96.size a ≤ (i a).val ∧ (i a).val < win4_3.index t a * S5000x96.size a + S5000x96.size a := by
  show i ∈ ((View.whole main_v106).slice (win4_3.rect t)).set ↔ _
  rw [View.set_slice_whole, Rect.mem_set_unit]
  exact Iff.rfl

/-- Row `r` of the output array lies in the block of point `r / 5000`: the ten blocks cover the array. -/
theorem cover4 (i : S50000x96.Idx) :
    ∃ t : Fin cfg4.N, (cfg4.win 3).flush t = true ∧ i ∈ ((cfg4.win 3).blk t).view.set := by
  have hi0 : (i 0).val < 50000 := (i 0).isLt
  have hi1 : (i 1).val < 96 := (i 1).isLt
  have ht : (i 0).val / 5000 < 10 := by omega
  obtain ⟨-, -, -, -, -, e5, e6⟩ := idx_facts4 ⟨(i 0).val / 5000, ht⟩
  have e5' : win4_3.index ⟨(i 0).val / 5000, ht⟩ (0 : Fin 2) = (i 0).val / 5000 := e5
  refine ⟨⟨(i 0).val / 5000, ht⟩, flush4_3 _, ?_⟩
  rw [mem_blk4]
  intro a
  match a with
  | ⟨0, _⟩ => show win4_3.index ⟨(i 0).val / 5000, ht⟩ (0 : Fin 2) * 5000 ≤ (i 0).val ∧ (i 0).val < win4_3.index ⟨(i 0).val / 5000, ht⟩ (0 : Fin 2) * 5000 + 5000; omega
  | ⟨1, _⟩ => show win4_3.index ⟨(i 0).val / 5000, ht⟩ (1 : Fin 2) * 96 ≤ (i 1).val ∧ (i 1).val < win4_3.index ⟨(i 0).val / 5000, ht⟩ (1 : Fin 2) * 96 + 96; omega

/-- The output array after the launch is the residual layer of the arrays the launch found. -/
theorem final4 (c : Dev nD) :
    (dat4 V c).arrAt 3 cfg4.N = residual (M := 50000) (N := 96) (V c main_v79) (V c main_v103) (V c main_v105) :=
  (dat4 V c).arrAt_eq_of_cover 3 _ (fun t _ => flushed4 V c t) (cover4)

end Cert.KernelIdeal.Net

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.AffineRegions.lean ====
/-
  The four matrix-product launches.

  Each launch runs over ten blocks of 5000 rows.  At a block it loads those rows of the node features, the whole
  weight matrix and the whole bias, multiplies (accumulating from zero), adds the bias along every row, and stores.
  A row of the result depends on the same row of the features only, so the ten blocks written back are the ten
  blocks of ONE whole-array function of the arrays the launch found; and they tile the output array.
-/
import proofs.«172156_j52261162057813_1_alg».proof.Proof.Gen.KernelIdeal.Frame
import proofs.«172156_j52261162057813_1_alg».proof.Proof.Layers
import proofs.«172156_j52261162057813_1_alg».proof.Proof.LibPlainDot
import proofs.«172156_j52261162057813_1_alg».proof.Proof.ResidualRegions
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Net

open Cert.KernelIdeal Cert.KernelIdeal.Gen Cert.Net
open Idealize.ShloMosaic Idealize.ShloMosaic.TcCoe Idealize.ShloMosaic.ValueIdx Idealize.SL.Sem
open Idealize.ShloMosaic.Pipeline (Dat Cfg Window)

open scoped BigOperators

/-- A bias of length 40 laid along every row of a 5000 × 40 block. -/
theorem bias_row40 (b : Vec Ideal S40 .f32) (p : Fin 5000) (q : Fin 40) :
    broadcastTo S5000x40 (shapeCast S1x40 b shapeCasts_S40_S1x40) broadcasts_S1x40_S5000x40 (ix2 p q) = b (ix1 q) := by
  refine (broadcastTo_apply (s := S1x40) (t := S5000x40) (shapeCast S1x40 b shapeCasts_S40_S1x40) broadcasts_S1x40_S5000x40
    (ix2 p q) (ix2 ⟨0, by decide⟩ q) (fun a => by match a with | ⟨0, _⟩ => rfl | ⟨1, _⟩ => rfl)).trans ?_
  exact (shapeCast_addUnit_apply ![40] b _ _).trans (congrArg b (funext fun a => by match a with | ⟨0, _⟩ => rfl))

/-! ## The three products' dimension numbers are plain: the left operand's second axis against the right operand's
    first, no batch axis -/

theorem dotA_l0 (j : S5000x96.Idx) (q : dot_S5000x128_S128x96_S5000x96_1_0_0_1_n_n.contr.Idx) : (dot_S5000x128_S128x96_S5000x96_1_0_0_1_n_n.lhsIdx j q 0).val = (j 0).val := by
  unfold DotDims.lhsIdx
  rw [dif_neg (show ¬(0 : Fin S5000x128.rank) ∈ dot_S5000x128_S128x96_S5000x96_1_0_0_1_n_n.lhsBatch by decide), dif_pos (show (0 : Fin S5000x128.rank) ∈ dot_S5000x128_S128x96_S5000x96_1_0_0_1_n_n.lhsNonContracting by decide)]
  rfl
theorem dotA_l1 (j : S5000x96.Idx) (q : dot_S5000x128_S128x96_S5000x96_1_0_0_1_n_n.contr.Idx) : (dot_S5000x128_S128x96_S5000x96_1_0_0_1_n_n.lhsIdx j q 1).val = (q ⟨0, by decide⟩).val :=
  dot_S5000x128_S128x96_S5000x96_1_0_0_1_n_n.lhsIdx_val_of_single rfl j q
theorem dotA_r0 (j : S5000x96.Idx) (q : dot_S5000x128_S128x96_S5000x96_1_0_0_1_n_n.contr.Idx) : (dot_S5000x128_S128x96_S5000x96_1_0_0_1_n_n.rhsIdx j q 0).val = (q ⟨0, by decide⟩).val :=
  dot_S5000x128_S128x96_S5000x96_1_0_0_1_n_n.rhsIdx_val_of_single rfl j q
theorem dotA_r1 (j : S5000x96.Idx) (q : dot_S5000x128_S128x96_S5000x96_1_0_0_1_n_n.contr.Idx) : (dot_S5000x128_S128x96_S5000x96_1_0_0_1_n_n.rhsIdx j q 1).val = (j 1).val := by
  unfold DotDims.rhsIdx
  rw [dif_neg (show ¬(1 : Fin S128x96.rank) ∈ dot_S5000x128_S128x96_S5000x96_1_0_0_1_n_n.rhsBatch by decide), dif_pos (show (1 : Fin S128x96.rank) ∈ dot_S5000x128_S128x96_S5000x96_1_0_0_1_n_n.rhsNonContracting by decide)]
  rfl

theorem dotB_l0 (j : S5000x96.Idx) (q : dot_S5000x96_S96x96_S5000x96_1_0_0_1_n_n.contr.Idx) : (dot_S5000x96_S96x96_S5000x96_1_0_0_1_n_n.lhsIdx j q 0).val = (j 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
theorem dotB_l1 (j : S5000x96.Idx) (q : dot_S5000x96_S96x96_S5000x96_1_0_0_1_n_n.contr.Idx) : (dot_S5000x96_S96x96_S5000x96_1_0_0_1_n_n.lhsIdx j q 1).val = (q ⟨0, by decide⟩).val :=
  dot_S5000x96_S96x96_S5000x96_1_0_0_1_n_n.lhsIdx_val_of_single rfl j q
theorem dotB_r0 (j : S5000x96.Idx) (q : dot_S5000x96_S96x96_S5000x96_1_0_0_1_n_n.contr.Idx) : (dot_S5000x96_S96x96_S5000x96_1_0_0_1_n_n.rhsIdx j q 0).val = (q ⟨0, by decide⟩).val :=
  dot_S5000x96_S96x96_S5000x96_1_0_0_1_n_n.rhsIdx_val_of_single rfl j q
theorem dotB_r1 (j : S5000x96.Idx) (q : dot_S5000x96_S96x96_S5000x96_1_0_0_1_n_n.contr.Idx) : (dot_S5000x96_S96x96_S5000x96_1_0_0_1_n_n.rhsIdx j q 1).val = (j 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

theorem dotC_l0 (j : S5000x40.Idx) (q : dot_S5000x96_S96x40_S5000x40_1_0_0_1_n_n.contr.Idx) : (dot_S5000x96_S96x40_S5000x40_1_0_0_1_n_n.lhsIdx j q 0).val = (j 0).val := by
  unfold DotDims.lhsIdx
  rw [dif_neg (show ¬(0 : Fin S5000x96.rank) ∈ dot_S5000x96_S96x40_S5000x40_1_0_0_1_n_n.lhsBatch by decide), dif_pos (show (0 : Fin S5000x96.rank) ∈ dot_S5000x96_S96x40_S5000x40_1_0_0_1_n_n.lhsNonContracting by decide)]
  rfl
theorem dotC_l1 (j : S5000x40.Idx) (q : dot_S5000x96_S96x40_S5000x40_1_0_0_1_n_n.contr.Idx) : (dot_S5000x96_S96x40_S5000x40_1_0_0_1_n_n.lhsIdx j q 1).val = (q ⟨0, by decide⟩).val :=
  dot_S5000x96_S96x40_S5000x40_1_0_0_1_n_n.lhsIdx_val_of_single rfl j q
theorem dotC_r0 (j : S5000x40.Idx) (q : dot_S5000x96_S96x40_S5000x40_1_0_0_1_n_n.contr.Idx) : (dot_S5000x96_S96x40_S5000x40_1_0_0_1_n_n.rhsIdx j q 0).val = (q ⟨0, by decide⟩).val :=
  dot_S5000x96_S96x40_S5000x40_1_0_0_1_n_n.rhsIdx_val_of_single rfl j q
theorem dotC_r1 (j : S5000x40.Idx) (q : dot_S5000x96_S96x40_S5000x40_1_0_0_1_n_n.contr.Idx) : (dot_S5000x96_S96x40_S5000x40_1_0_0_1_n_n.rhsIdx j q 1).val = (j 1).val := by
  unfold DotDims.rhsIdx
  rw [dif_neg (show ¬(1 : Fin S96x40.rank) ∈ dot_S5000x96_S96x40_S5000x40_1_0_0_1_n_n.rhsBatch by decide), dif_pos (show (1 : Fin S96x40.rank) ∈ dot_S5000x96_S96x40_S5000x40_1_0_0_1_n_n.rhsNonContracting by decide)]
  rfl

variable (V : (c : Dev nD) → (b : Ref sig .tc) → Buf (Elt Ideal) ((c : Thread nD τ).loc b))

/-! ## Launch 0: `max (x · w + b) 0` on blocks of 5000 rows, 128 → 96 features -/

/-- The body's value on a block: entry `(r, c)` is the clip at zero of `∑ k, x (r, k) * w (k, c) + b c` (a change of float
    format is the identity on the extended reals, and the product accumulates from zero). -/
theorem pay0 (x0 : Vec Ideal S5000x128 .f32) (x1 : Vec Ideal S128x96 .f32) (x2 : Vec Ideal S96 .f32) :
    k0_pay1 x0 x1 x2 = (fun j => max ((∑ k : Fin 128, x0 (ix2 (j 0) k) * x1 (ix2 k (j 1))) + x2 (ix1 (j 1))) 0) := by
  funext j
  obtain ⟨p, q, rfl⟩ : ∃ (p : Fin 5000) (q : Fin 96), j = ix2 p q := ⟨j 0, j 1, eq_ix2 j⟩
  have hm := Cert.Lib.PlainDot.matmul_zero_apply dot_S5000x128_S128x96_S5000x96_1_0_0_1_n_n rfl rfl dotA_l0 dotA_l1 dotA_r0 dotA_r1 none
    (truncf .bf16 x0 bitsLt_bf16_f32 : FVec Ideal S5000x128 .bf16) (truncf .bf16 x1 bitsLt_bf16_f32 : FVec Ideal S128x96 .bf16) (ix2 p q)
  unfold k0_pay1
  simp only [shapeCast_self]
  show max (matmul (F := Ideal) dot_S5000x128_S128x96_S5000x96_1_0_0_1_n_n none (truncf .bf16 x0 bitsLt_bf16_f32 : FVec Ideal S5000x128 .bf16) (truncf .bf16 x1 bitsLt_bf16_f32 : FVec Ideal S128x96 .bf16) (constant S5000x96 .f32 0x00000000#32) (ix2 p q) + broadcastTo S5000x96 (shapeCast S1x96 x2 shapeCasts_S96_S1x96) broadcasts_S1x96_S5000x96 (ix2 p q)) (Ideal.ofBits .f32 0x00000000#32)
    = max ((∑ k : Fin 128, x0 (ix2 p k) * x1 (ix2 k q)) + x2 (ix1 q)) 0
  rw [bias_row96, Ideal.ofBits_zero_f32]
  exact congrArg (fun a : EReal => max (a + x2 (ix1 q)) 0) hm

/-- At grid point `t` the feature window and the output window hold rows `5000 t … 5000 t + 4999` (all their
    columns); the weight and bias windows hold their whole arrays. -/
theorem idx_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is block `t` of the layer of the arrays as the launch finds them: a row of the
    layer depends on the same row of the features only. -/
theorem flushed0 (c : Dev nD) (t : Fin cfg0.N) :
    (dat0 V c).flushed 3 t = ((cfg0.win 3).blk t).view.read (Elt Ideal)
      (affineRelu (M := 50000) (K := 128) (N := 96) (V c main_v51) (V c main_arg2) (V c main_arg3)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x96) hz2, View.ld_unit_zero (S := S96) hz1]
  rw [pay0]
  obtain ⟨e0, e1, e2, e3, e4, e5, e6⟩ := idx_facts0 t
  funext j
  have h0 : ∀ k : Fin 128, ((cfg0.win 0).blk t).view.emb (ix2 (j 0) k) = ix2 ((((cfg0.win 3).blk t).view.emb j) 0) k := fun k => by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  have h1 : ∀ k : Fin 128, ((cfg0.win 1).blk t).view.emb (ix2 k (j 1)) = ix2 k ((((cfg0.win 3).blk t).view.emb j) 1) := fun k => by
    funext a; apply Fin.ext
    match a with
    | ⟨0, _⟩ => show win0_1.index t (0 : Fin 2) * 128 + 1 * k.val = k.val; omega
    | ⟨1, _⟩ => show win0_1.index t (1 : Fin 2) * 96 + 1 * (j 1).val = win0_3.index t (1 : Fin 2) * 96 + 1 * (j 1).val; omega
  have h2 : ((cfg0.win 2).blk t).view.emb (ix1 (j 1)) = ix1 ((((cfg0.win 3).blk t).view.emb j) 1) := by
    funext a; apply Fin.ext
    match a with
    | ⟨0, _⟩ => show win0_2.index t (0 : Fin 1) * 96 + 1 * (j 1).val = win0_3.index t (1 : Fin 2) * 96 + 1 * (j 1).val; omega
  let P : S50000x128.Idx → EReal := V c main_v51
  let W : S128x96.Idx → EReal := V c main_arg2
  let B : S96.Idx → EReal := V c main_arg3
  show max ((∑ k : Fin 128, P (((cfg0.win 0).blk t).view.emb (ix2 (j 0) k)) * W (((cfg0.win 1).blk t).view.emb (ix2 k (j 1)))) + B (((cfg0.win 2).blk t).view.emb (ix1 (j 1)))) 0
    = max ((∑ k : Fin 128, P (ix2 ((((cfg0.win 3).blk t).view.emb j) 0) k) * W (ix2 k ((((cfg0.win 3).blk t).view.emb j) 1))) + B (ix1 ((((cfg0.win 3).blk t).view.emb j) 1))) 0
  rw [h2, Finset.sum_congr rfl (fun k _ => by rw [h0 k, h1 k])]
  rfl

/-- An index of the output array lies in point `t`'s block iff each coordinate lies in the block's range. -/
theorem mem_blk0 (t : Fin cfg0.N) (i : S50000x96.Idx) :
    i ∈ ((cfg0.win 3).blk t).view.set ↔ ∀ a : Fin 2, win0_3.index t a * S5000x96.size a ≤ (i a).val ∧ (i a).val < win0_3.index t a * S5000x96.size a + S5000x96.size a := by
  show i ∈ ((View.whole main_v52).slice (win0_3.rect t)).set ↔ _
  rw [View.set_slice_whole, Rect.mem_set_unit]
  exact Iff.rfl

/-- Row `r` of the output array lies in the block of point `r / 5000`: the ten blocks cover the array. -/
theorem cover0 (i : S50000x96.Idx) :
    ∃ t : Fin cfg0.N, (cfg0.win 3).flush t = true ∧ i ∈ ((cfg0.win 3).blk t).view.set := by
  have hi0 : (i 0).val < 50000 := (i 0).isLt
  have hi1 : (i 1).val < 96 := (i 1).isLt
  have ht : (i 0).val / 5000 < 10 := by omega
  obtain ⟨-, -, -, -, -, e5, e6⟩ := idx_facts0 ⟨(i 0).val / 5000, ht⟩
  have e5' : win0_3.index ⟨(i 0).val / 5000, ht⟩ (0 : Fin 2) = (i 0).val / 5000 := e5
  refine ⟨⟨(i 0).val / 5000, ht⟩, flush0_3 _, ?_⟩
  rw [mem_blk0]
  intro a
  match a with
  | ⟨0, _⟩ => show win0_3.index ⟨(i 0).val / 5000, ht⟩ (0 : Fin 2) * 5000 ≤ (i 0).val ∧ (i 0).val < win0_3.index ⟨(i 0).val / 5000, ht⟩ (0 : Fin 2) * 5000 + 5000; omega
  | ⟨1, _⟩ => show win0_3.index ⟨(i 0).val / 5000, ht⟩ (1 : Fin 2) * 96 ≤ (i 1).val ∧ (i 1).val < win0_3.index ⟨(i 0).val / 5000, ht⟩ (1 : Fin 2) * 96 + 96; omega

/-- The output array after the launch is the layer of the arrays the launch found. -/
theorem final0 (c : Dev nD) :
    (dat0 V c).arrAt 3 cfg0.N = affineRelu (M := 50000) (K := 128) (N := 96) (V c main_v51) (V c main_arg2) (V c main_arg3) :=
  (dat0 V c).arrAt_eq_of_cover 3 _ (fun t _ => flushed0 V c t) (cover0)

/-! ## Launch 1: `x · w + b` on blocks of 5000 rows, 96 → 96 features -/

/-- The body's value on a block: entry `(r, c)` is `∑ k, x (r, k) * w (k, c) + b c` (a change of float
    format is the identity on the extended reals, and the product accumulates from zero). -/
theorem pay1 (x0 : Vec Ideal S5000x96 .f32) (x1 : Vec Ideal S96x96 .f32) (x2 : Vec Ideal S96 .f32) :
    k1_pay1 x0 x1 x2 = (fun j => (∑ k : Fin 96, x0 (ix2 (j 0) k) * x1 (ix2 k (j 1))) + x2 (ix1 (j 1))) := by
  funext j
  obtain ⟨p, q, rfl⟩ : ∃ (p : Fin 5000) (q : Fin 96), j = ix2 p q := ⟨j 0, j 1, eq_ix2 j⟩
  have hm := Cert.Lib.PlainDot.matmul_zero_apply dot_S5000x96_S96x96_S5000x96_1_0_0_1_n_n rfl rfl dotB_l0 dotB_l1 dotB_r0 dotB_r1 none
    (truncf .bf16 x0 bitsLt_bf16_f32 : FVec Ideal S5000x96 .bf16) (truncf .bf16 x1 bitsLt_bf16_f32 : FVec Ideal S96x96 .bf16) (ix2 p q)
  unfold k1_pay1
  simp only [shapeCast_self]
  show matmul (F := Ideal) dot_S5000x96_S96x96_S5000x96_1_0_0_1_n_n none (truncf .bf16 x0 bitsLt_bf16_f32 : FVec Ideal S5000x96 .bf16) (truncf .bf16 x1 bitsLt_bf16_f32 : FVec Ideal S96x96 .bf16) (constant S5000x96 .f32 0x00000000#32) (ix2 p q) + broadcastTo S5000x96 (shapeCast S1x96 x2 shapeCasts_S96_S1x96) broadcasts_S1x96_S5000x96 (ix2 p q)
    = (∑ k : Fin 96, x0 (ix2 p k) * x1 (ix2 k q)) + x2 (ix1 q)
  rw [bias_row96]
  exact congrArg (fun a : EReal => a + x2 (ix1 q)) hm

/-- At grid point `t` the feature window and the output window hold rows `5000 t … 5000 t + 4999` (all their
    columns); the weight and bias windows hold their whole arrays. -/
theorem idx_facts1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point `t` writes back is block `t` of the layer of the arrays as the launch finds them: a row of the
    layer depends on the same row of the features only. -/
theorem flushed1 (c : Dev nD) (t : Fin cfg1.N) :
    (dat1 V c).flushed 3 t = ((cfg1.win 3).blk t).view.read (Elt Ideal)
      (affine (M := 50000) (K := 96) (N := 96) (V c main_v52) (V c main_v54) (V c main_v57)) := by
  show (cfg1.win 3).cut (grid1.coords t) ((dat1 V c).after 3 t) = _
  rw [after1_3]
  unfold out1_3
  rw [View.canon_unit_zero hz2]
  simp only [View.ld_unit_zero (S := S5000x96) hz2, View.ld_unit_zero (S := S96x96) hz2, View.ld_unit_zero (S := S96) hz1]
  rw [pay1]
  obtain ⟨e0, e1, e2, e3, e4, e5, e6⟩ := idx_facts1 t
  funext j
  have h0 : ∀ k : Fin 96, ((cfg1.win 0).blk t).view.emb (ix2 (j 0) k) = ix2 ((((cfg1.win 3).blk t).view.emb j) 0) k := fun k => by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 96 + 1 * k.val = k.val; omega
  have h1 : ∀ k : Fin 96, ((cfg1.win 1).blk t).view.emb (ix2 k (j 1)) = ix2 k ((((cfg1.win 3).blk t).view.emb j) 1) := fun k => by
    funext a; apply Fin.ext
    match a with
    | ⟨0, _⟩ => show win1_1.index t (0 : Fin 2) * 96 + 1 * k.val = k.val; omega
    | ⟨1, _⟩ => show win1_1.index t (1 : Fin 2) * 96 + 1 * (j 1).val = win1_3.index t (1 : Fin 2) * 96 + 1 * (j 1).val; omega
  have h2 : ((cfg1.win 2).blk t).view.emb (ix1 (j 1)) = ix1 ((((cfg1.win 3).blk t).view.emb j) 1) := by
    funext a; apply Fin.ext
    match a with
    | ⟨0, _⟩ => show win1_2.index t (0 : Fin 1) * 96 + 1 * (j 1).val = win1_3.index t (1 : Fin 2) * 96 + 1 * (j 1).val; omega
  let P : S50000x96.Idx → EReal := V c main_v52
  let W : S96x96.Idx → EReal := V c main_v54
  let B : S96.Idx → EReal := V c main_v57
  show (∑ k : Fin 96, P (((cfg1.win 0).blk t).view.emb (ix2 (j 0) k)) * W (((cfg1.win 1).blk t).view.emb (ix2 k (j 1)))) + B (((cfg1.win 2).blk t).view.emb (ix1 (j 1)))
    = (∑ k : Fin 96, P (ix2 ((((cfg1.win 3).blk t).view.emb j) 0) k) * W (ix2 k ((((cfg1.win 3).blk t).view.emb j) 1))) + B (ix1 ((((cfg1.win 3).blk t).view.emb j) 1))
  rw [h2, Finset.sum_congr rfl (fun k _ => by rw [h0 k, h1 k])]
  rfl

/-- An index of the output array lies in point `t`'s block iff each coordinate lies in the block's range. -/
theorem mem_blk1 (t : Fin cfg1.N) (i : S50000x96.Idx) :
    i ∈ ((cfg1.win 3).blk t).view.set ↔ ∀ a : Fin 2, win1_3.index t a * S5000x96.size a ≤ (i a).val ∧ (i a).val < win1_3.index t a * S5000x96.size a + S5000x96.size a := by
  show i ∈ ((View.whole main_v58).slice (win1_3.rect t)).set ↔ _
  rw [View.set_slice_whole, Rect.mem_set_unit]
  exact Iff.rfl

/-- Row `r` of the output array lies in the block of point `r / 5000`: the ten blocks cover the array. -/
theorem cover1 (i : S50000x96.Idx) :
    ∃ t : Fin cfg1.N, (cfg1.win 3).flush t = true ∧ i ∈ ((cfg1.win 3).blk t).view.set := by
  have hi0 : (i 0).val < 50000 := (i 0).isLt
  have hi1 : (i 1).val < 96 := (i 1).isLt
  have ht : (i 0).val / 5000 < 10 := by omega
  obtain ⟨-, -, -, -, -, e5, e6⟩ := idx_facts1 ⟨(i 0).val / 5000, ht⟩
  have e5' : win1_3.index ⟨(i 0).val / 5000, ht⟩ (0 : Fin 2) = (i 0).val / 5000 := e5
  refine ⟨⟨(i 0).val / 5000, ht⟩, flush1_3 _, ?_⟩
  rw [mem_blk1]
  intro a
  match a with
  | ⟨0, _⟩ => show win1_3.index ⟨(i 0).val / 5000, ht⟩ (0 : Fin 2) * 5000 ≤ (i 0).val ∧ (i 0).val < win1_3.index ⟨(i 0).val / 5000, ht⟩ (0 : Fin 2) * 5000 + 5000; omega
  | ⟨1, _⟩ => show win1_3.index ⟨(i 0).val / 5000, ht⟩ (1 : Fin 2) * 96 ≤ (i 1).val ∧ (i 1).val < win1_3.index ⟨(i 0).val / 5000, ht⟩ (1 : Fin 2) * 96 + 96; omega

/-- The output array after the launch is the layer of the arrays the launch found. -/
theorem final1 (c : Dev nD) :
    (dat1 V c).arrAt 3 cfg1.N = affine (M := 50000) (K := 96) (N := 96) (V c main_v52) (V c main_v54) (V c main_v57) :=
  (dat1 V c).arrAt_eq_of_cover 3 _ (fun t _ => flushed1 V c t) (cover1)

/-! ## Launch 3: `x · w + b` on blocks of 5000 rows, 96 → 96 features -/

/-- The body's value on a block: entry `(r, c)` is `∑ k, x (r, k) * w (k, c) + b c` (a change of float
    format is the identity on the extended reals, and the product accumulates from zero). -/
theorem pay3 (x0 : Vec Ideal S5000x96 .f32) (x1 : Vec Ideal S96x96 .f32) (x2 : Vec Ideal S96 .f32) :
    k3_pay1 x0 x1 x2 = (fun j => (∑ k : Fin 96, x0 (ix2 (j 0) k) * x1 (ix2 k (j 1))) + x2 (ix1 (j 1))) := by
  funext j
  obtain ⟨p, q, rfl⟩ : ∃ (p : Fin 5000) (q : Fin 96), j = ix2 p q := ⟨j 0, j 1, eq_ix2 j⟩
  have hm := Cert.Lib.PlainDot.matmul_zero_apply dot_S5000x96_S96x96_S5000x96_1_0_0_1_n_n rfl rfl dotB_l0 dotB_l1 dotB_r0 dotB_r1 none
    (truncf .bf16 x0 bitsLt_bf16_f32 : FVec Ideal S5000x96 .bf16) (truncf .bf16 x1 bitsLt_bf16_f32 : FVec Ideal S96x96 .bf16) (ix2 p q)
  unfold k3_pay1
  simp only [shapeCast_self]
  show matmul (F := Ideal) dot_S5000x96_S96x96_S5000x96_1_0_0_1_n_n none (truncf .bf16 x0 bitsLt_bf16_f32 : FVec Ideal S5000x96 .bf16) (truncf .bf16 x1 bitsLt_bf16_f32 : FVec Ideal S96x96 .bf16) (constant S5000x96 .f32 0x00000000#32) (ix2 p q) + broadcastTo S5000x96 (shapeCast S1x96 x2 shapeCasts_S96_S1x96) broadcasts_S1x96_S5000x96 (ix2 p q)
    = (∑ k : Fin 96, x0 (ix2 p k) * x1 (ix2 k q)) + x2 (ix1 q)
  rw [bias_row96]
  exact congrArg (fun a : EReal => a + x2 (ix1 q)) hm

/-- At grid point `t` the feature window and the output window hold rows `5000 t … 5000 t + 4999` (all their
    columns); the weight and bias windows hold their whole arrays. -/
theorem idx_facts3 : ∀ t : Fin cfg3.N, win3_0.index t (0 : Fin 2) = win3_3.index t (0 : Fin 2)
    ∧ win3_0.index t (1 : Fin 2) = 0
    ∧ win3_1.index t (0 : Fin 2) = 0
    ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- What point `t` writes back is block `t` of the layer of the arrays as the launch finds them: a row of the
    layer depends on the same row of the features only. -/
theorem flushed3 (c : Dev nD) (t : Fin cfg3.N) :
    (dat3 V c).flushed 3 t = ((cfg3.win 3).blk t).view.read (Elt Ideal)
      (affine (M := 50000) (K := 96) (N := 96) (V c main_v79) (V c main_v81) (V c main_v84)) := by
  show (cfg3.win 3).cut (grid3.coords t) ((dat3 V c).after 3 t) = _
  rw [after3_3]
  unfold out3_3
  rw [View.canon_unit_zero hz2]
  simp only [View.ld_unit_zero (S := S5000x96) hz2, View.ld_unit_zero (S := S96x96) hz2, View.ld_unit_zero (S := S96) hz1]
  rw [pay3]
  obtain ⟨e0, e1, e2, e3, e4, e5, e6⟩ := idx_facts3 t
  funext j
  have h0 : ∀ k : Fin 96, ((cfg3.win 0).blk t).view.emb (ix2 (j 0) k) = ix2 ((((cfg3.win 3).blk t).view.emb j) 0) k := fun k => by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 96 + 1 * k.val = k.val; omega
  have h1 : ∀ k : Fin 96, ((cfg3.win 1).blk t).view.emb (ix2 k (j 1)) = ix2 k ((((cfg3.win 3).blk t).view.emb j) 1) := fun k => by
    funext a; apply Fin.ext
    match a with
    | ⟨0, _⟩ => show win3_1.index t (0 : Fin 2) * 96 + 1 * k.val = k.val; omega
    | ⟨1, _⟩ => show win3_1.index t (1 : Fin 2) * 96 + 1 * (j 1).val = win3_3.index t (1 : Fin 2) * 96 + 1 * (j 1).val; omega
  have h2 : ((cfg3.win 2).blk t).view.emb (ix1 (j 1)) = ix1 ((((cfg3.win 3).blk t).view.emb j) 1) := by
    funext a; apply Fin.ext
    match a with
    | ⟨0, _⟩ => show win3_2.index t (0 : Fin 1) * 96 + 1 * (j 1).val = win3_3.index t (1 : Fin 2) * 96 + 1 * (j 1).val; omega
  let P : S50000x96.Idx → EReal := V c main_v79
  let W : S96x96.Idx → EReal := V c main_v81
  let B : S96.Idx → EReal := V c main_v84
  show (∑ k : Fin 96, P (((cfg3.win 0).blk t).view.emb (ix2 (j 0) k)) * W (((cfg3.win 1).blk t).view.emb (ix2 k (j 1)))) + B (((cfg3.win 2).blk t).view.emb (ix1 (j 1)))
    = (∑ k : Fin 96, P (ix2 ((((cfg3.win 3).blk t).view.emb j) 0) k) * W (ix2 k ((((cfg3.win 3).blk t).view.emb j) 1))) + B (ix1 ((((cfg3.win 3).blk t).view.emb j) 1))
  rw [h2, Finset.sum_congr rfl (fun k _ => by rw [h0 k, h1 k])]
  rfl

/-- An index of the output array lies in point `t`'s block iff each coordinate lies in the block's range. -/
theorem mem_blk3 (t : Fin cfg3.N) (i : S50000x96.Idx) :
    i ∈ ((cfg3.win 3).blk t).view.set ↔ ∀ a : Fin 2, win3_3.index t a * S5000x96.size a ≤ (i a).val ∧ (i a).val < win3_3.index t a * S5000x96.size a + S5000x96.size a := by
  show i ∈ ((View.whole main_v85).slice (win3_3.rect t)).set ↔ _
  rw [View.set_slice_whole, Rect.mem_set_unit]
  exact Iff.rfl

/-- Row `r` of the output array lies in the block of point `r / 5000`: the ten blocks cover the array. -/
theorem cover3 (i : S50000x96.Idx) :
    ∃ t : Fin cfg3.N, (cfg3.win 3).flush t = true ∧ i ∈ ((cfg3.win 3).blk t).view.set := by
  have hi0 : (i 0).val < 50000 := (i 0).isLt
  have hi1 : (i 1).val < 96 := (i 1).isLt
  have ht : (i 0).val / 5000 < 10 := by omega
  obtain ⟨-, -, -, -, -, e5, e6⟩ := idx_facts3 ⟨(i 0).val / 5000, ht⟩
  have e5' : win3_3.index ⟨(i 0).val / 5000, ht⟩ (0 : Fin 2) = (i 0).val / 5000 := e5
  refine ⟨⟨(i 0).val / 5000, ht⟩, flush3_3 _, ?_⟩
  rw [mem_blk3]
  intro a
  match a with
  | ⟨0, _⟩ => show win3_3.index ⟨(i 0).val / 5000, ht⟩ (0 : Fin 2) * 5000 ≤ (i 0).val ∧ (i 0).val < win3_3.index ⟨(i 0).val / 5000, ht⟩ (0 : Fin 2) * 5000 + 5000; omega
  | ⟨1, _⟩ => show win3_3.index ⟨(i 0).val / 5000, ht⟩ (1 : Fin 2) * 96 ≤ (i 1).val ∧ (i 1).val < win3_3.index ⟨(i 0).val / 5000, ht⟩ (1 : Fin 2) * 96 + 96; omega

/-- The output array after the launch is the layer of the arrays the launch found. -/
theorem final3 (c : Dev nD) :
    (dat3 V c).arrAt 3 cfg3.N = affine (M := 50000) (K := 96) (N := 96) (V c main_v79) (V c main_v81) (V c main_v84) :=
  (dat3 V c).arrAt_eq_of_cover 3 _ (fun t _ => flushed3 V c t) (cover3)

/-! ## Launch 5: `x · w + b` on blocks of 5000 rows, 96 → 40 features -/

/-- The body's value on a block: entry `(r, c)` is `∑ k, x (r, k) * w (k, c) + b c` (a change of float
    format is the identity on the extended reals, and the product accumulates from zero). -/
theorem pay5 (x0 : Vec Ideal S5000x96 .f32) (x1 : Vec Ideal S96x40 .f32) (x2 : Vec Ideal S40 .f32) :
    k5_pay1 x0 x1 x2 = (fun j => (∑ k : Fin 96, x0 (ix2 (j 0) k) * x1 (ix2 k (j 1))) + x2 (ix1 (j 1))) := by
  funext j
  obtain ⟨p, q, rfl⟩ : ∃ (p : Fin 5000) (q : Fin 40), j = ix2 p q := ⟨j 0, j 1, eq_ix2 j⟩
  have hm := Cert.Lib.PlainDot.matmul_zero_apply dot_S5000x96_S96x40_S5000x40_1_0_0_1_n_n rfl rfl dotC_l0 dotC_l1 dotC_r0 dotC_r1 none
    (truncf .bf16 x0 bitsLt_bf16_f32 : FVec Ideal S5000x96 .bf16) (truncf .bf16 x1 bitsLt_bf16_f32 : FVec Ideal S96x40 .bf16) (ix2 p q)
  unfold k5_pay1
  simp only [shapeCast_self]
  show matmul (F := Ideal) dot_S5000x96_S96x40_S5000x40_1_0_0_1_n_n none (truncf .bf16 x0 bitsLt_bf16_f32 : FVec Ideal S5000x96 .bf16) (truncf .bf16 x1 bitsLt_bf16_f32 : FVec Ideal S96x40 .bf16) (constant S5000x40 .f32 0x00000000#32) (ix2 p q) + broadcastTo S5000x40 (shapeCast S1x40 x2 shapeCasts_S40_S1x40) broadcasts_S1x40_S5000x40 (ix2 p q)
    = (∑ k : Fin 96, x0 (ix2 p k) * x1 (ix2 k q)) + x2 (ix1 q)
  rw [bias_row40]
  exact congrArg (fun a : EReal => a + x2 (ix1 q)) hm

/-- At grid point `t` the feature window and the output window hold rows `5000 t … 5000 t + 4999` (all their
    columns); the weight and bias windows hold their whole arrays. -/
theorem idx_facts5 : ∀ t : Fin cfg5.N, win5_0.index t (0 : Fin 2) = win5_3.index t (0 : Fin 2)
    ∧ win5_0.index t (1 : Fin 2) = 0
    ∧ win5_1.index t (0 : Fin 2) = 0
    ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

/-- What point `t` writes back is block `t` of the layer of the arrays as the launch finds them: a row of the
    layer depends on the same row of the features only. -/
theorem flushed5 (c : Dev nD) (t : Fin cfg5.N) :
    (dat5 V c).flushed 3 t = ((cfg5.win 3).blk t).view.read (Elt Ideal)
      (affine (M := 50000) (K := 96) (N := 40) (V c main_v106) (V c main_arg6) (V c main_arg7)) := by
  show (cfg5.win 3).cut (grid5.coords t) ((dat5 V c).after 3 t) = _
  rw [after5_3]
  unfold out5_3
  rw [View.canon_unit_zero hz2]
  simp only [View.ld_unit_zero (S := S5000x96) hz2, View.ld_unit_zero (S := S96x40) hz2, View.ld_unit_zero (S := S40) hz1]
  rw [pay5]
  obtain ⟨e0, e1, e2, e3, e4, e5, e6⟩ := idx_facts5 t
  funext j
  have h0 : ∀ k : Fin 96, ((cfg5.win 0).blk t).view.emb (ix2 (j 0) k) = ix2 ((((cfg5.win 3).blk t).view.emb j) 0) k := fun k => by
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 96 + 1 * k.val = k.val; omega
  have h1 : ∀ k : Fin 96, ((cfg5.win 1).blk t).view.emb (ix2 k (j 1)) = ix2 k ((((cfg5.win 3).blk t).view.emb j) 1) := fun k => by
    funext a; apply Fin.ext
    match a with
    | ⟨0, _⟩ => show win5_1.index t (0 : Fin 2) * 96 + 1 * k.val = k.val; omega
    | ⟨1, _⟩ => show win5_1.index t (1 : Fin 2) * 40 + 1 * (j 1).val = win5_3.index t (1 : Fin 2) * 40 + 1 * (j 1).val; omega
  have h2 : ((cfg5.win 2).blk t).view.emb (ix1 (j 1)) = ix1 ((((cfg5.win 3).blk t).view.emb j) 1) := by
    funext a; apply Fin.ext
    match a with
    | ⟨0, _⟩ => show win5_2.index t (0 : Fin 1) * 40 + 1 * (j 1).val = win5_3.index t (1 : Fin 2) * 40 + 1 * (j 1).val; omega
  let P : S50000x96.Idx → EReal := V c main_v106
  let W : S96x40.Idx → EReal := V c main_arg6
  let B : S40.Idx → EReal := V c main_arg7
  show (∑ k : Fin 96, P (((cfg5.win 0).blk t).view.emb (ix2 (j 0) k)) * W (((cfg5.win 1).blk t).view.emb (ix2 k (j 1)))) + B (((cfg5.win 2).blk t).view.emb (ix1 (j 1)))
    = (∑ k : Fin 96, P (ix2 ((((cfg5.win 3).blk t).view.emb j) 0) k) * W (ix2 k ((((cfg5.win 3).blk t).view.emb j) 1))) + B (ix1 ((((cfg5.win 3).blk t).view.emb j) 1))
  rw [h2, Finset.sum_congr rfl (fun k _ => by rw [h0 k, h1 k])]
  rfl

/-- An index of the output array lies in point `t`'s block iff each coordinate lies in the block's range. -/
theorem mem_blk5 (t : Fin cfg5.N) (i : S50000x40.Idx) :
    i ∈ ((cfg5.win 3).blk t).view.set ↔ ∀ a : Fin 2, win5_3.index t a * S5000x40.size a ≤ (i a).val ∧ (i a).val < win5_3.index t a * S5000x40.size a + S5000x40.size a := by
  show i ∈ ((View.whole main_v107).slice (win5_3.rect t)).set ↔ _
  rw [View.set_slice_whole, Rect.mem_set_unit]
  exact Iff.rfl

/-- Row `r` of the output array lies in the block of point `r / 5000`: the ten blocks cover the array. -/
theorem cover5 (i : S50000x40.Idx) :
    ∃ t : Fin cfg5.N, (cfg5.win 3).flush t = true ∧ i ∈ ((cfg5.win 3).blk t).view.set := by
  have hi0 : (i 0).val < 50000 := (i 0).isLt
  have hi1 : (i 1).val < 40 := (i 1).isLt
  have ht : (i 0).val / 5000 < 10 := by omega
  obtain ⟨-, -, -, -, -, e5, e6⟩ := idx_facts5 ⟨(i 0).val / 5000, ht⟩
  have e5' : win5_3.index ⟨(i 0).val / 5000, ht⟩ (0 : Fin 2) = (i 0).val / 5000 := e5
  refine ⟨⟨(i 0).val / 5000, ht⟩, flush5_3 _, ?_⟩
  rw [mem_blk5]
  intro a
  match a with
  | ⟨0, _⟩ => show win5_3.index ⟨(i 0).val / 5000, ht⟩ (0 : Fin 2) * 5000 ≤ (i 0).val ∧ (i 0).val < win5_3.index ⟨(i 0).val / 5000, ht⟩ (0 : Fin 2) * 5000 + 5000; omega
  | ⟨1, _⟩ => show win5_3.index ⟨(i 0).val / 5000, ht⟩ (1 : Fin 2) * 40 ≤ (i 1).val ∧ (i 1).val < win5_3.index ⟨(i 0).val / 5000, ht⟩ (1 : Fin 2) * 40 + 40; omega

/-- The output array after the launch is the layer of the arrays the launch found. -/
theorem final5 (c : Dev nD) :
    (dat5 V c).arrAt 3 cfg5.N = affine (M := 50000) (K := 96) (N := 40) (V c main_v106) (V c main_arg6) (V c main_arg7) :=
  (dat5 V c).arrAt_eq_of_cover 3 _ (fun t _ => flushed5 V c t) (cover5)

end Cert.KernelIdeal.Net

end
-- ==== Proof.LibTypedRef.lean ====
/-
  Typed references to buffers.

  A typed reference is a buffer together with the fact that the buffer's type is a given one; contents at that type are
  carried to the buffer's own type and back along that fact. Carrying there and back changes nothing — for every typed
  reference, with no need to know which buffer it is. Operations of a called function read their operands and write
  their results through such references, so a chain of them nests these round trips; rewriting with this lemma removes
  every one of them.
-/
import Idealize.ShloMosaic.Lib.StableHlo

noncomputable section

namespace Cert.Lib.TypedRef

open Idealize.ShloMosaic

/-- Contents carried to a typed reference's buffer and back are unchanged. General: it holds of every typed reference
    `x` and every value `v` of its type (destructure `x`, substitute its type equation; the two transports are then along
    `rfl`). Use: `simp only [Cert.Lib.TypedRef.ofBuf_toBuf]` on what a chain of a called function's operations leaves. -/
theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

/-- The other round trip: contents of the buffer read at the reference's type and carried back are unchanged. -/
theorem toBuf_ofBuf {sig : RefSig} {T : BufTy} {Val : EltTy → Type} (x : StableHlo.TRef sig T) (v : x.ref.ty.Contents Val) :
    x.toBuf (x.ofBuf v) = v := by
  obtain ⟨r, h, _, _⟩ := x
  subst h
  rfl

end Cert.Lib.TypedRef

end
-- ==== Proof.KernelValue.lean ====
/-
  The idealized kernel's result as the network of its arguments.

  The buffer contents at the boundaries between the program's segments are a fold from the launch memory.  A host
  stretch writes a few buffers, each a function of the buffers it reads, and leaves every other buffer alone; a
  launch replaces its output array by the layer of its input arrays and leaves every other buffer alone.  Walking
  the fold from the result buffer back to the launch memory, each buffer read on the way is either computed by the
  segment just passed or older, and the walk ends at the network of the argument arrays.
-/
import proofs.«172156_j52261162057813_1_alg».proof.Proof.Gen.KernelIdeal.Frame
import proofs.«172156_j52261162057813_1_alg».proof.Proof.Spec
import proofs.«172156_j52261162057813_1_alg».proof.Proof.ResidualRegions
import proofs.«172156_j52261162057813_1_alg».proof.Proof.AffineRegions
import proofs.«172156_j52261162057813_1_alg».proof.Proof.LibTypedRef
import Idealize.ShloMosaic.Lib.StableHlo.Run
import Idealize.ShloMosaic.Lib.Pipeline.Value

set_option maxRecDepth 16384

noncomputable section

namespace Cert.KernelIdeal.Net

open Cert.KernelIdeal Cert.KernelIdeal.Gen Cert.Net
open Idealize.ShloMosaic Idealize.ShloMosaic.TcCoe Idealize.ShloMosaic.ValueIdx Idealize.SL.Sem
open Idealize.ShloMosaic.StableHlo (after)

/-- No operation of a literal host stretch writes a given buffer: the stretch's result buffers are other
    references, one operation at a time. -/
macro "no_write" : tactic => `(tactic| (
  refine List.forall_iff_forall_mem.mp ?_
  simp only [hostOps0, hostOps1, hostOps2, hostOps3, hostOps4, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## What each host stretch computes, from any contents `U` -/

section Stages

variable (U : Valuation τ sig (Elt Ideal))

theorem stage0_src : after hostOps0 U (Proc.devRef .tc main_v3) = srcIdx (U (Proc.devRef .tc main_arg1)) := by
  dsimp only [hostOps0]; after_results_simp; rfl
theorem stage0_dst : after hostOps0 U (Proc.devRef .tc main_v6) = dstIdx (U (Proc.devRef .tc main_arg1)) := by
  dsimp only [hostOps0]; after_results_simp; rfl
theorem stage0_weight : after hostOps0 U (Proc.devRef .tc main_v33)
    = edgeWeight (srcIdx (U (Proc.devRef .tc main_arg1))) (dstIdx (U (Proc.devRef .tc main_arg1))) := by
  dsimp only [hostOps0]; after_results_simp; rfl
theorem stage0_prop : after hostOps0 U (Proc.devRef .tc main_v51)
    = propagate128 (srcIdx (U (Proc.devRef .tc main_arg1))) (dstIdx (U (Proc.devRef .tc main_arg1)))
        (edgeWeight (srcIdx (U (Proc.devRef .tc main_arg1))) (dstIdx (U (Proc.devRef .tc main_arg1))))
        (U (Proc.devRef .tc main_arg0)) := by
  dsimp only [hostOps0]; after_results_simp; rfl

theorem stage1_weight : after hostOps1 U (Proc.devRef .tc main_v54) = weight0 (U (Proc.devRef .tc main_arg4)) := by
  dsimp only [hostOps1]; after_results_simp; rfl
theorem stage1_zeros : after hostOps1 U (Proc.devRef .tc main_v57) = zeros96 := by
  dsimp only [hostOps1]; after_results_simp; rfl

theorem stage2_prop : after hostOps2 U (Proc.devRef .tc main_v76)
    = propagate96 (U (Proc.devRef .tc main_v3)) (U (Proc.devRef .tc main_v6)) (U (Proc.devRef .tc main_v33)) (U (Proc.devRef .tc main_v58)) := by
  dsimp only [hostOps2]; after_results_simp; rfl
theorem stage2_bias : after hostOps2 U (Proc.devRef .tc main_v78) = bias0 (U (Proc.devRef .tc main_arg5)) := by
  dsimp only [hostOps2]; after_results_simp; rfl

theorem stage3_weight : after hostOps3 U (Proc.devRef .tc main_v81) = weight1 (U (Proc.devRef .tc main_arg4)) := by
  dsimp only [hostOps3]; after_results_simp; rfl
theorem stage3_zeros : after hostOps3 U (Proc.devRef .tc main_v84) = zeros96 := by
  dsimp only [hostOps3]; after_results_simp; rfl

theorem stage4_prop : after hostOps4 U (Proc.devRef .tc main_v103)
    = propagate96 (U (Proc.devRef .tc main_v3)) (U (Proc.devRef .tc main_v6)) (U (Proc.devRef .tc main_v33)) (U (Proc.devRef .tc main_v85)) := by
  dsimp only [hostOps4]; after_results_simp; rfl
theorem stage4_bias : after hostOps4 U (Proc.devRef .tc main_v105) = bias1 (U (Proc.devRef .tc main_arg5)) := by
  dsimp only [hostOps4]; after_results_simp; rfl

theorem stage6_result : after hostOps6 U (Proc.devRef .tc main_v108) = logSoftmax (U (Proc.devRef .tc main_v107)) := by
  dsimp only [hostOps6]; after_results_simp
  simp only [Cert.Lib.TypedRef.ofBuf_toBuf]
  refine (cast_eq _ _).trans ?_
  have hz : (StableHlo.TRef.of (T := ⟨S50000x40, .f32⟩) main_v107).ofBuf (U (Proc.devRef .tc main_v107)) = U (Proc.devRef .tc main_v107) :=
    cast_eq _ _
  rw [hz]
  rfl

end Stages

/-- The zero bias is zero everywhere. -/
theorem zeros96_eq : (zeros96 : FArr S96) = fun _ => (0 : EReal) :=
  funext fun i => (broadcastInDim_apply (s := S_) (t := S96) ![] bcast_S_S96 _ i ix0 (fun a => a.elim0)).trans Ideal.ofBits_zero_f32

/-! ## Buffers that persist across segments

A launch leaves every buffer that is not one of its arrays alone; a host stretch leaves every buffer it does not write
alone. -/

section Walk

variable (m : (ℓ : Loc nD τ sig) → Buf (Elt Ideal) ℓ) (ρ : Dev nD → PrngReg) (c : Dev nD)

theorem W1_of_launch (b : Ref sig .tc)
    (h0 : ∀ op ∈ (hostOps0 : List (HloOp τ sig (Elt Ideal))), Proc.devRef .tc b ∉ op.writes) :
    W1 m ρ c (Proc.devRef .tc b) = m ((c : Thread nD τ).loc b) :=
  StableHlo.after_of_forall_not_mem _ _ h0

theorem W4_of_W1 (b : Ref sig .tc) (r0 : ∀ w, Pipeline.arrRef spec0 w ≠ b)
    (h1 : ∀ op ∈ (hostOps1 : List (HloOp τ sig (Elt Ideal))), Proc.devRef .tc b ∉ op.writes)
    (r1 : ∀ w, Pipeline.arrRef spec1 w ≠ b) :
    W4 m ρ c (Proc.devRef .tc b) = W1 m ρ c (Proc.devRef .tc b) :=
  (W4_of_ne m ρ c b r1).trans ((StableHlo.after_of_forall_not_mem _ _ h1).trans (W2_of_ne m ρ c b r0))

theorem W6_of_W1 (b : Ref sig .tc) (r0 : ∀ w, Pipeline.arrRef spec0 w ≠ b)
    (h1 : ∀ op ∈ (hostOps1 : List (HloOp τ sig (Elt Ideal))), Proc.devRef .tc b ∉ op.writes)
    (r1 : ∀ w, Pipeline.arrRef spec1 w ≠ b)
    (h2 : ∀ op ∈ (hostOps2 : List (HloOp τ sig (Elt Ideal))), Proc.devRef .tc b ∉ op.writes)
    (r2 : ∀ w, Pipeline.arrRef spec2 w ≠ b) :
    W6 m ρ c (Proc.devRef .tc b) = W1 m ρ c (Proc.devRef .tc b) :=
  (W6_of_ne m ρ c b r2).trans ((StableHlo.after_of_forall_not_mem _ _ h2).trans (W4_of_W1 m ρ c b r0 h1 r1))

theorem W8_of_W1 (b : Ref sig .tc) (r0 : ∀ w, Pipeline.arrRef spec0 w ≠ b)
    (h1 : ∀ op ∈ (hostOps1 : List (HloOp τ sig (Elt Ideal))), Proc.devRef .tc b ∉ op.writes)
    (r1 : ∀ w, Pipeline.arrRef spec1 w ≠ b)
    (h2 : ∀ op ∈ (hostOps2 : List (HloOp τ sig (Elt Ideal))), Proc.devRef .tc b ∉ op.writes)
    (r2 : ∀ w, Pipeline.arrRef spec2 w ≠ b)
    (h3 : ∀ op ∈ (hostOps3 : List (HloOp τ sig (Elt Ideal))), Proc.devRef .tc b ∉ op.writes)
    (r3 : ∀ w, Pipeline.arrRef spec3 w ≠ b) :
    W8 m ρ c (Proc.devRef .tc b) = W1 m ρ c (Proc.devRef .tc b) :=
  (W8_of_ne m ρ c b r3).trans ((StableHlo.after_of_forall_not_mem _ _ h3).trans (W6_of_W1 m ρ c b r0 h1 r1 h2 r2))

theorem W10_of_W1 (b : Ref sig .tc) (r0 : ∀ w, Pipeline.arrRef spec0 w ≠ b)
    (h1 : ∀ op ∈ (hostOps1 : List (HloOp τ sig (Elt Ideal))), Proc.devRef .tc b ∉ op.writes)
    (r1 : ∀ w, Pipeline.arrRef spec1 w ≠ b)
    (h2 : ∀ op ∈ (hostOps2 : List (HloOp τ sig (Elt Ideal))), Proc.devRef .tc b ∉ op.writes)
    (r2 : ∀ w, Pipeline.arrRef spec2 w ≠ b)
    (h3 : ∀ op ∈ (hostOps3 : List (HloOp τ sig (Elt Ideal))), Proc.devRef .tc b ∉ op.writes)
    (r3 : ∀ w, Pipeline.arrRef spec3 w ≠ b)
    (h4 : ∀ op ∈ (hostOps4 : List (HloOp τ sig (Elt Ideal))), Proc.devRef .tc b ∉ op.writes)
    (r4 : ∀ w, Pipeline.arrRef spec4 w ≠ b) :
    W10 m ρ c (Proc.devRef .tc b) = W1 m ρ c (Proc.devRef .tc b) :=
  (W10_of_ne m ρ c b r4).trans ((StableHlo.after_of_forall_not_mem _ _ h4).trans (W8_of_W1 m ρ c b r0 h1 r1 h2 r2 h3 r3))

/-! ### The arguments, where a later segment reads them -/

theorem W1_arg2 : W1 m ρ c (Proc.devRef .tc main_arg2) = m ((c : Thread nD τ).loc main_arg2) :=
  W1_of_launch m ρ c main_arg2 (by no_write)
theorem W1_arg3 : W1 m ρ c (Proc.devRef .tc main_arg3) = m ((c : Thread nD τ).loc main_arg3) :=
  W1_of_launch m ρ c main_arg3 (by no_write)
theorem W2_arg4 : W2 m ρ c (Proc.devRef .tc main_arg4) = m ((c : Thread nD τ).loc main_arg4) :=
  (W2_of_ne m ρ c main_arg4 (by decide)).trans (W1_of_launch m ρ c main_arg4 (by no_write))
theorem W6_arg4 : W6 m ρ c (Proc.devRef .tc main_arg4) = m ((c : Thread nD τ).loc main_arg4) :=
  (W6_of_W1 m ρ c main_arg4 (by decide) (by no_write) (by decide) (by no_write) (by decide)).trans (W1_of_launch m ρ c main_arg4 (by no_write))
theorem W4_arg5 : W4 m ρ c (Proc.devRef .tc main_arg5) = m ((c : Thread nD τ).loc main_arg5) :=
  (W4_of_W1 m ρ c main_arg5 (by decide) (by no_write) (by decide)).trans (W1_of_launch m ρ c main_arg5 (by no_write))
theorem W8_arg5 : W8 m ρ c (Proc.devRef .tc main_arg5) = m ((c : Thread nD τ).loc main_arg5) :=
  (W8_of_W1 m ρ c main_arg5 (by decide) (by no_write) (by decide) (by no_write) (by decide) (by no_write) (by decide)).trans
    (W1_of_launch m ρ c main_arg5 (by no_write))
theorem W10_arg6 : W10 m ρ c (Proc.devRef .tc main_arg6) = m ((c : Thread nD τ).loc main_arg6) :=
  (W10_of_W1 m ρ c main_arg6 (by decide) (by no_write) (by decide) (by no_write) (by decide) (by no_write) (by decide) (by no_write) (by decide)).trans
    (W1_of_launch m ρ c main_arg6 (by no_write))
theorem W10_arg7 : W10 m ρ c (Proc.devRef .tc main_arg7) = m ((c : Thread nD τ).loc main_arg7) :=
  (W10_of_W1 m ρ c main_arg7 (by decide) (by no_write) (by decide) (by no_write) (by decide) (by no_write) (by decide) (by no_write) (by decide)).trans
    (W1_of_launch m ρ c main_arg7 (by no_write))

/-! ### The argument arrays by name, the edges' ends and weights, and the features after each layer -/

abbrev aX : FArr S50000x128 := m ((c : Thread nD τ).loc main_arg0)
abbrev aE : IArr S2x800000 := m ((c : Thread nD τ).loc main_arg1)
abbrev aW1 : FArr S128x96 := m ((c : Thread nD τ).loc main_arg2)
abbrev ab1 : FArr S96 := m ((c : Thread nD τ).loc main_arg3)
abbrev aWg : FArr S2x96x96 := m ((c : Thread nD τ).loc main_arg4)
abbrev abg : FArr S2x96 := m ((c : Thread nD τ).loc main_arg5)
abbrev aWl : FArr S96x40 := m ((c : Thread nD τ).loc main_arg6)
abbrev abl : FArr S40 := m ((c : Thread nD τ).loc main_arg7)
abbrev eS : IArr S850000 := srcIdx (aE m c)
abbrev eD : IArr S850000 := dstIdx (aE m c)
abbrev eW : FArr S850000 := edgeWeight (eS m c) (eD m c)
abbrev feat0 : FArr S50000x96 :=
  affineRelu (M := 50000) (K := 128) (N := 96) (propagate128 (eS m c) (eD m c) (eW m c) (aX m c)) (aW1 m c) (ab1 m c)
abbrev feat1 : FArr S50000x96 := graphLayer (eS m c) (eD m c) (eW m c) (feat0 m c) (weight0 (aWg m c)) (bias0 (abg m c))
abbrev feat2 : FArr S50000x96 := graphLayer (eS m c) (eD m c) (eW m c) (feat1 m c) (weight1 (aWg m c)) (bias1 (abg m c))

/-! ### The edges' ends and weights, computed by the first stretch, where the two propagations read them -/

theorem W4_src : W4 m ρ c (Proc.devRef .tc main_v3) = eS m c :=
  (W4_of_W1 m ρ c main_v3 (by decide) (by no_write) (by decide)).trans (stage0_src (W0 m ρ c))
theorem W4_dst : W4 m ρ c (Proc.devRef .tc main_v6) = eD m c :=
  (W4_of_W1 m ρ c main_v6 (by decide) (by no_write) (by decide)).trans (stage0_dst (W0 m ρ c))
theorem W4_wt : W4 m ρ c (Proc.devRef .tc main_v33) = eW m c :=
  (W4_of_W1 m ρ c main_v33 (by decide) (by no_write) (by decide)).trans (stage0_weight (W0 m ρ c))
theorem W8_src : W8 m ρ c (Proc.devRef .tc main_v3) = eS m c :=
  (W8_of_W1 m ρ c main_v3 (by decide) (by no_write) (by decide) (by no_write) (by decide) (by no_write) (by decide)).trans (stage0_src (W0 m ρ c))
theorem W8_dst : W8 m ρ c (Proc.devRef .tc main_v6) = eD m c :=
  (W8_of_W1 m ρ c main_v6 (by decide) (by no_write) (by decide) (by no_write) (by decide) (by no_write) (by decide)).trans (stage0_dst (W0 m ρ c))
theorem W8_wt : W8 m ρ c (Proc.devRef .tc main_v33) = eW m c :=
  (W8_of_W1 m ρ c main_v33 (by decide) (by no_write) (by decide) (by no_write) (by decide) (by no_write) (by decide)).trans (stage0_weight (W0 m ρ c))

/-! ### The features, boundary by boundary -/

/-- The first launch leaves the first layer's features. -/
theorem W2_feat : W2 m ρ c (Proc.devRef .tc main_v52) = feat0 m c := by
  rw [show W2 m ρ c (Proc.devRef .tc main_v52) = (dat0 (V1 m ρ) c).arrAt 3 cfg0.N from W2_arr m ρ c 3, final0]
  show affineRelu (M := 50000) (K := 128) (N := 96) (W1 m ρ c (Proc.devRef .tc main_v51)) (W1 m ρ c (Proc.devRef .tc main_arg2))
    (W1 m ρ c (Proc.devRef .tc main_arg3)) = _
  rw [show W1 m ρ c (Proc.devRef .tc main_v51) = propagate128 (eS m c) (eD m c) (eW m c) (aX m c) from stage0_prop (W0 m ρ c),
    W1_arg2, W1_arg3]

theorem W3_feat : W3 m ρ c (Proc.devRef .tc main_v52) = feat0 m c :=
  (StableHlo.after_of_forall_not_mem _ _ (by no_write)).trans (W2_feat m ρ c)
theorem W3_weight : W3 m ρ c (Proc.devRef .tc main_v54) = weight0 (aWg m c) :=
  (stage1_weight (W2 m ρ c)).trans (congrArg weight0 (W2_arg4 m ρ c))
theorem W3_zeros : W3 m ρ c (Proc.devRef .tc main_v57) = zeros96 := stage1_zeros (W2 m ρ c)

/-- The second launch leaves the features times the first square matrix: its bias is the zero bias. -/
theorem W4_prod : W4 m ρ c (Proc.devRef .tc main_v58) = matprod (M := 50000) (K := 96) (N := 96) (feat0 m c) (weight0 (aWg m c)) := by
  rw [show W4 m ρ c (Proc.devRef .tc main_v58) = (dat1 (V3 m ρ) c).arrAt 3 cfg1.N from W4_arr m ρ c 3, final1]
  show affine (M := 50000) (K := 96) (N := 96) (W3 m ρ c (Proc.devRef .tc main_v52)) (W3 m ρ c (Proc.devRef .tc main_v54))
    (W3 m ρ c (Proc.devRef .tc main_v57)) = _
  rw [W3_feat, W3_weight, W3_zeros, zeros96_eq, affine_zero]
/-- The features are an input array of the second launch: it leaves them as it found them. -/
theorem W4_feat : W4 m ρ c (Proc.devRef .tc main_v52) = feat0 m c :=
  ((W4_arr m ρ c 0).trans (((dat1 (V3 m ρ) c).arrAt_in 0 rfl _).trans (A_eq1 (V3 m ρ) c 0))).trans (W3_feat m ρ c)

theorem W5_feat : W5 m ρ c (Proc.devRef .tc main_v52) = feat0 m c :=
  (StableHlo.after_of_forall_not_mem _ _ (by no_write)).trans (W4_feat m ρ c)
theorem W5_agg : W5 m ρ c (Proc.devRef .tc main_v76)
    = propagate96 (eS m c) (eD m c) (eW m c) (matprod (M := 50000) (K := 96) (N := 96) (feat0 m c) (weight0 (aWg m c))) := by
  refine (stage2_prop (W4 m ρ c)).trans ?_
  rw [W4_src, W4_dst, W4_wt, W4_prod]
theorem W5_bias : W5 m ρ c (Proc.devRef .tc main_v78) = bias0 (abg m c) :=
  (stage2_bias (W4 m ρ c)).trans (congrArg bias0 (W4_arg5 m ρ c))

/-- The third launch leaves the features after the first residual layer. -/
theorem W6_feat : W6 m ρ c (Proc.devRef .tc main_v79) = feat1 m c := by
  rw [show W6 m ρ c (Proc.devRef .tc main_v79) = (dat2 (V5 m ρ) c).arrAt 3 cfg2.N from W6_arr m ρ c 3, final2]
  show residual (M := 50000) (N := 96) (W5 m ρ c (Proc.devRef .tc main_v52)) (W5 m ρ c (Proc.devRef .tc main_v76))
    (W5 m ρ c (Proc.devRef .tc main_v78)) = _
  rw [W5_feat, W5_agg, W5_bias]
  rfl

theorem W7_feat : W7 m ρ c (Proc.devRef .tc main_v79) = feat1 m c :=
  (StableHlo.after_of_forall_not_mem _ _ (by no_write)).trans (W6_feat m ρ c)
theorem W7_weight : W7 m ρ c (Proc.devRef .tc main_v81) = weight1 (aWg m c) :=
  (stage3_weight (W6 m ρ c)).trans (congrArg weight1 (W6_arg4 m ρ c))
theorem W7_zeros : W7 m ρ c (Proc.devRef .tc main_v84) = zeros96 := stage3_zeros (W6 m ρ c)

theorem W8_prod : W8 m ρ c (Proc.devRef .tc main_v85) = matprod (M := 50000) (K := 96) (N := 96) (feat1 m c) (weight1 (aWg m c)) := by
  rw [show W8 m ρ c (Proc.devRef .tc main_v85) = (dat3 (V7 m ρ) c).arrAt 3 cfg3.N from W8_arr m ρ c 3, final3]
  show affine (M := 50000) (K := 96) (N := 96) (W7 m ρ c (Proc.devRef .tc main_v79)) (W7 m ρ c (Proc.devRef .tc main_v81))
    (W7 m ρ c (Proc.devRef .tc main_v84)) = _
  rw [W7_feat, W7_weight, W7_zeros, zeros96_eq, affine_zero]
theorem W8_feat : W8 m ρ c (Proc.devRef .tc main_v79) = feat1 m c :=
  ((W8_arr m ρ c 0).trans (((dat3 (V7 m ρ) c).arrAt_in 0 rfl _).trans (A_eq3 (V7 m ρ) c 0))).trans (W7_feat m ρ c)

theorem W9_feat : W9 m ρ c (Proc.devRef .tc main_v79) = feat1 m c :=
  (StableHlo.after_of_forall_not_mem _ _ (by no_write)).trans (W8_feat m ρ c)
theorem W9_agg : W9 m ρ c (Proc.devRef .tc main_v103)
    = propagate96 (eS m c) (eD m c) (eW m c) (matprod (M := 50000) (K := 96) (N := 96) (feat1 m c) (weight1 (aWg m c))) := by
  refine (stage4_prop (W8 m ρ c)).trans ?_
  rw [W8_src, W8_dst, W8_wt, W8_prod]
theorem W9_bias : W9 m ρ c (Proc.devRef .tc main_v105) = bias1 (abg m c) :=
  (stage4_bias (W8 m ρ c)).trans (congrArg bias1 (W8_arg5 m ρ c))

/-- The fifth launch leaves the features after the second residual layer. -/
theorem W10_feat : W10 m ρ c (Proc.devRef .tc main_v106) = feat2 m c := by
  rw [show W10 m ρ c (Proc.devRef .tc main_v106) = (dat4 (V9 m ρ) c).arrAt 3 cfg4.N from W10_arr m ρ c 3, final4]
  show residual (M := 50000) (N := 96) (W9 m ρ c (Proc.devRef .tc main_v79)) (W9 m ρ c (Proc.devRef .tc main_v103))
    (W9 m ρ c (Proc.devRef .tc main_v105)) = _
  rw [W9_feat, W9_agg, W9_bias]
  rfl

/-- The last launch leaves the last affine layer of the features. -/
theorem W11_logits : W11 m ρ c (Proc.devRef .tc main_v107) = affine (M := 50000) (K := 96) (N := 40) (feat2 m c) (aWl m c) (abl m c) := by
  rw [show W11 m ρ c (Proc.devRef .tc main_v107) = (dat5 (V10 m ρ) c).arrAt 3 cfg5.N from W11_arr m ρ c 3, final5]
  show affine (M := 50000) (K := 96) (N := 40) (W10 m ρ c (Proc.devRef .tc main_v106)) (W10 m ρ c (Proc.devRef .tc main_arg6))
    (W10 m ρ c (Proc.devRef .tc main_arg7)) = _
  rw [W10_feat, W10_arg6, W10_arg7]

/-- THE RESULT: the last boundary's contents at the result buffer are the network of the argument arrays. -/
theorem result_eq : W12 m ρ c (Proc.devRef .tc main_v108)
    = net (aX m c) (aE m c) (aW1 m c) (ab1 m c) (aWg m c) (abg m c) (aWl m c) (abl m c) :=
  (stage6_result (W11 m ρ c)).trans (congrArg logSoftmax (W11_logits m ρ c))

end Walk

end Cert.KernelIdeal.Net

end
-- ==== Proof.RefSpec.lean ====
/-
  The network as one function of the argument arrays.

  The graph has 50000 nodes and 800000 given edges; every node also gets a self loop, so there are 850000 edges,
  each with a source and a target node.  A node's degree counts the edges that end at it (at least 1 after the
  clip), and an edge's weight is the product of the inverse square roots of its two ends' degrees.  To propagate
  node features is to gather each edge's source row, scale it by the edge's weight and add it into the edge's
  target row.  The network propagates the input features and applies an affine layer with a clip at zero; twice
  multiplies by a square weight matrix, propagates, and adds the result and a bias back onto the features, with a
  clip at zero; applies a last affine layer; and normalizes every row by the logarithm of its softmax.
-/
import proofs.«172156_j52261162057813_1_alg».proof.ReferenceIdeal
import proofs.«172156_j52261162057813_1_alg».proof.Proof.Layers

noncomputable section

namespace Cert.ReferenceIdeal.Net

open Cert.ReferenceIdeal Cert.Net Idealize.ShloMosaic

variable [Facts₀]
open Facts₀

/-- A float array of a shape, on the extended reals. -/
abbrev FArr (s : Shape) := (⟨s, .f32⟩ : BufTy).Contents (Elt Ideal)
/-- A 32-bit integer array of a shape. -/
abbrev IArr (s : Shape) := (⟨s, .i32⟩ : BufTy).Contents (Elt Ideal)

/-- The edges' source nodes: row 0 of the edge list followed by the node ids `0 … 49999` (the self loops). -/
def srcIdx (e : IArr S2x800000) : IArr S850000 :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0
/-- The edges' target nodes: row 1 of the edge list followed by the node ids. -/
def dstIdx (e : IArr S2x800000) : IArr S850000 :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- Node ids as a column of start indices, a negative id counted from the end. -/
def startCol (u : IArr S850000) : IArr S850000x1 :=
  broadcastInDim S850000x1 ![0] bcast_S850000_S850000x1_0
    (select (cmpi .slt u (broadcastInDim S850000 ![] bcast_S_S850000 (constantI S_ 32 0#32)))
      (addi u (broadcastInDim S850000 ![] bcast_S_S850000 (constantI S_ 32 50000#32))) u)

/-- The number of edges ending at each node, for the edges' target nodes `d`. -/
def degree (d : IArr S850000) : FArr S50000 :=
  Host.scatterAdd (F := Ideal) scatter_S50000_S850000x1_S850000_n_0_0_1
    (broadcastInDim S50000 ![] bcast_S_S50000 (constant (F := Ideal) S_ .f32 0x00000000#32))
    (startCol d)
    (broadcastInDim S850000 ![] bcast_S_S850000 (constant (F := Ideal) S_ .f32 0x3F800000#32))

/-- `1 / sqrt (max degree 1)` per node. -/
def invSqrtDeg (d : IArr S850000) : FArr S50000 :=
  Host.rsqrt (F := Ideal) (maximumf (degree d) (broadcastInDim S50000 ![] bcast_S_S50000 (constant (F := Ideal) S_ .f32 0x3F800000#32)))

/-- An edge's weight: the product of its two ends' inverse square-root degrees. -/
def edgeWeight (s d : IArr S850000) : FArr S850000 :=
  mulf (F := Ideal) (φ := .f32) (Host.gather gather_S50000_S850000x1_S850000_n_0_n_n_0_1_1 (invSqrtDeg d) (startCol s))
    (Host.gather gather_S50000_S850000x1_S850000_n_0_n_n_0_1_1 (invSqrtDeg d) (startCol d))

/-- Propagation of 128 features per node along edges with sources `s`, targets `d` and weights `w`. -/
def propagate128 (s d : IArr S850000) (w : FArr S850000) (x : FArr S50000x128) : FArr S50000x128 :=
  Host.scatterAdd (F := Ideal) scatter_S50000x128_S850000x1_S850000x128_1_0_0_1
    (broadcastInDim S50000x128 ![] bcast_S_S50000x128 (constant (F := Ideal) S_ .f32 0x00000000#32))
    (startCol d)
    (mulf (Host.gather gather_S50000x128_S850000x1_S850000x128_1_0_n_n_0_1_1128 x (startCol s))
      (broadcastInDim S850000x128 ![0, 1] bcast_S850000x1_S850000x128_0_1 (broadcastInDim S850000x1 ![0] bcast_S850000_S850000x1_0 w)))

/-- Propagation of 96 features per node. -/
def propagate96 (s d : IArr S850000) (w : FArr S850000) (t : FArr S50000x96) : FArr S50000x96 :=
  Host.scatterAdd (F := Ideal) scatter_S50000x96_S850000x1_S850000x96_1_0_0_1
    (broadcastInDim S50000x96 ![] bcast_S_S50000x96 (constant (F := Ideal) S_ .f32 0x00000000#32))
    (startCol d)
    (mulf (Host.gather gather_S50000x96_S850000x1_S850000x96_1_0_n_n_0_1_196 t (startCol s))
      (broadcastInDim S850000x96 ![0, 1] bcast_S850000x1_S850000x96_0_1 (broadcastInDim S850000x1 ![0] bcast_S850000_S850000x1_0 w)))

/-- The two square weight matrices and their biases, sliced out of the stacked arguments. -/
def weight0 (Wg : FArr S2x96x96) : FArr S96x96 := shapeCast S96x96 (extractStridedSlice S1x96x96 ![0, 0, 0] Wg slices_S2x96x96_S1x96x96_0_0_0) shapeCasts_S1x96x96_S96x96
def weight1 (Wg : FArr S2x96x96) : FArr S96x96 := shapeCast S96x96 (extractStridedSlice S1x96x96 ![1, 0, 0] Wg slices_S2x96x96_S1x96x96_1_0_0) shapeCasts_S1x96x96_S96x96
def bias0 (bg : FArr S2x96) : FArr S96 := shapeCast S96 (extractStridedSlice S1x96 ![0, 0] bg slices_S2x96_S1x96_0_0) shapeCasts_S1x96_S96
def bias1 (bg : FArr S2x96) : FArr S96 := shapeCast S96 (extractStridedSlice S1x96 ![1, 0] bg slices_S2x96_S1x96_1_0) shapeCasts_S1x96_S96

/-- `z - max z - log (∑ exp (z - max z))` along every row. -/
def logSoftmax (z : FArr S50000x40) : FArr S50000x40 :=
  subf (subf z (broadcastInDim S50000x40 ![0, 1] bcast_S50000x1_S50000x40_0_1 (broadcastInDim S50000x1 ![0] bcast_S50000_S50000x1_0
      (maximumf (broadcastInDim S50000 ![] bcast_S_S50000 (constant (F := Ideal) S_ .f32 0xFF800000#32))
        (Host.reduce (FloatOps.maximumf (F := Ideal)) z (constant (F := Ideal) S_ .f32 0xFF800000#32) reducesTo_S50000x40_S50000_d1 h_S_)))))
    (broadcastInDim S50000x40 ![0, 1] bcast_S50000x1_S50000x40_0_1 (Host.log (F := Ideal) (broadcastInDim S50000x1 ![0] bcast_S50000_S50000x1_0
      (Host.reduceAdd (F := Ideal) (Host.exp (F := Ideal) (subf z (broadcastInDim S50000x40 ![0, 1] bcast_S50000x1_S50000x40_0_1 (broadcastInDim S50000x1 ![0] bcast_S50000_S50000x1_0
        (maximumf (broadcastInDim S50000 ![] bcast_S_S50000 (constant (F := Ideal) S_ .f32 0xFF800000#32))
          (Host.reduce (FloatOps.maximumf (F := Ideal)) z (constant (F := Ideal) S_ .f32 0xFF800000#32) reducesTo_S50000x40_S50000_d1 h_S_))))))
        (constant (F := Ideal) S_ .f32 0x00000000#32) reducesTo_S50000x40_S50000_d1 h_S_))))

/-- One residual layer over the graph: `max (h + (propagate (h · w) + b)) 0`. -/
def graphLayer (s d : IArr S850000) (wt : FArr S850000) (h : FArr S50000x96) (w : FArr S96x96) (b : FArr S96) : FArr S50000x96 :=
  residual (M := 50000) (N := 96) h (propagate96 s d wt (matprod (M := 50000) (K := 96) (N := 96) h w)) b

/-- The network's result. -/
def net (x : FArr S50000x128) (e : IArr S2x800000) (W1 : FArr S128x96) (b1 : FArr S96) (Wg : FArr S2x96x96) (bg : FArr S2x96)
    (Wl : FArr S96x40) (bl : FArr S40) : FArr S50000x40 :=
  logSoftmax (affine (M := 50000) (K := 96) (N := 40)
    (graphLayer (srcIdx e) (dstIdx e) (edgeWeight (srcIdx e) (dstIdx e))
      (graphLayer (srcIdx e) (dstIdx e) (edgeWeight (srcIdx e) (dstIdx e))
        (affineRelu (M := 50000) (K := 128) (N := 96) (propagate128 (srcIdx e) (dstIdx e) (edgeWeight (srcIdx e) (dstIdx e)) x) W1 b1)
        (weight0 Wg) (bias0 bg))
      (weight1 Wg) (bias1 bg))
    Wl bl)

end Cert.ReferenceIdeal.Net

end
-- ==== Proof.RefRun.lean ====
/-
  The idealized reference's run, read in five stages.

  The reference is a straight line of host operations, so every weakly fair execution ends with each buffer at the
  fold of the operations' results over the launch memory.  The line is cut where the kernel program has its
  launches: the graph's edges, degrees and weights and the first propagation; the first affine layer with its clip;
  the two residual layers over the graph; the last affine layer and the logarithm of the softmax.
-/
import proofs.«172156_j52261162057813_1_alg».proof.Proof.Gen.ReferenceIdeal
import proofs.«172156_j52261162057813_1_alg».proof.Proof.RefSpec
import proofs.«172156_j52261162057813_1_alg».proof.Proof.LibPlainDot
import Idealize.ShloMosaic.Lib.StableHlo.Run
import Idealize.ShloMosaic.Lib.Pipeline.Frame
import Idealize.ShloMosaic.Lib.Pipeline.Value
import Idealize.ShloMosaic.Lib.ValueIdx
import Idealize.ShloMosaic.PureOps.Ideal.Laws

set_option maxRecDepth 16384

noncomputable section

namespace Cert.ReferenceIdeal.Net

open Cert.ReferenceIdeal Cert.ReferenceIdeal.Gen Cert.Net Idealize.ShloMosaic Idealize.ShloMosaic.TcCoe Idealize.SL.Sem Idealize.ShloMosaic.StableHlo
open Idealize.ShloMosaic.ValueIdx
open scoped BigOperators

section Program

variable {F : FTy → Type} [FloatOps F]

/-- @main's 162 operations, in order (a called function's operations stand in its call's place). -/
abbrev ops : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x00000000#32),
    unary main_cst main_v7 (broadcastInDim S50000 ![] bcast_S_S50000 : (⟨S_, .f32⟩ : BufTy).Contents (Elt F) → (⟨S50000, .f32⟩ : BufTy).Contents (Elt F)),
    nullary main_c (constantI S_ 32 0#32),
    unary main_c main_v8 (broadcastInDim S850000 ![] bcast_S_S850000 : (⟨S_, .i32⟩ : BufTy).Contents (Elt F) → (⟨S850000, .i32⟩ : BufTy).Contents (Elt F)),
    binary main_v6 main_v8 main_v9 (cmpi .slt : (⟨S850000, .i32⟩ : BufTy).Contents (Elt F) → (⟨S850000, .i32⟩ : BufTy).Contents (Elt F) → (⟨S850000, .i1⟩ : BufTy).Contents (Elt F)),
    nullary main_c_0 (constantI S_ 32 50000#32),
    unary main_c_0 main_v10 (broadcastInDim S850000 ![] bcast_S_S850000 : (⟨S_, .i32⟩ : BufTy).Contents (Elt F) → (⟨S850000, .i32⟩ : BufTy).Contents (Elt F)),
    binary main_v6 main_v10 main_v11 (addi : (⟨S850000, .i32⟩ : BufTy).Contents (Elt F) → (⟨S850000, .i32⟩ : BufTy).Contents (Elt F) → (⟨S850000, .i32⟩ : BufTy).Contents (Elt F)),
    ternary main_v9 main_v11 main_v6 main_v12 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v12 main_v13 (broadcastInDim S850000x1 ![0] bcast_S850000_S850000x1_0 : (⟨S850000, .i32⟩ : BufTy).Contents (Elt F) → (⟨S850000x1, .i32⟩ : BufTy).Contents (Elt F)),
    nullary main_cst_1 (constant S_ .f32 0x3F800000#32),
    unary main_cst_1 main_v14 (broadcastInDim S850000 ![] bcast_S_S850000 : (⟨S_, .f32⟩ : BufTy).Contents (Elt F) → (⟨S850000, .f32⟩ : BufTy).Contents (Elt F)),
    ternary main_v7 main_v13 main_v14 main_v15 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_2 (constant S_ .f32 0x3F800000#32),
    unary main_cst_2 main_v16 (broadcastInDim S50000 ![] bcast_S_S50000 : (⟨S_, .f32⟩ : BufTy).Contents (Elt F) → (⟨S50000, .f32⟩ : BufTy).Contents (Elt F)),
    binary main_v15 main_v16 main_v17 (maximumf : (⟨S50000, .f32⟩ : BufTy).Contents (Elt F) → (⟨S50000, .f32⟩ : BufTy).Contents (Elt F) → (⟨S50000, .f32⟩ : BufTy).Contents (Elt F)),
    unary main_v17 main_v18 (Host.rsqrt : (⟨S50000, .f32⟩ : BufTy).Contents (Elt F) → (⟨S50000, .f32⟩ : BufTy).Contents (Elt F)),
    nullary main_c_3 (constantI S_ 32 0#32),
    unary main_c_3 main_v19 (broadcastInDim S850000 ![] bcast_S_S850000 : (⟨S_, .i32⟩ : BufTy).Contents (Elt F) → (⟨S850000, .i32⟩ : BufTy).Contents (Elt F)),
    binary main_v3 main_v19 main_v20 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v21 (broadcastInDim S850000 ![] bcast_S_S850000 : (⟨S_, .i32⟩ : BufTy).Contents (Elt F) → (⟨S850000, .i32⟩ : BufTy).Contents (Elt F)),
    binary main_v3 main_v21 main_v22 (addi : (⟨S850000, .i32⟩ : BufTy).Contents (Elt F) → (⟨S850000, .i32⟩ : BufTy).Contents (Elt F) → (⟨S850000, .i32⟩ : BufTy).Contents (Elt F)),
    ternary main_v20 main_v22 main_v3 main_v23 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v23 main_v24 (broadcastInDim S850000x1 ![0] bcast_S850000_S850000x1_0 : (⟨S850000, .i32⟩ : BufTy).Contents (Elt F) → (⟨S850000x1, .i32⟩ : BufTy).Contents (Elt F)),
    binary main_v18 main_v24 main_v25 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v26 (broadcastInDim S850000 ![] bcast_S_S850000 : (⟨S_, .i32⟩ : BufTy).Contents (Elt F) → (⟨S850000, .i32⟩ : BufTy).Contents (Elt F)),
    binary main_v6 main_v26 main_v27 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v28 (broadcastInDim S850000 ![] bcast_S_S850000 : (⟨S_, .i32⟩ : BufTy).Contents (Elt F) → (⟨S850000, .i32⟩ : BufTy).Contents (Elt F)),
    binary main_v6 main_v28 main_v29 (addi : (⟨S850000, .i32⟩ : BufTy).Contents (Elt F) → (⟨S850000, .i32⟩ : BufTy).Contents (Elt F) → (⟨S850000, .i32⟩ : BufTy).Contents (Elt F)),
    ternary main_v27 main_v29 main_v6 main_v30 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v30 main_v31 (broadcastInDim S850000x1 ![0] bcast_S850000_S850000x1_0 : (⟨S850000, .i32⟩ : BufTy).Contents (Elt F) → (⟨S850000x1, .i32⟩ : BufTy).Contents (Elt F)),
    binary main_v18 main_v31 main_v32 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v25 main_v32 main_v33 (mulf : (⟨S850000, .f32⟩ : BufTy).Contents (Elt F) → (⟨S850000, .f32⟩ : BufTy).Contents (Elt F) → (⟨S850000, .f32⟩ : BufTy).Contents (Elt F)),
    nullary main_cst_7 (constant S_ .f32 0x00000000#32),
    unary main_cst_7 main_v34 (broadcastInDim S50000x128 ![] bcast_S_S50000x128 : (⟨S_, .f32⟩ : BufTy).Contents (Elt F) → (⟨S50000x128, .f32⟩ : BufTy).Contents (Elt F)),
    nullary main_c_8 (constantI S_ 32 0#32),
    unary main_c_8 main_v35 (broadcastInDim S850000 ![] bcast_S_S850000 : (⟨S_, .i32⟩ : BufTy).Contents (Elt F) → (⟨S850000, .i32⟩ : BufTy).Contents (Elt F)),
    binary main_v3 main_v35 main_v36 (cmpi .slt : (⟨S850000, .i32⟩ : BufTy).Contents (Elt F) → (⟨S850000, .i32⟩ : BufTy).Contents (Elt F) → (⟨S850000, .i1⟩ : BufTy).Contents (Elt F)),
    nullary main_c_9 (constantI S_ 32 50000#32),
    unary main_c_9 main_v37 (broadcastInDim S850000 ![] bcast_S_S850000 : (⟨S_, .i32⟩ : BufTy).Contents (Elt F) → (⟨S850000, .i32⟩ : BufTy).Contents (Elt F)),
    binary main_v3 main_v37 main_v38 (addi : (⟨S850000, .i32⟩ : BufTy).Contents (Elt F) → (⟨S850000, .i32⟩ : BufTy).Contents (Elt F) → (⟨S850000, .i32⟩ : BufTy).Contents (Elt F)),
    ternary main_v36 main_v38 main_v3 main_v39 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v39 main_v40 (broadcastInDim S850000x1 ![0] bcast_S850000_S850000x1_0 : (⟨S850000, .i32⟩ : BufTy).Contents (Elt F) → (⟨S850000x1, .i32⟩ : BufTy).Contents (Elt F)),
    binary main_arg0 main_v40 main_v41 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v33 main_v42 (broadcastInDim S850000x1 ![0] bcast_S850000_S850000x1_0 : (⟨S850000, .f32⟩ : BufTy).Contents (Elt F) → (⟨S850000x1, .f32⟩ : BufTy).Contents (Elt F)),
    unary main_v42 main_v43 (broadcastInDim S850000x128 ![0, 1] bcast_S850000x1_S850000x128_0_1 : (⟨S850000x1, .f32⟩ : BufTy).Contents (Elt F) → (⟨S850000x128, .f32⟩ : BufTy).Contents (Elt F)),
    binary main_v41 main_v43 main_v44 (mulf : (⟨S850000x128, .f32⟩ : BufTy).Contents (Elt F) → (⟨S850000x128, .f32⟩ : BufTy).Contents (Elt F) → (⟨S850000x128, .f32⟩ : BufTy).Contents (Elt F)),
    nullary main_c_10 (constantI S_ 32 0#32),
    unary main_c_10 main_v45 (broadcastInDim S850000 ![] bcast_S_S850000 : (⟨S_, .i32⟩ : BufTy).Contents (Elt F) → (⟨S850000, .i32⟩ : BufTy).Contents (Elt F)),
    binary main_v6 main_v45 main_v46 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v47 (broadcastInDim S850000 ![] bcast_S_S850000 : (⟨S_, .i32⟩ : BufTy).Contents (Elt F) → (⟨S850000, .i32⟩ : BufTy).Contents (Elt F)),
    binary main_v6 main_v47 main_v48 (addi : (⟨S850000, .i32⟩ : BufTy).Contents (Elt F) → (⟨S850000, .i32⟩ : BufTy).Contents (Elt F) → (⟨S850000, .i32⟩ : BufTy).Contents (Elt F)),
    ternary main_v46 main_v48 main_v6 main_v49 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v49 main_v50 (broadcastInDim S850000x1 ![0] bcast_S850000_S850000x1_0 : (⟨S850000, .i32⟩ : BufTy).Contents (Elt F) → (⟨S850000x1, .i32⟩ : BufTy).Contents (Elt F)),
    ternary main_v34 main_v50 main_v44 main_v51 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    binary main_v51 main_arg2 main_v52 ((fun l r => Host.dotGeneral dot_S50000x128_S128x96_S50000x96_1_0_0_1_n_n none l r) : (⟨S50000x128, .f32⟩ : BufTy).Contents (Elt F) → (⟨S128x96, .f32⟩ : BufTy).Contents (Elt F) → (⟨S50000x96, .f32⟩ : BufTy).Contents (Elt F)),
    unary main_arg3 main_v53 (broadcastInDim S1x96 ![1] bcast_S96_S1x96_1 : (⟨S96, .f32⟩ : BufTy).Contents (Elt F) → (⟨S1x96, .f32⟩ : BufTy).Contents (Elt F)),
    unary main_v53 main_v54 (broadcastInDim S50000x96 ![0, 1] bcast_S1x96_S50000x96_0_1 : (⟨S1x96, .f32⟩ : BufTy).Contents (Elt F) → (⟨S50000x96, .f32⟩ : BufTy).Contents (Elt F)),
    binary main_v52 main_v54 main_v55 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x96, .f32⟩) main_call0_v0) (broadcastInDim S50000x96 ![] bcast_S_S50000x96),
    TRef.binary (TRef.of (T := ⟨S50000x96, .f32⟩) main_v55) (TRef.of (T := ⟨S50000x96, .f32⟩) main_call0_v0) (TRef.of (T := ⟨S50000x96, .f32⟩) main_v56) maximumf,
    unary main_arg4 main_v57 ((extractStridedSlice S1x96x96 ![0, 0, 0] · slices_S2x96x96_S1x96x96_0_0_0) : (⟨S2x96x96, .f32⟩ : BufTy).Contents (Elt F) → (⟨S1x96x96, .f32⟩ : BufTy).Contents (Elt F)),
    reshape main_v57 main_v58 rfl shapeCasts_S1x96x96_S96x96,
    binary main_v56 main_v58 main_v59 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    nullary main_cst_12 (constant S_ .f32 0x00000000#32),
    unary main_cst_12 main_v60 (broadcastInDim S50000x96 ![] bcast_S_S50000x96 : (⟨S_, .f32⟩ : BufTy).Contents (Elt F) → (⟨S50000x96, .f32⟩ : BufTy).Contents (Elt F)),
    nullary main_c_13 (constantI S_ 32 0#32),
    unary main_c_13 main_v61 (broadcastInDim S850000 ![] bcast_S_S850000 : (⟨S_, .i32⟩ : BufTy).Contents (Elt F) → (⟨S850000, .i32⟩ : BufTy).Contents (Elt F)),
    binary main_v3 main_v61 main_v62 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v63 (broadcastInDim S850000 ![] bcast_S_S850000 : (⟨S_, .i32⟩ : BufTy).Contents (Elt F) → (⟨S850000, .i32⟩ : BufTy).Contents (Elt F)),
    binary main_v3 main_v63 main_v64 (addi : (⟨S850000, .i32⟩ : BufTy).Contents (Elt F) → (⟨S850000, .i32⟩ : BufTy).Contents (Elt F) → (⟨S850000, .i32⟩ : BufTy).Contents (Elt F)),
    ternary main_v62 main_v64 main_v3 main_v65 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v65 main_v66 (broadcastInDim S850000x1 ![0] bcast_S850000_S850000x1_0 : (⟨S850000, .i32⟩ : BufTy).Contents (Elt F) → (⟨S850000x1, .i32⟩ : BufTy).Contents (Elt F)),
    binary main_v59 main_v66 main_v67 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    unary main_v33 main_v68 (broadcastInDim S850000x1 ![0] bcast_S850000_S850000x1_0 : (⟨S850000, .f32⟩ : BufTy).Contents (Elt F) → (⟨S850000x1, .f32⟩ : BufTy).Contents (Elt F)),
    unary main_v68 main_v69 (broadcastInDim S850000x96 ![0, 1] bcast_S850000x1_S850000x96_0_1 : (⟨S850000x1, .f32⟩ : BufTy).Contents (Elt F) → (⟨S850000x96, .f32⟩ : BufTy).Contents (Elt F)),
    binary main_v67 main_v69 main_v70 (mulf : (⟨S850000x96, .f32⟩ : BufTy).Contents (Elt F) → (⟨S850000x96, .f32⟩ : BufTy).Contents (Elt F) → (⟨S850000x96, .f32⟩ : BufTy).Contents (Elt F)),
    nullary main_c_15 (constantI S_ 32 0#32),
    unary main_c_15 main_v71 (broadcastInDim S850000 ![] bcast_S_S850000 : (⟨S_, .i32⟩ : BufTy).Contents (Elt F) → (⟨S850000, .i32⟩ : BufTy).Contents (Elt F)),
    binary main_v6 main_v71 main_v72 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v73 (broadcastInDim S850000 ![] bcast_S_S850000 : (⟨S_, .i32⟩ : BufTy).Contents (Elt F) → (⟨S850000, .i32⟩ : BufTy).Contents (Elt F)),
    binary main_v6 main_v73 main_v74 (addi : (⟨S850000, .i32⟩ : BufTy).Contents (Elt F) → (⟨S850000, .i32⟩ : BufTy).Contents (Elt F) → (⟨S850000, .i32⟩ : BufTy).Contents (Elt F)),
    ternary main_v72 main_v74 main_v6 main_v75 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v75 main_v76 (broadcastInDim S850000x1 ![0] bcast_S850000_S850000x1_0 : (⟨S850000, .i32⟩ : BufTy).Contents (Elt F) → (⟨S850000x1, .i32⟩ : BufTy).Contents (Elt F)),
    ternary main_v60 main_v76 main_v70 main_v77 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    unary main_arg5 main_v78 ((extractStridedSlice S1x96 ![0, 0] · slices_S2x96_S1x96_0_0) : (⟨S2x96, .f32⟩ : BufTy).Contents (Elt F) → (⟨S1x96, .f32⟩ : BufTy).Contents (Elt F)),
    reshape main_v78 main_v79 rfl shapeCasts_S1x96_S96,
    unary main_v79 main_v80 (broadcastInDim S1x96 ![1] bcast_S96_S1x96_1 : (⟨S96, .f32⟩ : BufTy).Contents (Elt F) → (⟨S1x96, .f32⟩ : BufTy).Contents (Elt F)),
    unary main_v80 main_v81 (broadcastInDim S50000x96 ![0, 1] bcast_S1x96_S50000x96_0_1 : (⟨S1x96, .f32⟩ : BufTy).Contents (Elt F) → (⟨S50000x96, .f32⟩ : BufTy).Contents (Elt F)),
    binary main_v77 main_v81 main_v82 (addf : (⟨S50000x96, .f32⟩ : BufTy).Contents (Elt F) → (⟨S50000x96, .f32⟩ : BufTy).Contents (Elt F) → (⟨S50000x96, .f32⟩ : BufTy).Contents (Elt F)),
    binary main_v56 main_v82 main_v83 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x96, .f32⟩) main_call1_v0) (broadcastInDim S50000x96 ![] bcast_S_S50000x96),
    TRef.binary (TRef.of (T := ⟨S50000x96, .f32⟩) main_v83) (TRef.of (T := ⟨S50000x96, .f32⟩) main_call1_v0) (TRef.of (T := ⟨S50000x96, .f32⟩) main_v84) maximumf,
    unary main_arg4 main_v85 ((extractStridedSlice S1x96x96 ![1, 0, 0] · slices_S2x96x96_S1x96x96_1_0_0) : (⟨S2x96x96, .f32⟩ : BufTy).Contents (Elt F) → (⟨S1x96x96, .f32⟩ : BufTy).Contents (Elt F)),
    reshape main_v85 main_v86 rfl shapeCasts_S1x96x96_S96x96,
    binary main_v84 main_v86 main_v87 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    nullary main_cst_17 (constant S_ .f32 0x00000000#32),
    unary main_cst_17 main_v88 (broadcastInDim S50000x96 ![] bcast_S_S50000x96 : (⟨S_, .f32⟩ : BufTy).Contents (Elt F) → (⟨S50000x96, .f32⟩ : BufTy).Contents (Elt F)),
    nullary main_c_18 (constantI S_ 32 0#32),
    unary main_c_18 main_v89 (broadcastInDim S850000 ![] bcast_S_S850000 : (⟨S_, .i32⟩ : BufTy).Contents (Elt F) → (⟨S850000, .i32⟩ : BufTy).Contents (Elt F)),
    binary main_v3 main_v89 main_v90 (cmpi .slt : (⟨S850000, .i32⟩ : BufTy).Contents (Elt F) → (⟨S850000, .i32⟩ : BufTy).Contents (Elt F) → (⟨S850000, .i1⟩ : BufTy).Contents (Elt F)),
    nullary main_c_19 (constantI S_ 32 50000#32),
    unary main_c_19 main_v91 (broadcastInDim S850000 ![] bcast_S_S850000 : (⟨S_, .i32⟩ : BufTy).Contents (Elt F) → (⟨S850000, .i32⟩ : BufTy).Contents (Elt F)),
    binary main_v3 main_v91 main_v92 (addi : (⟨S850000, .i32⟩ : BufTy).Contents (Elt F) → (⟨S850000, .i32⟩ : BufTy).Contents (Elt F) → (⟨S850000, .i32⟩ : BufTy).Contents (Elt F)),
    ternary main_v90 main_v92 main_v3 main_v93 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v93 main_v94 (broadcastInDim S850000x1 ![0] bcast_S850000_S850000x1_0 : (⟨S850000, .i32⟩ : BufTy).Contents (Elt F) → (⟨S850000x1, .i32⟩ : BufTy).Contents (Elt F)),
    binary main_v87 main_v94 main_v95 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    unary main_v33 main_v96 (broadcastInDim S850000x1 ![0] bcast_S850000_S850000x1_0 : (⟨S850000, .f32⟩ : BufTy).Contents (Elt F) → (⟨S850000x1, .f32⟩ : BufTy).Contents (Elt F)),
    unary main_v96 main_v97 (broadcastInDim S850000x96 ![0, 1] bcast_S850000x1_S850000x96_0_1 : (⟨S850000x1, .f32⟩ : BufTy).Contents (Elt F) → (⟨S850000x96, .f32⟩ : BufTy).Contents (Elt F)),
    binary main_v95 main_v97 main_v98 (mulf : (⟨S850000x96, .f32⟩ : BufTy).Contents (Elt F) → (⟨S850000x96, .f32⟩ : BufTy).Contents (Elt F) → (⟨S850000x96, .f32⟩ : BufTy).Contents (Elt F)),
    nullary main_c_20 (constantI S_ 32 0#32),
    unary main_c_20 main_v99 (broadcastInDim S850000 ![] bcast_S_S850000 : (⟨S_, .i32⟩ : BufTy).Contents (Elt F) → (⟨S850000, .i32⟩ : BufTy).Contents (Elt F)),
    binary main_v6 main_v99 main_v100 (cmpi .slt : (⟨S850000, .i32⟩ : BufTy).Contents (Elt F) → (⟨S850000, .i32⟩ : BufTy).Contents (Elt F) → (⟨S850000, .i1⟩ : BufTy).Contents (Elt F)),
    nullary main_c_21 (constantI S_ 32 50000#32),
    unary main_c_21 main_v101 (broadcastInDim S850000 ![] bcast_S_S850000 : (⟨S_, .i32⟩ : BufTy).Contents (Elt F) → (⟨S850000, .i32⟩ : BufTy).Contents (Elt F)),
    binary main_v6 main_v101 main_v102 (addi : (⟨S850000, .i32⟩ : BufTy).Contents (Elt F) → (⟨S850000, .i32⟩ : BufTy).Contents (Elt F) → (⟨S850000, .i32⟩ : BufTy).Contents (Elt F)),
    ternary main_v100 main_v102 main_v6 main_v103 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v103 main_v104 (broadcastInDim S850000x1 ![0] bcast_S850000_S850000x1_0 : (⟨S850000, .i32⟩ : BufTy).Contents (Elt F) → (⟨S850000x1, .i32⟩ : BufTy).Contents (Elt F)),
    ternary main_v88 main_v104 main_v98 main_v105 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    unary main_arg5 main_v106 ((extractStridedSlice S1x96 ![1, 0] · slices_S2x96_S1x96_1_0) : (⟨S2x96, .f32⟩ : BufTy).Contents (Elt F) → (⟨S1x96, .f32⟩ : BufTy).Contents (Elt F)),
    reshape main_v106 main_v107 rfl shapeCasts_S1x96_S96,
    unary main_v107 main_v108 (broadcastInDim S1x96 ![1] bcast_S96_S1x96_1 : (⟨S96, .f32⟩ : BufTy).Contents (Elt F) → (⟨S1x96, .f32⟩ : BufTy).Contents (Elt F)),
    unary main_v108 main_v109 (broadcastInDim S50000x96 ![0, 1] bcast_S1x96_S50000x96_0_1 : (⟨S1x96, .f32⟩ : BufTy).Contents (Elt F) → (⟨S50000x96, .f32⟩ : BufTy).Contents (Elt F)),
    binary main_v105 main_v109 main_v110 (addf : (⟨S50000x96, .f32⟩ : BufTy).Contents (Elt F) → (⟨S50000x96, .f32⟩ : BufTy).Contents (Elt F) → (⟨S50000x96, .f32⟩ : BufTy).Contents (Elt F)),
    binary main_v84 main_v110 main_v111 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x96, .f32⟩) main_call2_v0) (broadcastInDim S50000x96 ![] bcast_S_S50000x96),
    TRef.binary (TRef.of (T := ⟨S50000x96, .f32⟩) main_v111) (TRef.of (T := ⟨S50000x96, .f32⟩) main_call2_v0) (TRef.of (T := ⟨S50000x96, .f32⟩) main_v112) maximumf,
    binary main_v112 main_arg6 main_v113 ((fun l r => Host.dotGeneral dot_S50000x96_S96x40_S50000x40_1_0_0_1_n_n none l r) : (⟨S50000x96, .f32⟩ : BufTy).Contents (Elt F) → (⟨S96x40, .f32⟩ : BufTy).Contents (Elt F) → (⟨S50000x40, .f32⟩ : BufTy).Contents (Elt F)),
    unary main_arg7 main_v114 (broadcastInDim S1x40 ![1] bcast_S40_S1x40_1 : (⟨S40, .f32⟩ : BufTy).Contents (Elt F) → (⟨S1x40, .f32⟩ : BufTy).Contents (Elt F)),
    unary main_v114 main_v115 (broadcastInDim S50000x40 ![0, 1] bcast_S1x40_S50000x40_0_1 : (⟨S1x40, .f32⟩ : BufTy).Contents (Elt F) → (⟨S50000x40, .f32⟩ : BufTy).Contents (Elt F)),
    binary main_v113 main_v115 main_v116 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call3_cst) (constant S_ .f32 0xFF800000#32),
    TRef.binary (TRef.of (T := ⟨S50000x40, .f32⟩) main_v116) (TRef.of (T := ⟨S_, .f32⟩) main_call3_cst) (TRef.of (T := ⟨S50000, .f32⟩) main_call3_v0) (fun x v => Host.reduce FloatOps.maximumf x v reducesTo_S50000x40_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x40, .f32⟩) main_call3_v4) (broadcastInDim S50000x40 ![0, 1] bcast_S50000x1_S50000x40_0_1),
    TRef.binary (TRef.of (T := ⟨S50000x40, .f32⟩) main_v116) (TRef.of (T := ⟨S50000x40, .f32⟩) main_call3_v4) (TRef.of (T := ⟨S50000x40, .f32⟩) main_call3_v5) subf,
    TRef.unary (TRef.of (T := ⟨S50000x40, .f32⟩) main_call3_v5) (TRef.of (T := ⟨S50000x40, .f32⟩) main_call3_v6) Host.exp,
    TRef.nullary (TRef.of (T := ⟨S_, .f32⟩) main_call3_cst_1) (constant S_ .f32 0x00000000#32),
    TRef.binary (TRef.of (T := ⟨S50000x40, .f32⟩) main_call3_v6) (TRef.of (T := ⟨S_, .f32⟩) main_call3_cst_1) (TRef.of (T := ⟨S50000, .f32⟩) main_call3_v7) (fun x v => Host.reduceAdd x v reducesTo_S50000x40_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x40, .f32⟩) main_call3_v10) (broadcastInDim S50000x40 ![0, 1] bcast_S50000x1_S50000x40_0_1),
    TRef.binary (TRef.of (T := ⟨S50000x40, .f32⟩) main_call3_v5) (TRef.of (T := ⟨S50000x40, .f32⟩) main_call3_v10) (TRef.of (T := ⟨S50000x40, .f32⟩) main_v117) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., nullary_bufs_sub .., unary_bufs_sub .., binary_bufs_sub .., unary_bufs_sub .., reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., unary_bufs_sub .., binary_bufs_sub .., binary_bufs_sub .., nullary_bufs_sub .., unary_bufs_sub .., binary_bufs_sub .., unary_bufs_sub .., reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., unary_bufs_sub .., binary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The edges' ends, the degrees, the edge weights and the propagation of the input features. -/
abbrev st0 : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x00000000#32),
    unary main_cst main_v7 (broadcastInDim S50000 ![] bcast_S_S50000 : (⟨S_, .f32⟩ : BufTy).Contents (Elt F) → (⟨S50000, .f32⟩ : BufTy).Contents (Elt F)),
    nullary main_c (constantI S_ 32 0#32),
    unary main_c main_v8 (broadcastInDim S850000 ![] bcast_S_S850000 : (⟨S_, .i32⟩ : BufTy).Contents (Elt F) → (⟨S850000, .i32⟩ : BufTy).Contents (Elt F)),
    binary main_v6 main_v8 main_v9 (cmpi .slt : (⟨S850000, .i32⟩ : BufTy).Contents (Elt F) → (⟨S850000, .i32⟩ : BufTy).Contents (Elt F) → (⟨S850000, .i1⟩ : BufTy).Contents (Elt F)),
    nullary main_c_0 (constantI S_ 32 50000#32),
    unary main_c_0 main_v10 (broadcastInDim S850000 ![] bcast_S_S850000 : (⟨S_, .i32⟩ : BufTy).Contents (Elt F) → (⟨S850000, .i32⟩ : BufTy).Contents (Elt F)),
    binary main_v6 main_v10 main_v11 (addi : (⟨S850000, .i32⟩ : BufTy).Contents (Elt F) → (⟨S850000, .i32⟩ : BufTy).Contents (Elt F) → (⟨S850000, .i32⟩ : BufTy).Contents (Elt F)),
    ternary main_v9 main_v11 main_v6 main_v12 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v12 main_v13 (broadcastInDim S850000x1 ![0] bcast_S850000_S850000x1_0 : (⟨S850000, .i32⟩ : BufTy).Contents (Elt F) → (⟨S850000x1, .i32⟩ : BufTy).Contents (Elt F)),
    nullary main_cst_1 (constant S_ .f32 0x3F800000#32),
    unary main_cst_1 main_v14 (broadcastInDim S850000 ![] bcast_S_S850000 : (⟨S_, .f32⟩ : BufTy).Contents (Elt F) → (⟨S850000, .f32⟩ : BufTy).Contents (Elt F)),
    ternary main_v7 main_v13 main_v14 main_v15 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_2 (constant S_ .f32 0x3F800000#32),
    unary main_cst_2 main_v16 (broadcastInDim S50000 ![] bcast_S_S50000 : (⟨S_, .f32⟩ : BufTy).Contents (Elt F) → (⟨S50000, .f32⟩ : BufTy).Contents (Elt F)),
    binary main_v15 main_v16 main_v17 (maximumf : (⟨S50000, .f32⟩ : BufTy).Contents (Elt F) → (⟨S50000, .f32⟩ : BufTy).Contents (Elt F) → (⟨S50000, .f32⟩ : BufTy).Contents (Elt F)),
    unary main_v17 main_v18 (Host.rsqrt : (⟨S50000, .f32⟩ : BufTy).Contents (Elt F) → (⟨S50000, .f32⟩ : BufTy).Contents (Elt F)),
    nullary main_c_3 (constantI S_ 32 0#32),
    unary main_c_3 main_v19 (broadcastInDim S850000 ![] bcast_S_S850000 : (⟨S_, .i32⟩ : BufTy).Contents (Elt F) → (⟨S850000, .i32⟩ : BufTy).Contents (Elt F)),
    binary main_v3 main_v19 main_v20 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v21 (broadcastInDim S850000 ![] bcast_S_S850000 : (⟨S_, .i32⟩ : BufTy).Contents (Elt F) → (⟨S850000, .i32⟩ : BufTy).Contents (Elt F)),
    binary main_v3 main_v21 main_v22 (addi : (⟨S850000, .i32⟩ : BufTy).Contents (Elt F) → (⟨S850000, .i32⟩ : BufTy).Contents (Elt F) → (⟨S850000, .i32⟩ : BufTy).Contents (Elt F)),
    ternary main_v20 main_v22 main_v3 main_v23 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v23 main_v24 (broadcastInDim S850000x1 ![0] bcast_S850000_S850000x1_0 : (⟨S850000, .i32⟩ : BufTy).Contents (Elt F) → (⟨S850000x1, .i32⟩ : BufTy).Contents (Elt F)),
    binary main_v18 main_v24 main_v25 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v26 (broadcastInDim S850000 ![] bcast_S_S850000 : (⟨S_, .i32⟩ : BufTy).Contents (Elt F) → (⟨S850000, .i32⟩ : BufTy).Contents (Elt F)),
    binary main_v6 main_v26 main_v27 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v28 (broadcastInDim S850000 ![] bcast_S_S850000 : (⟨S_, .i32⟩ : BufTy).Contents (Elt F) → (⟨S850000, .i32⟩ : BufTy).Contents (Elt F)),
    binary main_v6 main_v28 main_v29 (addi : (⟨S850000, .i32⟩ : BufTy).Contents (Elt F) → (⟨S850000, .i32⟩ : BufTy).Contents (Elt F) → (⟨S850000, .i32⟩ : BufTy).Contents (Elt F)),
    ternary main_v27 main_v29 main_v6 main_v30 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v30 main_v31 (broadcastInDim S850000x1 ![0] bcast_S850000_S850000x1_0 : (⟨S850000, .i32⟩ : BufTy).Contents (Elt F) → (⟨S850000x1, .i32⟩ : BufTy).Contents (Elt F)),
    binary main_v18 main_v31 main_v32 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v25 main_v32 main_v33 (mulf : (⟨S850000, .f32⟩ : BufTy).Contents (Elt F) → (⟨S850000, .f32⟩ : BufTy).Contents (Elt F) → (⟨S850000, .f32⟩ : BufTy).Contents (Elt F)),
    nullary main_cst_7 (constant S_ .f32 0x00000000#32),
    unary main_cst_7 main_v34 (broadcastInDim S50000x128 ![] bcast_S_S50000x128 : (⟨S_, .f32⟩ : BufTy).Contents (Elt F) → (⟨S50000x128, .f32⟩ : BufTy).Contents (Elt F)),
    nullary main_c_8 (constantI S_ 32 0#32),
    unary main_c_8 main_v35 (broadcastInDim S850000 ![] bcast_S_S850000 : (⟨S_, .i32⟩ : BufTy).Contents (Elt F) → (⟨S850000, .i32⟩ : BufTy).Contents (Elt F)),
    binary main_v3 main_v35 main_v36 (cmpi .slt : (⟨S850000, .i32⟩ : BufTy).Contents (Elt F) → (⟨S850000, .i32⟩ : BufTy).Contents (Elt F) → (⟨S850000, .i1⟩ : BufTy).Contents (Elt F)),
    nullary main_c_9 (constantI S_ 32 50000#32),
    unary main_c_9 main_v37 (broadcastInDim S850000 ![] bcast_S_S850000 : (⟨S_, .i32⟩ : BufTy).Contents (Elt F) → (⟨S850000, .i32⟩ : BufTy).Contents (Elt F)),
    binary main_v3 main_v37 main_v38 (addi : (⟨S850000, .i32⟩ : BufTy).Contents (Elt F) → (⟨S850000, .i32⟩ : BufTy).Contents (Elt F) → (⟨S850000, .i32⟩ : BufTy).Contents (Elt F)),
    ternary main_v36 main_v38 main_v3 main_v39 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v39 main_v40 (broadcastInDim S850000x1 ![0] bcast_S850000_S850000x1_0 : (⟨S850000, .i32⟩ : BufTy).Contents (Elt F) → (⟨S850000x1, .i32⟩ : BufTy).Contents (Elt F)),
    binary main_arg0 main_v40 main_v41 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v33 main_v42 (broadcastInDim S850000x1 ![0] bcast_S850000_S850000x1_0 : (⟨S850000, .f32⟩ : BufTy).Contents (Elt F) → (⟨S850000x1, .f32⟩ : BufTy).Contents (Elt F)),
    unary main_v42 main_v43 (broadcastInDim S850000x128 ![0, 1] bcast_S850000x1_S850000x128_0_1 : (⟨S850000x1, .f32⟩ : BufTy).Contents (Elt F) → (⟨S850000x128, .f32⟩ : BufTy).Contents (Elt F)),
    binary main_v41 main_v43 main_v44 (mulf : (⟨S850000x128, .f32⟩ : BufTy).Contents (Elt F) → (⟨S850000x128, .f32⟩ : BufTy).Contents (Elt F) → (⟨S850000x128, .f32⟩ : BufTy).Contents (Elt F)),
    nullary main_c_10 (constantI S_ 32 0#32),
    unary main_c_10 main_v45 (broadcastInDim S850000 ![] bcast_S_S850000 : (⟨S_, .i32⟩ : BufTy).Contents (Elt F) → (⟨S850000, .i32⟩ : BufTy).Contents (Elt F)),
    binary main_v6 main_v45 main_v46 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v47 (broadcastInDim S850000 ![] bcast_S_S850000 : (⟨S_, .i32⟩ : BufTy).Contents (Elt F) → (⟨S850000, .i32⟩ : BufTy).Contents (Elt F)),
    binary main_v6 main_v47 main_v48 (addi : (⟨S850000, .i32⟩ : BufTy).Contents (Elt F) → (⟨S850000, .i32⟩ : BufTy).Contents (Elt F) → (⟨S850000, .i32⟩ : BufTy).Contents (Elt F)),
    ternary main_v46 main_v48 main_v6 main_v49 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v49 main_v50 (broadcastInDim S850000x1 ![0] bcast_S850000_S850000x1_0 : (⟨S850000, .i32⟩ : BufTy).Contents (Elt F) → (⟨S850000x1, .i32⟩ : BufTy).Contents (Elt F)),
    ternary main_v34 main_v50 main_v44 main_v51 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]
/-- The first affine layer and its clip at zero. -/
abbrev st1 : List (HloOp τ sig (Elt F)) :=
  [ binary main_v51 main_arg2 main_v52 ((fun l r => Host.dotGeneral dot_S50000x128_S128x96_S50000x96_1_0_0_1_n_n none l r) : (⟨S50000x128, .f32⟩ : BufTy).Contents (Elt F) → (⟨S128x96, .f32⟩ : BufTy).Contents (Elt F) → (⟨S50000x96, .f32⟩ : BufTy).Contents (Elt F)),
    unary main_arg3 main_v53 (broadcastInDim S1x96 ![1] bcast_S96_S1x96_1 : (⟨S96, .f32⟩ : BufTy).Contents (Elt F) → (⟨S1x96, .f32⟩ : BufTy).Contents (Elt F)),
    unary main_v53 main_v54 (broadcastInDim S50000x96 ![0, 1] bcast_S1x96_S50000x96_0_1 : (⟨S1x96, .f32⟩ : BufTy).Contents (Elt F) → (⟨S50000x96, .f32⟩ : BufTy).Contents (Elt F)),
    binary main_v52 main_v54 main_v55 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x96, .f32⟩) main_call0_v0) (broadcastInDim S50000x96 ![] bcast_S_S50000x96),
    TRef.binary (TRef.of (T := ⟨S50000x96, .f32⟩) main_v55) (TRef.of (T := ⟨S50000x96, .f32⟩) main_call0_v0) (TRef.of (T := ⟨S50000x96, .f32⟩) main_v56) maximumf ]
/-- The first residual layer over the graph. -/
abbrev st2 : List (HloOp τ sig (Elt F)) :=
  [ unary main_arg4 main_v57 ((extractStridedSlice S1x96x96 ![0, 0, 0] · slices_S2x96x96_S1x96x96_0_0_0) : (⟨S2x96x96, .f32⟩ : BufTy).Contents (Elt F) → (⟨S1x96x96, .f32⟩ : BufTy).Contents (Elt F)),
    reshape main_v57 main_v58 rfl shapeCasts_S1x96x96_S96x96,
    binary main_v56 main_v58 main_v59 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    nullary main_cst_12 (constant S_ .f32 0x00000000#32),
    unary main_cst_12 main_v60 (broadcastInDim S50000x96 ![] bcast_S_S50000x96 : (⟨S_, .f32⟩ : BufTy).Contents (Elt F) → (⟨S50000x96, .f32⟩ : BufTy).Contents (Elt F)),
    nullary main_c_13 (constantI S_ 32 0#32),
    unary main_c_13 main_v61 (broadcastInDim S850000 ![] bcast_S_S850000 : (⟨S_, .i32⟩ : BufTy).Contents (Elt F) → (⟨S850000, .i32⟩ : BufTy).Contents (Elt F)),
    binary main_v3 main_v61 main_v62 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v63 (broadcastInDim S850000 ![] bcast_S_S850000 : (⟨S_, .i32⟩ : BufTy).Contents (Elt F) → (⟨S850000, .i32⟩ : BufTy).Contents (Elt F)),
    binary main_v3 main_v63 main_v64 (addi : (⟨S850000, .i32⟩ : BufTy).Contents (Elt F) → (⟨S850000, .i32⟩ : BufTy).Contents (Elt F) → (⟨S850000, .i32⟩ : BufTy).Contents (Elt F)),
    ternary main_v62 main_v64 main_v3 main_v65 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v65 main_v66 (broadcastInDim S850000x1 ![0] bcast_S850000_S850000x1_0 : (⟨S850000, .i32⟩ : BufTy).Contents (Elt F) → (⟨S850000x1, .i32⟩ : BufTy).Contents (Elt F)),
    binary main_v59 main_v66 main_v67 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    unary main_v33 main_v68 (broadcastInDim S850000x1 ![0] bcast_S850000_S850000x1_0 : (⟨S850000, .f32⟩ : BufTy).Contents (Elt F) → (⟨S850000x1, .f32⟩ : BufTy).Contents (Elt F)),
    unary main_v68 main_v69 (broadcastInDim S850000x96 ![0, 1] bcast_S850000x1_S850000x96_0_1 : (⟨S850000x1, .f32⟩ : BufTy).Contents (Elt F) → (⟨S850000x96, .f32⟩ : BufTy).Contents (Elt F)),
    binary main_v67 main_v69 main_v70 (mulf : (⟨S850000x96, .f32⟩ : BufTy).Contents (Elt F) → (⟨S850000x96, .f32⟩ : BufTy).Contents (Elt F) → (⟨S850000x96, .f32⟩ : BufTy).Contents (Elt F)),
    nullary main_c_15 (constantI S_ 32 0#32),
    unary main_c_15 main_v71 (broadcastInDim S850000 ![] bcast_S_S850000 : (⟨S_, .i32⟩ : BufTy).Contents (Elt F) → (⟨S850000, .i32⟩ : BufTy).Contents (Elt F)),
    binary main_v6 main_v71 main_v72 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v73 (broadcastInDim S850000 ![] bcast_S_S850000 : (⟨S_, .i32⟩ : BufTy).Contents (Elt F) → (⟨S850000, .i32⟩ : BufTy).Contents (Elt F)),
    binary main_v6 main_v73 main_v74 (addi : (⟨S850000, .i32⟩ : BufTy).Contents (Elt F) → (⟨S850000, .i32⟩ : BufTy).Contents (Elt F) → (⟨S850000, .i32⟩ : BufTy).Contents (Elt F)),
    ternary main_v72 main_v74 main_v6 main_v75 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v75 main_v76 (broadcastInDim S850000x1 ![0] bcast_S850000_S850000x1_0 : (⟨S850000, .i32⟩ : BufTy).Contents (Elt F) → (⟨S850000x1, .i32⟩ : BufTy).Contents (Elt F)),
    ternary main_v60 main_v76 main_v70 main_v77 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    unary main_arg5 main_v78 ((extractStridedSlice S1x96 ![0, 0] · slices_S2x96_S1x96_0_0) : (⟨S2x96, .f32⟩ : BufTy).Contents (Elt F) → (⟨S1x96, .f32⟩ : BufTy).Contents (Elt F)),
    reshape main_v78 main_v79 rfl shapeCasts_S1x96_S96,
    unary main_v79 main_v80 (broadcastInDim S1x96 ![1] bcast_S96_S1x96_1 : (⟨S96, .f32⟩ : BufTy).Contents (Elt F) → (⟨S1x96, .f32⟩ : BufTy).Contents (Elt F)),
    unary main_v80 main_v81 (broadcastInDim S50000x96 ![0, 1] bcast_S1x96_S50000x96_0_1 : (⟨S1x96, .f32⟩ : BufTy).Contents (Elt F) → (⟨S50000x96, .f32⟩ : BufTy).Contents (Elt F)),
    binary main_v77 main_v81 main_v82 (addf : (⟨S50000x96, .f32⟩ : BufTy).Contents (Elt F) → (⟨S50000x96, .f32⟩ : BufTy).Contents (Elt F) → (⟨S50000x96, .f32⟩ : BufTy).Contents (Elt F)),
    binary main_v56 main_v82 main_v83 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x96, .f32⟩) main_call1_v0) (broadcastInDim S50000x96 ![] bcast_S_S50000x96),
    TRef.binary (TRef.of (T := ⟨S50000x96, .f32⟩) main_v83) (TRef.of (T := ⟨S50000x96, .f32⟩) main_call1_v0) (TRef.of (T := ⟨S50000x96, .f32⟩) main_v84) maximumf ]
/-- The second residual layer over the graph. -/
abbrev st3 : List (HloOp τ sig (Elt F)) :=
  [ unary main_arg4 main_v85 ((extractStridedSlice S1x96x96 ![1, 0, 0] · slices_S2x96x96_S1x96x96_1_0_0) : (⟨S2x96x96, .f32⟩ : BufTy).Contents (Elt F) → (⟨S1x96x96, .f32⟩ : BufTy).Contents (Elt F)),
    reshape main_v85 main_v86 rfl shapeCasts_S1x96x96_S96x96,
    binary main_v84 main_v86 main_v87 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    nullary main_cst_17 (constant S_ .f32 0x00000000#32),
    unary main_cst_17 main_v88 (broadcastInDim S50000x96 ![] bcast_S_S50000x96 : (⟨S_, .f32⟩ : BufTy).Contents (Elt F) → (⟨S50000x96, .f32⟩ : BufTy).Contents (Elt F)),
    nullary main_c_18 (constantI S_ 32 0#32),
    unary main_c_18 main_v89 (broadcastInDim S850000 ![] bcast_S_S850000 : (⟨S_, .i32⟩ : BufTy).Contents (Elt F) → (⟨S850000, .i32⟩ : BufTy).Contents (Elt F)),
    binary main_v3 main_v89 main_v90 (cmpi .slt : (⟨S850000, .i32⟩ : BufTy).Contents (Elt F) → (⟨S850000, .i32⟩ : BufTy).Contents (Elt F) → (⟨S850000, .i1⟩ : BufTy).Contents (Elt F)),
    nullary main_c_19 (constantI S_ 32 50000#32),
    unary main_c_19 main_v91 (broadcastInDim S850000 ![] bcast_S_S850000 : (⟨S_, .i32⟩ : BufTy).Contents (Elt F) → (⟨S850000, .i32⟩ : BufTy).Contents (Elt F)),
    binary main_v3 main_v91 main_v92 (addi : (⟨S850000, .i32⟩ : BufTy).Contents (Elt F) → (⟨S850000, .i32⟩ : BufTy).Contents (Elt F) → (⟨S850000, .i32⟩ : BufTy).Contents (Elt F)),
    ternary main_v90 main_v92 main_v3 main_v93 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v93 main_v94 (broadcastInDim S850000x1 ![0] bcast_S850000_S850000x1_0 : (⟨S850000, .i32⟩ : BufTy).Contents (Elt F) → (⟨S850000x1, .i32⟩ : BufTy).Contents (Elt F)),
    binary main_v87 main_v94 main_v95 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    unary main_v33 main_v96 (broadcastInDim S850000x1 ![0] bcast_S850000_S850000x1_0 : (⟨S850000, .f32⟩ : BufTy).Contents (Elt F) → (⟨S850000x1, .f32⟩ : BufTy).Contents (Elt F)),
    unary main_v96 main_v97 (broadcastInDim S850000x96 ![0, 1] bcast_S850000x1_S850000x96_0_1 : (⟨S850000x1, .f32⟩ : BufTy).Contents (Elt F) → (⟨S850000x96, .f32⟩ : BufTy).Contents (Elt F)),
    binary main_v95 main_v97 main_v98 (mulf : (⟨S850000x96, .f32⟩ : BufTy).Contents (Elt F) → (⟨S850000x96, .f32⟩ : BufTy).Contents (Elt F) → (⟨S850000x96, .f32⟩ : BufTy).Contents (Elt F)),
    nullary main_c_20 (constantI S_ 32 0#32),
    unary main_c_20 main_v99 (broadcastInDim S850000 ![] bcast_S_S850000 : (⟨S_, .i32⟩ : BufTy).Contents (Elt F) → (⟨S850000, .i32⟩ : BufTy).Contents (Elt F)),
    binary main_v6 main_v99 main_v100 (cmpi .slt : (⟨S850000, .i32⟩ : BufTy).Contents (Elt F) → (⟨S850000, .i32⟩ : BufTy).Contents (Elt F) → (⟨S850000, .i1⟩ : BufTy).Contents (Elt F)),
    nullary main_c_21 (constantI S_ 32 50000#32),
    unary main_c_21 main_v101 (broadcastInDim S850000 ![] bcast_S_S850000 : (⟨S_, .i32⟩ : BufTy).Contents (Elt F) → (⟨S850000, .i32⟩ : BufTy).Contents (Elt F)),
    binary main_v6 main_v101 main_v102 (addi : (⟨S850000, .i32⟩ : BufTy).Contents (Elt F) → (⟨S850000, .i32⟩ : BufTy).Contents (Elt F) → (⟨S850000, .i32⟩ : BufTy).Contents (Elt F)),
    ternary main_v100 main_v102 main_v6 main_v103 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v103 main_v104 (broadcastInDim S850000x1 ![0] bcast_S850000_S850000x1_0 : (⟨S850000, .i32⟩ : BufTy).Contents (Elt F) → (⟨S850000x1, .i32⟩ : BufTy).Contents (Elt F)),
    ternary main_v88 main_v104 main_v98 main_v105 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    unary main_arg5 main_v106 ((extractStridedSlice S1x96 ![1, 0] · slices_S2x96_S1x96_1_0) : (⟨S2x96, .f32⟩ : BufTy).Contents (Elt F) → (⟨S1x96, .f32⟩ : BufTy).Contents (Elt F)),
    reshape main_v106 main_v107 rfl shapeCasts_S1x96_S96,
    unary main_v107 main_v108 (broadcastInDim S1x96 ![1] bcast_S96_S1x96_1 : (⟨S96, .f32⟩ : BufTy).Contents (Elt F) → (⟨S1x96, .f32⟩ : BufTy).Contents (Elt F)),
    unary main_v108 main_v109 (broadcastInDim S50000x96 ![0, 1] bcast_S1x96_S50000x96_0_1 : (⟨S1x96, .f32⟩ : BufTy).Contents (Elt F) → (⟨S50000x96, .f32⟩ : BufTy).Contents (Elt F)),
    binary main_v105 main_v109 main_v110 (addf : (⟨S50000x96, .f32⟩ : BufTy).Contents (Elt F) → (⟨S50000x96, .f32⟩ : BufTy).Contents (Elt F) → (⟨S50000x96, .f32⟩ : BufTy).Contents (Elt F)),
    binary main_v84 main_v110 main_v111 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x96, .f32⟩) main_call2_v0) (broadcastInDim S50000x96 ![] bcast_S_S50000x96),
    TRef.binary (TRef.of (T := ⟨S50000x96, .f32⟩) main_v111) (TRef.of (T := ⟨S50000x96, .f32⟩) main_call2_v0) (TRef.of (T := ⟨S50000x96, .f32⟩) main_v112) maximumf ]
/-- The last affine layer and the logarithm of the softmax. -/
abbrev st4 : List (HloOp τ sig (Elt F)) :=
  [ binary main_v112 main_arg6 main_v113 ((fun l r => Host.dotGeneral dot_S50000x96_S96x40_S50000x40_1_0_0_1_n_n none l r) : (⟨S50000x96, .f32⟩ : BufTy).Contents (Elt F) → (⟨S96x40, .f32⟩ : BufTy).Contents (Elt F) → (⟨S50000x40, .f32⟩ : BufTy).Contents (Elt F)),
    unary main_arg7 main_v114 (broadcastInDim S1x40 ![1] bcast_S40_S1x40_1 : (⟨S40, .f32⟩ : BufTy).Contents (Elt F) → (⟨S1x40, .f32⟩ : BufTy).Contents (Elt F)),
    unary main_v114 main_v115 (broadcastInDim S50000x40 ![0, 1] bcast_S1x40_S50000x40_0_1 : (⟨S1x40, .f32⟩ : BufTy).Contents (Elt F) → (⟨S50000x40, .f32⟩ : BufTy).Contents (Elt F)),
    binary main_v113 main_v115 main_v116 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call3_cst) (constant S_ .f32 0xFF800000#32),
    TRef.binary (TRef.of (T := ⟨S50000x40, .f32⟩) main_v116) (TRef.of (T := ⟨S_, .f32⟩) main_call3_cst) (TRef.of (T := ⟨S50000, .f32⟩) main_call3_v0) (fun x v => Host.reduce FloatOps.maximumf x v reducesTo_S50000x40_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x40, .f32⟩) main_call3_v4) (broadcastInDim S50000x40 ![0, 1] bcast_S50000x1_S50000x40_0_1),
    TRef.binary (TRef.of (T := ⟨S50000x40, .f32⟩) main_v116) (TRef.of (T := ⟨S50000x40, .f32⟩) main_call3_v4) (TRef.of (T := ⟨S50000x40, .f32⟩) main_call3_v5) subf,
    TRef.unary (TRef.of (T := ⟨S50000x40, .f32⟩) main_call3_v5) (TRef.of (T := ⟨S50000x40, .f32⟩) main_call3_v6) Host.exp,
    TRef.nullary (TRef.of (T := ⟨S_, .f32⟩) main_call3_cst_1) (constant S_ .f32 0x00000000#32),
    TRef.binary (TRef.of (T := ⟨S50000x40, .f32⟩) main_call3_v6) (TRef.of (T := ⟨S_, .f32⟩) main_call3_cst_1) (TRef.of (T := ⟨S50000, .f32⟩) main_call3_v7) (fun x v => Host.reduceAdd x v reducesTo_S50000x40_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x40, .f32⟩) main_call3_v10) (broadcastInDim S50000x40 ![0, 1] bcast_S50000x1_S50000x40_0_1),
    TRef.binary (TRef.of (T := ⟨S50000x40, .f32⟩) main_call3_v5) (TRef.of (T := ⟨S50000x40, .f32⟩) main_call3_v10) (TRef.of (T := ⟨S50000x40, .f32⟩) main_v117) subf ]

/-- The line is its five stages in a row. -/
theorem ops_stages : (ops : List (HloOp τ sig (Elt F))) = st0 ++ (st1 ++ (st2 ++ (st3 ++ st4))) := rfl

/-- Every weakly fair execution of the reference terminates, nothing faulting, with every buffer at the fold of the
    line's operations over the launch memory. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Program

end Cert.ReferenceIdeal.Net

end
-- ==== Proof.RefLayers.lean ====
/-
  The reference's layers, as it writes them with host operations, are the layer functions: a host product with plain
  dimension numbers is the sum over the contracted axis; a bias made a 1 × n row and laid along all rows, read at
  `(r, c)`, is the bias at `c`; the splatted zero is zero.
-/
import proofs.«172156_j52261162057813_1_alg».proof.Proof.Gen.ReferenceIdeal
import proofs.«172156_j52261162057813_1_alg».proof.Proof.RefSpec
import proofs.«172156_j52261162057813_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.ReferenceIdeal.Net

open Cert.ReferenceIdeal Cert.ReferenceIdeal.Gen Cert.Net Idealize.ShloMosaic Idealize.ShloMosaic.TcCoe
open Idealize.ShloMosaic.ValueIdx
open scoped BigOperators

/-! ## The reference's layers, as it writes them with host operations, are the layer functions -/

section Layers

/-! The dimension numbers of its three products are plain: the left operand's second axis against the right operand's
    first, no batch axis. -/

theorem R128_l0 (j : S50000x96.Idx) (q : dot_S50000x128_S128x96_S50000x96_1_0_0_1_n_n.contr.Idx) : (dot_S50000x128_S128x96_S50000x96_1_0_0_1_n_n.lhsIdx j q 0).val = (j 0).val := by
  unfold DotDims.lhsIdx
  rw [dif_neg (show ¬(0 : Fin S50000x128.rank) ∈ dot_S50000x128_S128x96_S50000x96_1_0_0_1_n_n.lhsBatch by decide), dif_pos (show (0 : Fin S50000x128.rank) ∈ dot_S50000x128_S128x96_S50000x96_1_0_0_1_n_n.lhsNonContracting by decide)]
  rfl
theorem R128_l1 (j : S50000x96.Idx) (q : dot_S50000x128_S128x96_S50000x96_1_0_0_1_n_n.contr.Idx) : (dot_S50000x128_S128x96_S50000x96_1_0_0_1_n_n.lhsIdx j q 1).val = (q ⟨0, by decide⟩).val :=
  dot_S50000x128_S128x96_S50000x96_1_0_0_1_n_n.lhsIdx_val_of_single rfl j q
theorem R128_r0 (j : S50000x96.Idx) (q : dot_S50000x128_S128x96_S50000x96_1_0_0_1_n_n.contr.Idx) : (dot_S50000x128_S128x96_S50000x96_1_0_0_1_n_n.rhsIdx j q 0).val = (q ⟨0, by decide⟩).val :=
  dot_S50000x128_S128x96_S50000x96_1_0_0_1_n_n.rhsIdx_val_of_single rfl j q
theorem R128_r1 (j : S50000x96.Idx) (q : dot_S50000x128_S128x96_S50000x96_1_0_0_1_n_n.contr.Idx) : (dot_S50000x128_S128x96_S50000x96_1_0_0_1_n_n.rhsIdx j q 1).val = (j 1).val := by
  unfold DotDims.rhsIdx
  rw [dif_neg (show ¬(1 : Fin S128x96.rank) ∈ dot_S50000x128_S128x96_S50000x96_1_0_0_1_n_n.rhsBatch by decide), dif_pos (show (1 : Fin S128x96.rank) ∈ dot_S50000x128_S128x96_S50000x96_1_0_0_1_n_n.rhsNonContracting by decide)]
  rfl

theorem R96_l0 (j : S50000x96.Idx) (q : dot_S50000x96_S96x96_S50000x96_1_0_0_1_n_n.contr.Idx) : (dot_S50000x96_S96x96_S50000x96_1_0_0_1_n_n.lhsIdx j q 0).val = (j 0).val := by
  unfold DotDims.lhsIdx
  rw [dif_neg (show ¬(0 : Fin S50000x96.rank) ∈ dot_S50000x96_S96x96_S50000x96_1_0_0_1_n_n.lhsBatch by decide), dif_pos (show (0 : Fin S50000x96.rank) ∈ dot_S50000x96_S96x96_S50000x96_1_0_0_1_n_n.lhsNonContracting by decide)]
  rfl
theorem R96_l1 (j : S50000x96.Idx) (q : dot_S50000x96_S96x96_S50000x96_1_0_0_1_n_n.contr.Idx) : (dot_S50000x96_S96x96_S50000x96_1_0_0_1_n_n.lhsIdx j q 1).val = (q ⟨0, by decide⟩).val :=
  dot_S50000x96_S96x96_S50000x96_1_0_0_1_n_n.lhsIdx_val_of_single rfl j q
theorem R96_r0 (j : S50000x96.Idx) (q : dot_S50000x96_S96x96_S50000x96_1_0_0_1_n_n.contr.Idx) : (dot_S50000x96_S96x96_S50000x96_1_0_0_1_n_n.rhsIdx j q 0).val = (q ⟨0, by decide⟩).val :=
  dot_S50000x96_S96x96_S50000x96_1_0_0_1_n_n.rhsIdx_val_of_single rfl j q
theorem R96_r1 (j : S50000x96.Idx) (q : dot_S50000x96_S96x96_S50000x96_1_0_0_1_n_n.contr.Idx) : (dot_S50000x96_S96x96_S50000x96_1_0_0_1_n_n.rhsIdx j q 1).val = (j 1).val := by
  unfold DotDims.rhsIdx
  rw [dif_neg (show ¬(1 : Fin S96x96.rank) ∈ dot_S50000x96_S96x96_S50000x96_1_0_0_1_n_n.rhsBatch by decide), dif_pos (show (1 : Fin S96x96.rank) ∈ dot_S50000x96_S96x96_S50000x96_1_0_0_1_n_n.rhsNonContracting by decide)]
  rfl

theorem R40_l0 (j : S50000x40.Idx) (q : dot_S50000x96_S96x40_S50000x40_1_0_0_1_n_n.contr.Idx) : (dot_S50000x96_S96x40_S50000x40_1_0_0_1_n_n.lhsIdx j q 0).val = (j 0).val := by
  unfold DotDims.lhsIdx
  rw [dif_neg (show ¬(0 : Fin S50000x96.rank) ∈ dot_S50000x96_S96x40_S50000x40_1_0_0_1_n_n.lhsBatch by decide), dif_pos (show (0 : Fin S50000x96.rank) ∈ dot_S50000x96_S96x40_S50000x40_1_0_0_1_n_n.lhsNonContracting by decide)]
  rfl
theorem R40_l1 (j : S50000x40.Idx) (q : dot_S50000x96_S96x40_S50000x40_1_0_0_1_n_n.contr.Idx) : (dot_S50000x96_S96x40_S50000x40_1_0_0_1_n_n.lhsIdx j q 1).val = (q ⟨0, by decide⟩).val :=
  dot_S50000x96_S96x40_S50000x40_1_0_0_1_n_n.lhsIdx_val_of_single rfl j q
theorem R40_r0 (j : S50000x40.Idx) (q : dot_S50000x96_S96x40_S50000x40_1_0_0_1_n_n.contr.Idx) : (dot_S50000x96_S96x40_S50000x40_1_0_0_1_n_n.rhsIdx j q 0).val = (q ⟨0, by decide⟩).val :=
  dot_S50000x96_S96x40_S50000x40_1_0_0_1_n_n.rhsIdx_val_of_single rfl j q
theorem R40_r1 (j : S50000x40.Idx) (q : dot_S50000x96_S96x40_S50000x40_1_0_0_1_n_n.contr.Idx) : (dot_S50000x96_S96x40_S50000x40_1_0_0_1_n_n.rhsIdx j q 1).val = (j 1).val := by
  unfold DotDims.rhsIdx
  rw [dif_neg (show ¬(1 : Fin S96x40.rank) ∈ dot_S50000x96_S96x40_S50000x40_1_0_0_1_n_n.rhsBatch by decide), dif_pos (show (1 : Fin S96x40.rank) ∈ dot_S50000x96_S96x40_S50000x40_1_0_0_1_n_n.rhsNonContracting by decide)]
  rfl

theorem ref_dot128 (P : FArr S50000x128) (W : FArr S128x96) :
    Host.dotGeneral (F := Ideal) (φ₁ := .f32) (φ₂ := .f32) dot_S50000x128_S128x96_S50000x96_1_0_0_1_n_n none P W = matprod (M := 50000) (K := 128) (N := 96) P W :=
  funext fun j => by
    simp only [Host.dotGeneral]
    exact Cert.Lib.PlainDot.dotGeneral_apply _ rfl rfl R128_l0 R128_l1 R128_r0 R128_r1 _ _ P W j
theorem ref_dot96 (P : FArr S50000x96) (W : FArr S96x96) :
    Host.dotGeneral (F := Ideal) (φ₁ := .f32) (φ₂ := .f32) dot_S50000x96_S96x96_S50000x96_1_0_0_1_n_n none P W = matprod (M := 50000) (K := 96) (N := 96) P W :=
  funext fun j => by
    simp only [Host.dotGeneral]
    exact Cert.Lib.PlainDot.dotGeneral_apply _ rfl rfl R96_l0 R96_l1 R96_r0 R96_r1 _ _ P W j
theorem ref_dot40 (P : FArr S50000x96) (W : FArr S96x40) :
    Host.dotGeneral (F := Ideal) (φ₁ := .f32) (φ₂ := .f32) dot_S50000x96_S96x40_S50000x40_1_0_0_1_n_n none P W = matprod (M := 50000) (K := 96) (N := 40) P W :=
  funext fun j => by
    simp only [Host.dotGeneral]
    exact Cert.Lib.PlainDot.dotGeneral_apply _ rfl rfl R40_l0 R40_l1 R40_r0 R40_r1 _ _ P W j

/-- A bias of length 96 as a 1 × 96 row and then along all 50000 rows, read at `(p, q)`. -/
theorem ref_bias96 (b : FArr S96) (p : Fin 50000) (q : Fin 96) :
    broadcastInDim S50000x96 ![0, 1] bcast_S1x96_S50000x96_0_1 (broadcastInDim S1x96 ![1] bcast_S96_S1x96_1 b) (ix2 p q) = b (ix1 q) := by
  refine (broadcastInDim_apply (s := S1x96) (t := S50000x96) ![0, 1] bcast_S1x96_S50000x96_0_1 _ (ix2 p q) (ix2 ⟨0, by decide⟩ q)
    (fun a => by match a with | ⟨0, _⟩ => rfl | ⟨1, _⟩ => rfl)).trans ?_
  exact broadcastInDim_apply (s := S96) (t := S1x96) ![1] bcast_S96_S1x96_1 b (ix2 ⟨0, by decide⟩ q) (ix1 q)
    (fun a => by match a with | ⟨0, _⟩ => rfl)
theorem ref_bias40 (b : FArr S40) (p : Fin 50000) (q : Fin 40) :
    broadcastInDim S50000x40 ![0, 1] bcast_S1x40_S50000x40_0_1 (broadcastInDim S1x40 ![1] bcast_S40_S1x40_1 b) (ix2 p q) = b (ix1 q) := by
  refine (broadcastInDim_apply (s := S1x40) (t := S50000x40) ![0, 1] bcast_S1x40_S50000x40_0_1 _ (ix2 p q) (ix2 ⟨0, by decide⟩ q)
    (fun a => by match a with | ⟨0, _⟩ => rfl | ⟨1, _⟩ => rfl)).trans ?_
  exact broadcastInDim_apply (s := S40) (t := S1x40) ![1] bcast_S40_S1x40_1 b (ix2 ⟨0, by decide⟩ q) (ix1 q)
    (fun a => by match a with | ⟨0, _⟩ => rfl)
/-- The splatted zero is zero everywhere. -/
theorem ref_zero96 (j : S50000x96.Idx) :
    broadcastInDim S50000x96 ![] bcast_S_S50000x96 (constant (F := Ideal) S_ .f32 0x00000000#32) j = 0 :=
  (broadcastInDim_apply (s := S_) (t := S50000x96) ![] bcast_S_S50000x96 _ j ix0 (fun a => a.elim0)).trans Ideal.ofBits_zero_f32

/-- `relu (x · w + b)` as the reference writes it. -/
theorem ref_affineRelu (P : FArr S50000x128) (W : FArr S128x96) (b : FArr S96) :
    maximumf (addf (Host.dotGeneral (F := Ideal) (φ₁ := .f32) (φ₂ := .f32) dot_S50000x128_S128x96_S50000x96_1_0_0_1_n_n none P W)
        (broadcastInDim S50000x96 ![0, 1] bcast_S1x96_S50000x96_0_1 (broadcastInDim S1x96 ![1] bcast_S96_S1x96_1 b)))
      (broadcastInDim S50000x96 ![] bcast_S_S50000x96 (constant (F := Ideal) S_ .f32 0x00000000#32))
    = affineRelu (M := 50000) (K := 128) (N := 96) P W b := by
  rw [ref_dot128]
  funext j
  obtain ⟨p, q, rfl⟩ : ∃ (p : Fin 50000) (q : Fin 96), j = ix2 p q := ⟨j 0, j 1, eq_ix2 j⟩
  show max (matprod (M := 50000) (K := 128) (N := 96) P W (ix2 p q)
      + broadcastInDim S50000x96 ![0, 1] bcast_S1x96_S50000x96_0_1 (broadcastInDim S1x96 ![1] bcast_S96_S1x96_1 b) (ix2 p q))
      (broadcastInDim S50000x96 ![] bcast_S_S50000x96 (constant (F := Ideal) S_ .f32 0x00000000#32) (ix2 p q))
    = max (matprod (M := 50000) (K := 128) (N := 96) P W (ix2 p q) + b (ix1 q)) 0
  rw [ref_bias96, ref_zero96]

/-- `relu (h + (propagate (h · w) + b))` as the reference writes it. -/
theorem ref_graphLayer (s d : IArr S850000) (wt : FArr S850000) (h : FArr S50000x96) (w : FArr S96x96) (b : FArr S96) :
    maximumf (addf h (addf (propagate96 s d wt (Host.dotGeneral (F := Ideal) (φ₁ := .f32) (φ₂ := .f32) dot_S50000x96_S96x96_S50000x96_1_0_0_1_n_n none h w))
        (broadcastInDim S50000x96 ![0, 1] bcast_S1x96_S50000x96_0_1 (broadcastInDim S1x96 ![1] bcast_S96_S1x96_1 b))))
      (broadcastInDim S50000x96 ![] bcast_S_S50000x96 (constant (F := Ideal) S_ .f32 0x00000000#32))
    = graphLayer s d wt h w b := by
  rw [ref_dot96]
  funext j
  obtain ⟨p, q, rfl⟩ : ∃ (p : Fin 50000) (q : Fin 96), j = ix2 p q := ⟨j 0, j 1, eq_ix2 j⟩
  show max (h (ix2 p q) + (propagate96 s d wt (matprod (M := 50000) (K := 96) (N := 96) h w) (ix2 p q)
      + broadcastInDim S50000x96 ![0, 1] bcast_S1x96_S50000x96_0_1 (broadcastInDim S1x96 ![1] bcast_S96_S1x96_1 b) (ix2 p q)))
      (broadcastInDim S50000x96 ![] bcast_S_S50000x96 (constant (F := Ideal) S_ .f32 0x00000000#32) (ix2 p q))
    = max (h (ix2 p q) + (propagate96 s d wt (matprod (M := 50000) (K := 96) (N := 96) h w) (ix2 p q) + b (ix1 q))) 0
  rw [ref_bias96, ref_zero96]

/-- `h · w + b` into 40 classes as the reference writes it. -/
theorem ref_affine40 (h : FArr S50000x96) (w : FArr S96x40) (b : FArr S40) :
    addf (Host.dotGeneral (F := Ideal) (φ₁ := .f32) (φ₂ := .f32) dot_S50000x96_S96x40_S50000x40_1_0_0_1_n_n none h w)
      (broadcastInDim S50000x40 ![0, 1] bcast_S1x40_S50000x40_0_1 (broadcastInDim S1x40 ![1] bcast_S40_S1x40_1 b))
    = affine (M := 50000) (K := 96) (N := 40) h w b := by
  rw [ref_dot40]
  funext j
  obtain ⟨p, q, rfl⟩ : ∃ (p : Fin 50000) (q : Fin 40), j = ix2 p q := ⟨j 0, j 1, eq_ix2 j⟩
  show matprod (M := 50000) (K := 96) (N := 40) h w (ix2 p q)
      + broadcastInDim S50000x40 ![0, 1] bcast_S1x40_S50000x40_0_1 (broadcastInDim S1x40 ![1] bcast_S40_S1x40_1 b) (ix2 p q)
    = matprod (M := 50000) (K := 96) (N := 40) h w (ix2 p q) + b (ix1 q)
  rw [ref_bias40]

end Layers

end Cert.ReferenceIdeal.Net

end
-- ==== Proof.RefStages.lean ====
/-
  What each of the reference's five stages computes, from any buffer contents: the stage's result buffers as the
  network's pieces of the buffers the stage reads.
-/
import proofs.«172156_j52261162057813_1_alg».proof.Proof.RefRun
import proofs.«172156_j52261162057813_1_alg».proof.Proof.RefLayers
import proofs.«172156_j52261162057813_1_alg».proof.Proof.LibTypedRef

set_option maxRecDepth 16384

noncomputable section

namespace Cert.ReferenceIdeal.Net

open Cert.ReferenceIdeal Cert.ReferenceIdeal.Gen Cert.Net Idealize.ShloMosaic Idealize.ShloMosaic.TcCoe Idealize.SL.Sem Idealize.ShloMosaic.StableHlo
open Idealize.ShloMosaic.ValueIdx

/-! ## What each stage computes, from any contents `U` -/

section Stages

variable (U : Valuation τ sig (Elt Ideal))

theorem rstage0_src : after st0 U (Proc.devRef .tc main_v3) = srcIdx (U (Proc.devRef .tc main_arg1)) := by
  dsimp only [st0]; after_results_simp; rfl
theorem rstage0_dst : after st0 U (Proc.devRef .tc main_v6) = dstIdx (U (Proc.devRef .tc main_arg1)) := by
  dsimp only [st0]; after_results_simp; rfl
theorem rstage0_weight : after st0 U (Proc.devRef .tc main_v33)
    = edgeWeight (srcIdx (U (Proc.devRef .tc main_arg1))) (dstIdx (U (Proc.devRef .tc main_arg1))) := by
  dsimp only [st0]; after_results_simp; rfl
theorem rstage0_prop : after st0 U (Proc.devRef .tc main_v51)
    = propagate128 (srcIdx (U (Proc.devRef .tc main_arg1))) (dstIdx (U (Proc.devRef .tc main_arg1)))
        (edgeWeight (srcIdx (U (Proc.devRef .tc main_arg1))) (dstIdx (U (Proc.devRef .tc main_arg1))))
        (U (Proc.devRef .tc main_arg0)) := by
  dsimp only [st0]; after_results_simp; rfl

/-- The clip at zero is a called function: its operations read and write through typed references, whose round trips
    cancel; the two at the ends of the chain are along an equation between equal types. -/
theorem rstage1 : after st1 U (Proc.devRef .tc main_v56)
    = affineRelu (M := 50000) (K := 128) (N := 96) (U (Proc.devRef .tc main_v51)) (U (Proc.devRef .tc main_arg2))
        (U (Proc.devRef .tc main_arg3)) := by
  dsimp only [st1]; after_results_simp
  simp only [Cert.Lib.TypedRef.ofBuf_toBuf]
  refine (cast_eq _ _).trans ?_
  rw [show ∀ w, (StableHlo.TRef.of (T := ⟨S50000x96, .f32⟩) main_v55).ofBuf w = w from fun w => cast_eq _ w]
  exact ref_affineRelu (U (Proc.devRef .tc main_v51)) (U (Proc.devRef .tc main_arg2)) (U (Proc.devRef .tc main_arg3))

theorem rstage2 : after st2 U (Proc.devRef .tc main_v84)
    = graphLayer (U (Proc.devRef .tc main_v3)) (U (Proc.devRef .tc main_v6)) (U (Proc.devRef .tc main_v33))
        (U (Proc.devRef .tc main_v56)) (weight0 (U (Proc.devRef .tc main_arg4))) (bias0 (U (Proc.devRef .tc main_arg5))) := by
  dsimp only [st2]; after_results_simp
  simp only [Cert.Lib.TypedRef.ofBuf_toBuf]
  refine (cast_eq _ _).trans ?_
  rw [show ∀ w, (StableHlo.TRef.of (T := ⟨S50000x96, .f32⟩) main_v83).ofBuf w = w from fun w => cast_eq _ w]
  exact ref_graphLayer (U (Proc.devRef .tc main_v3)) (U (Proc.devRef .tc main_v6)) (U (Proc.devRef .tc main_v33))
    (U (Proc.devRef .tc main_v56)) (weight0 (U (Proc.devRef .tc main_arg4))) (bias0 (U (Proc.devRef .tc main_arg5)))

theorem rstage3 : after st3 U (Proc.devRef .tc main_v112)
    = graphLayer (U (Proc.devRef .tc main_v3)) (U (Proc.devRef .tc main_v6)) (U (Proc.devRef .tc main_v33))
        (U (Proc.devRef .tc main_v84)) (weight1 (U (Proc.devRef .tc main_arg4))) (bias1 (U (Proc.devRef .tc main_arg5))) := by
  dsimp only [st3]; after_results_simp
  simp only [Cert.Lib.TypedRef.ofBuf_toBuf]
  refine (cast_eq _ _).trans ?_
  rw [show ∀ w, (StableHlo.TRef.of (T := ⟨S50000x96, .f32⟩) main_v111).ofBuf w = w from fun w => cast_eq _ w]
  exact ref_graphLayer (U (Proc.devRef .tc main_v3)) (U (Proc.devRef .tc main_v6)) (U (Proc.devRef .tc main_v33))
    (U (Proc.devRef .tc main_v84)) (weight1 (U (Proc.devRef .tc main_arg4))) (bias1 (U (Proc.devRef .tc main_arg5)))

theorem rstage4 : after st4 U (Proc.devRef .tc main_v117)
    = logSoftmax (affine (M := 50000) (K := 96) (N := 40) (U (Proc.devRef .tc main_v112)) (U (Proc.devRef .tc main_arg6))
        (U (Proc.devRef .tc main_arg7))) := by
  dsimp only [st4]; after_results_simp
  simp only [Cert.Lib.TypedRef.ofBuf_toBuf]
  refine (cast_eq _ _).trans ?_
  rw [show ∀ w, (StableHlo.TRef.of (T := ⟨S50000x40, .f32⟩) main_v116).ofBuf w = w from fun w => cast_eq _ w]
  exact congrArg logSoftmax (ref_affine40 (U (Proc.devRef .tc main_v112)) (U (Proc.devRef .tc main_arg6)) (U (Proc.devRef .tc main_arg7)))

end Stages

end Cert.ReferenceIdeal.Net

end
-- ==== Proof.RefValue.lean ====
/-
  The idealized reference's result as the network of its arguments: the buffers each stage reads are either computed by
  an earlier stage or argument arrays, and no stage writes a buffer that a later one still reads from before it.
-/
import proofs.«172156_j52261162057813_1_alg».proof.Proof.RefStages

set_option maxRecDepth 16384

noncomputable section

namespace Cert.ReferenceIdeal.Net

open Cert.ReferenceIdeal Cert.ReferenceIdeal.Gen Cert.Net Idealize.ShloMosaic Idealize.ShloMosaic.TcCoe Idealize.SL.Sem Idealize.ShloMosaic.StableHlo
open Idealize.ShloMosaic.ValueIdx

/-! ## Buffers that persist, and the walk through the five stages -/

section Walk

/-- No operation of a literal stage writes a given buffer: the stage's result buffers are other references, one
    operation at a time. -/
macro "no_write_ref" : tactic => `(tactic| (
  refine List.forall_iff_forall_mem.mp ?_
  simp only [st0, st1, st2, st3, st4, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

variable (m : (ℓ : Loc nD τ sig) → Buf (Elt Ideal) ℓ) (d : Dev nD)

/-- The buffer contents at launch and after each of the first four stages. -/
abbrev R0 : Valuation τ sig (Elt Ideal) := launchContents m d
abbrev R1 : Valuation τ sig (Elt Ideal) := after st0 (R0 m d)
abbrev R2 : Valuation τ sig (Elt Ideal) := after st1 (R1 m d)
abbrev R3 : Valuation τ sig (Elt Ideal) := after st2 (R2 m d)
abbrev R4 : Valuation τ sig (Elt Ideal) := after st3 (R3 m d)

theorem R1_of_launch (b : Ref sig .tc)
    (h0 : ∀ op ∈ (st0 : List (HloOp τ sig (Elt Ideal))), Proc.devRef .tc b ∉ op.writes) :
    R1 m d (Proc.devRef .tc b) = m ((d.tc : Thread nD τ).loc b) :=
  after_of_forall_not_mem _ _ h0
theorem R2_of_R1 (b : Ref sig .tc)
    (h1 : ∀ op ∈ (st1 : List (HloOp τ sig (Elt Ideal))), Proc.devRef .tc b ∉ op.writes) :
    R2 m d (Proc.devRef .tc b) = R1 m d (Proc.devRef .tc b) :=
  after_of_forall_not_mem _ _ h1
theorem R3_of_R1 (b : Ref sig .tc)
    (h1 : ∀ op ∈ (st1 : List (HloOp τ sig (Elt Ideal))), Proc.devRef .tc b ∉ op.writes)
    (h2 : ∀ op ∈ (st2 : List (HloOp τ sig (Elt Ideal))), Proc.devRef .tc b ∉ op.writes) :
    R3 m d (Proc.devRef .tc b) = R1 m d (Proc.devRef .tc b) :=
  (after_of_forall_not_mem _ _ h2).trans (R2_of_R1 m d b h1)
theorem R4_of_R1 (b : Ref sig .tc)
    (h1 : ∀ op ∈ (st1 : List (HloOp τ sig (Elt Ideal))), Proc.devRef .tc b ∉ op.writes)
    (h2 : ∀ op ∈ (st2 : List (HloOp τ sig (Elt Ideal))), Proc.devRef .tc b ∉ op.writes)
    (h3 : ∀ op ∈ (st3 : List (HloOp τ sig (Elt Ideal))), Proc.devRef .tc b ∉ op.writes) :
    R4 m d (Proc.devRef .tc b) = R1 m d (Proc.devRef .tc b) :=
  (after_of_forall_not_mem _ _ h3).trans (R3_of_R1 m d b h1 h2)

/-! ### The argument arrays by name, the edges' ends and weights, and the features after each layer -/

abbrev rX : FArr S50000x128 := m ((d.tc : Thread nD τ).loc main_arg0)
abbrev rE : IArr S2x800000 := m ((d.tc : Thread nD τ).loc main_arg1)
abbrev rW1 : FArr S128x96 := m ((d.tc : Thread nD τ).loc main_arg2)
abbrev rb1 : FArr S96 := m ((d.tc : Thread nD τ).loc main_arg3)
abbrev rWg : FArr S2x96x96 := m ((d.tc : Thread nD τ).loc main_arg4)
abbrev rbg : FArr S2x96 := m ((d.tc : Thread nD τ).loc main_arg5)
abbrev rWl : FArr S96x40 := m ((d.tc : Thread nD τ).loc main_arg6)
abbrev rbl : FArr S40 := m ((d.tc : Thread nD τ).loc main_arg7)
abbrev rS : IArr S850000 := srcIdx (rE m d)
abbrev rD : IArr S850000 := dstIdx (rE m d)
abbrev rWt : FArr S850000 := edgeWeight (rS m d) (rD m d)
abbrev rfeat0 : FArr S50000x96 :=
  affineRelu (M := 50000) (K := 128) (N := 96) (propagate128 (rS m d) (rD m d) (rWt m d) (rX m d)) (rW1 m d) (rb1 m d)
abbrev rfeat1 : FArr S50000x96 := graphLayer (rS m d) (rD m d) (rWt m d) (rfeat0 m d) (weight0 (rWg m d)) (bias0 (rbg m d))
abbrev rfeat2 : FArr S50000x96 := graphLayer (rS m d) (rD m d) (rWt m d) (rfeat1 m d) (weight1 (rWg m d)) (bias1 (rbg m d))

theorem R1_arg2 : R1 m d (Proc.devRef .tc main_arg2) = rW1 m d := R1_of_launch m d main_arg2 (by no_write_ref)
theorem R1_arg3 : R1 m d (Proc.devRef .tc main_arg3) = rb1 m d := R1_of_launch m d main_arg3 (by no_write_ref)
theorem R2_arg4 : R2 m d (Proc.devRef .tc main_arg4) = rWg m d :=
  (R2_of_R1 m d main_arg4 (by no_write_ref)).trans (R1_of_launch m d main_arg4 (by no_write_ref))
theorem R2_arg5 : R2 m d (Proc.devRef .tc main_arg5) = rbg m d :=
  (R2_of_R1 m d main_arg5 (by no_write_ref)).trans (R1_of_launch m d main_arg5 (by no_write_ref))
theorem R3_arg4 : R3 m d (Proc.devRef .tc main_arg4) = rWg m d :=
  (R3_of_R1 m d main_arg4 (by no_write_ref) (by no_write_ref)).trans (R1_of_launch m d main_arg4 (by no_write_ref))
theorem R3_arg5 : R3 m d (Proc.devRef .tc main_arg5) = rbg m d :=
  (R3_of_R1 m d main_arg5 (by no_write_ref) (by no_write_ref)).trans (R1_of_launch m d main_arg5 (by no_write_ref))
theorem R4_arg6 : R4 m d (Proc.devRef .tc main_arg6) = rWl m d :=
  (R4_of_R1 m d main_arg6 (by no_write_ref) (by no_write_ref) (by no_write_ref)).trans (R1_of_launch m d main_arg6 (by no_write_ref))
theorem R4_arg7 : R4 m d (Proc.devRef .tc main_arg7) = rbl m d :=
  (R4_of_R1 m d main_arg7 (by no_write_ref) (by no_write_ref) (by no_write_ref)).trans (R1_of_launch m d main_arg7 (by no_write_ref))

theorem R2_src : R2 m d (Proc.devRef .tc main_v3) = rS m d :=
  (R2_of_R1 m d main_v3 (by no_write_ref)).trans (rstage0_src (R0 m d))
theorem R2_dst : R2 m d (Proc.devRef .tc main_v6) = rD m d :=
  (R2_of_R1 m d main_v6 (by no_write_ref)).trans (rstage0_dst (R0 m d))
theorem R2_wt : R2 m d (Proc.devRef .tc main_v33) = rWt m d :=
  (R2_of_R1 m d main_v33 (by no_write_ref)).trans (rstage0_weight (R0 m d))
theorem R3_src : R3 m d (Proc.devRef .tc main_v3) = rS m d :=
  (R3_of_R1 m d main_v3 (by no_write_ref) (by no_write_ref)).trans (rstage0_src (R0 m d))
theorem R3_dst : R3 m d (Proc.devRef .tc main_v6) = rD m d :=
  (R3_of_R1 m d main_v6 (by no_write_ref) (by no_write_ref)).trans (rstage0_dst (R0 m d))
theorem R3_wt : R3 m d (Proc.devRef .tc main_v33) = rWt m d :=
  (R3_of_R1 m d main_v33 (by no_write_ref) (by no_write_ref)).trans (rstage0_weight (R0 m d))

/-- After the second stage: the first layer's features. -/
theorem R2_feat : R2 m d (Proc.devRef .tc main_v56) = rfeat0 m d := by
  refine (rstage1 (R1 m d)).trans ?_
  rw [show R1 m d (Proc.devRef .tc main_v51) = propagate128 (rS m d) (rD m d) (rWt m d) (rX m d) from rstage0_prop (R0 m d),
    R1_arg2, R1_arg3]
/-- After the third stage: the features after the first residual layer. -/
theorem R3_feat : R3 m d (Proc.devRef .tc main_v84) = rfeat1 m d := by
  refine (rstage2 (R2 m d)).trans ?_
  rw [R2_src, R2_dst, R2_wt, R2_feat, R2_arg4, R2_arg5]
/-- After the fourth stage: the features after the second residual layer. -/
theorem R4_feat : R4 m d (Proc.devRef .tc main_v112) = rfeat2 m d := by
  refine (rstage3 (R3 m d)).trans ?_
  rw [R3_src, R3_dst, R3_wt, R3_feat, R3_arg4, R3_arg5]

/-- The fold of the whole line is the fold of its five stages in a row. -/
theorem fold_stages (V : Valuation τ sig (Elt Ideal)) :
    after ops V = after st4 (after st3 (after st2 (after st1 (after st0 V)))) :=
  (congrArg (fun l : List (HloOp τ sig (Elt Ideal)) => after l V) ops_stages).trans
    ((after_append st0 _ V).trans ((after_append st1 _ _).trans ((after_append st2 _ _).trans (after_append st3 st4 _))))

/-- THE RESULT: the fold of the whole line at the result buffer is the network of the argument arrays. -/
theorem result_eq : after ops (launchContents m d) (Proc.devRef .tc main_v117)
    = net (rX m d) (rE m d) (rW1 m d) (rb1 m d) (rWg m d) (rbg m d) (rWl m d) (rbl m d) := by
  refine (congrFun (fold_stages (launchContents m d)) _).trans ?_
  have hl : affine (M := 50000) (K := 96) (N := 40) (R4 m d (Proc.devRef .tc main_v112)) (R4 m d (Proc.devRef .tc main_arg6))
      (R4 m d (Proc.devRef .tc main_arg7)) = affine (M := 50000) (K := 96) (N := 40) (rfeat2 m d) (rWl m d) (rbl m d) := by
    rw [R4_feat, R4_arg6, R4_arg7]
  exact (rstage4 (R4 m d)).trans (congrArg logSoftmax hl)

/-- A buffer that none of the five stages writes ends as launched. -/
theorem kept (b : Ref sig .tc)
    (h0 : ∀ op ∈ (st0 : List (HloOp τ sig (Elt Ideal))), Proc.devRef .tc b ∉ op.writes)
    (h1 : ∀ op ∈ (st1 : List (HloOp τ sig (Elt Ideal))), Proc.devRef .tc b ∉ op.writes)
    (h2 : ∀ op ∈ (st2 : List (HloOp τ sig (Elt Ideal))), Proc.devRef .tc b ∉ op.writes)
    (h3 : ∀ op ∈ (st3 : List (HloOp τ sig (Elt Ideal))), Proc.devRef .tc b ∉ op.writes)
    (h4 : ∀ op ∈ (st4 : List (HloOp τ sig (Elt Ideal))), Proc.devRef .tc b ∉ op.writes) :
    after ops (launchContents m d) (Proc.devRef .tc b) = m ((d.tc : Thread nD τ).loc b) :=
  (congrFun (fold_stages (launchContents m d)) _).trans
    ((after_of_forall_not_mem st4 _ h4).trans ((R4_of_R1 m d b h1 h2 h3).trans (R1_of_launch m d b h0)))

/-! No stage writes an argument array. -/
theorem kept_arg0 : after ops (launchContents m d) (Proc.devRef .tc main_arg0) = m ((d.tc : Thread nD τ).loc main_arg0) :=
  kept m d main_arg0 (by no_write_ref) (by no_write_ref) (by no_write_ref) (by no_write_ref) (by no_write_ref)
theorem kept_arg1 : after ops (launchContents m d) (Proc.devRef .tc main_arg1) = m ((d.tc : Thread nD τ).loc main_arg1) :=
  kept m d main_arg1 (by no_write_ref) (by no_write_ref) (by no_write_ref) (by no_write_ref) (by no_write_ref)
theorem kept_arg2 : after ops (launchContents m d) (Proc.devRef .tc main_arg2) = m ((d.tc : Thread nD τ).loc main_arg2) :=
  kept m d main_arg2 (by no_write_ref) (by no_write_ref) (by no_write_ref) (by no_write_ref) (by no_write_ref)
theorem kept_arg3 : after ops (launchContents m d) (Proc.devRef .tc main_arg3) = m ((d.tc : Thread nD τ).loc main_arg3) :=
  kept m d main_arg3 (by no_write_ref) (by no_write_ref) (by no_write_ref) (by no_write_ref) (by no_write_ref)
theorem kept_arg4 : after ops (launchContents m d) (Proc.devRef .tc main_arg4) = m ((d.tc : Thread nD τ).loc main_arg4) :=
  kept m d main_arg4 (by no_write_ref) (by no_write_ref) (by no_write_ref) (by no_write_ref) (by no_write_ref)
theorem kept_arg5 : after ops (launchContents m d) (Proc.devRef .tc main_arg5) = m ((d.tc : Thread nD τ).loc main_arg5) :=
  kept m d main_arg5 (by no_write_ref) (by no_write_ref) (by no_write_ref) (by no_write_ref) (by no_write_ref)
theorem kept_arg6 : after ops (launchContents m d) (Proc.devRef .tc main_arg6) = m ((d.tc : Thread nD τ).loc main_arg6) :=
  kept m d main_arg6 (by no_write_ref) (by no_write_ref) (by no_write_ref) (by no_write_ref) (by no_write_ref)
theorem kept_arg7 : after ops (launchContents m d) (Proc.devRef .tc main_arg7) = m ((d.tc : Thread nD τ).loc main_arg7) :=
  kept m d main_arg7 (by no_write_ref) (by no_write_ref) (by no_write_ref) (by no_write_ref) (by no_write_ref)

end Walk

/-- THE RUN: every weakly fair execution of the reference terminates, nothing faulting, with its result at the network
    of the argument arrays and the argument arrays as launched. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v117) = net (rX m c) (rE m c) (rW1 m c) (rb1 m c) (rWg m c) (rbg m c) (rWl m c) (rbl m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v117).trans (result_eq m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c)⟩)
    (run_fold m ρ)

end Cert.ReferenceIdeal.Net

end
-- ==== Proof.SpecAgree.lean ====
/-
  The two programs state the network over their own copies of the same records (shapes, gather and scatter
  dimension numbers, broadcast and reduction facts).  The copies are the same literal data, so the network stated over
  one program's records is the network stated over the other's, piece by piece.
-/
import proofs.«172156_j52261162057813_1_alg».proof.Proof.Spec
import proofs.«172156_j52261162057813_1_alg».proof.Proof.RefSpec

noncomputable section

namespace Cert.Proof.Agree

open Idealize.ShloMosaic Cert.Net

variable [Cert.KernelIdeal.Facts₀] [Cert.ReferenceIdeal.Facts₀]

theorem srcIdx_eq (e : Cert.KernelIdeal.Net.IArr Cert.KernelIdeal.S2x800000) :
    Cert.ReferenceIdeal.Net.srcIdx e = Cert.KernelIdeal.Net.srcIdx e := rfl
theorem dstIdx_eq (e : Cert.KernelIdeal.Net.IArr Cert.KernelIdeal.S2x800000) :
    Cert.ReferenceIdeal.Net.dstIdx e = Cert.KernelIdeal.Net.dstIdx e := rfl
theorem startCol_eq (u : Cert.KernelIdeal.Net.IArr Cert.KernelIdeal.S850000) :
    Cert.ReferenceIdeal.Net.startCol u = Cert.KernelIdeal.Net.startCol u := rfl
theorem degree_eq (d : Cert.KernelIdeal.Net.IArr Cert.KernelIdeal.S850000) :
    Cert.ReferenceIdeal.Net.degree d = Cert.KernelIdeal.Net.degree d := rfl
theorem invSqrtDeg_eq (d : Cert.KernelIdeal.Net.IArr Cert.KernelIdeal.S850000) :
    Cert.ReferenceIdeal.Net.invSqrtDeg d = Cert.KernelIdeal.Net.invSqrtDeg d := rfl
theorem edgeWeight_eq (s d : Cert.KernelIdeal.Net.IArr Cert.KernelIdeal.S850000) :
    Cert.ReferenceIdeal.Net.edgeWeight s d = Cert.KernelIdeal.Net.edgeWeight s d := rfl
theorem propagate128_eq (s d : Cert.KernelIdeal.Net.IArr Cert.KernelIdeal.S850000) (w : Cert.KernelIdeal.Net.FArr Cert.KernelIdeal.S850000)
    (x : Cert.KernelIdeal.Net.FArr Cert.KernelIdeal.S50000x128) :
    Cert.ReferenceIdeal.Net.propagate128 s d w x = Cert.KernelIdeal.Net.propagate128 s d w x := rfl
theorem propagate96_eq (s d : Cert.KernelIdeal.Net.IArr Cert.KernelIdeal.S850000) (w : Cert.KernelIdeal.Net.FArr Cert.KernelIdeal.S850000)
    (t : Cert.KernelIdeal.Net.FArr Cert.KernelIdeal.S50000x96) :
    Cert.ReferenceIdeal.Net.propagate96 s d w t = Cert.KernelIdeal.Net.propagate96 s d w t := rfl
theorem weight0_eq (Wg : Cert.KernelIdeal.Net.FArr Cert.KernelIdeal.S2x96x96) :
    Cert.ReferenceIdeal.Net.weight0 Wg = Cert.KernelIdeal.Net.weight0 Wg := rfl
theorem weight1_eq (Wg : Cert.KernelIdeal.Net.FArr Cert.KernelIdeal.S2x96x96) :
    Cert.ReferenceIdeal.Net.weight1 Wg = Cert.KernelIdeal.Net.weight1 Wg := rfl
theorem bias0_eq (bg : Cert.KernelIdeal.Net.FArr Cert.KernelIdeal.S2x96) :
    Cert.ReferenceIdeal.Net.bias0 bg = Cert.KernelIdeal.Net.bias0 bg := rfl
theorem bias1_eq (bg : Cert.KernelIdeal.Net.FArr Cert.KernelIdeal.S2x96) :
    Cert.ReferenceIdeal.Net.bias1 bg = Cert.KernelIdeal.Net.bias1 bg := rfl
theorem logSoftmax_eq (z : Cert.KernelIdeal.Net.FArr Cert.KernelIdeal.S50000x40) :
    Cert.ReferenceIdeal.Net.logSoftmax z = Cert.KernelIdeal.Net.logSoftmax z := rfl
theorem graphLayer_eq (s d : Cert.KernelIdeal.Net.IArr Cert.KernelIdeal.S850000) (wt : Cert.KernelIdeal.Net.FArr Cert.KernelIdeal.S850000)
    (h : Cert.KernelIdeal.Net.FArr Cert.KernelIdeal.S50000x96) (w : Cert.KernelIdeal.Net.FArr Cert.KernelIdeal.S96x96)
    (b : Cert.KernelIdeal.Net.FArr Cert.KernelIdeal.S96) :
    Cert.ReferenceIdeal.Net.graphLayer s d wt h w b = Cert.KernelIdeal.Net.graphLayer s d wt h w b := by
  unfold Cert.ReferenceIdeal.Net.graphLayer Cert.KernelIdeal.Net.graphLayer
  rw [propagate96_eq]

/-- The network over the reference's records is the network over the kernel program's. -/
theorem net_eq (x : Cert.KernelIdeal.Net.FArr Cert.KernelIdeal.S50000x128) (e : Cert.KernelIdeal.Net.IArr Cert.KernelIdeal.S2x800000)
    (W1 : Cert.KernelIdeal.Net.FArr Cert.KernelIdeal.S128x96) (b1 : Cert.KernelIdeal.Net.FArr Cert.KernelIdeal.S96)
    (Wg : Cert.KernelIdeal.Net.FArr Cert.KernelIdeal.S2x96x96) (bg : Cert.KernelIdeal.Net.FArr Cert.KernelIdeal.S2x96)
    (Wl : Cert.KernelIdeal.Net.FArr Cert.KernelIdeal.S96x40) (bl : Cert.KernelIdeal.Net.FArr Cert.KernelIdeal.S40) :
    Cert.ReferenceIdeal.Net.net x e W1 b1 Wg bg Wl bl = Cert.KernelIdeal.Net.net x e W1 b1 Wg bg Wl bl := by
  unfold Cert.ReferenceIdeal.Net.net Cert.KernelIdeal.Net.net
  rw [logSoftmax_eq, graphLayer_eq, graphLayer_eq, propagate128_eq, edgeWeight_eq, srcIdx_eq, dstIdx_eq, weight0_eq, weight1_eq,
    bias0_eq, bias1_eq]

end Cert.Proof.Agree

end
-- ==== Proof.lean ====
/-
  The certificate of a graph network's kernel program against its reference.

  Both programs compute, on the extended reals, ONE function of the eight argument arrays: the network of Proof/Spec.lean
  — a normalized propagation of the input features over the graph, an affine layer with a clip at zero, two residual
  layers over the graph, a last affine layer, and the logarithm of the softmax along every row.  The kernel program
  runs the four matrix products and the two residual sums as six launches over ten blocks of 5000 rows, and everything
  else as host operations; the reference is host operations throughout.  A row of every layer depends on the same row
  of the node features only, so the blocks a launch writes back are the blocks of the whole-array layer, and they tile
  its output (Proof/AffineRegions.lean, Proof/ResidualRegions.lean).  What the two programs do differently is equal
  on the extended reals without any use of finiteness: a change of float format is the identity; a product that
  accumulates from zero and the host's product are the same sum; adding the zero bias changes nothing; and the residual
  sum `(h + a) + b` is `h + (a + b)` because addition is associative (Proof/Layers.lean).

  The kernel's result is read off its run by walking the buffer contents from the result buffer back to the launch
  memory (Proof/KernelRun.lean, Proof/KernelValue.lean); the reference's off its run in five stages
  (Proof/RefRun.lean, Proof/RefLayers.lean, Proof/RefStages.lean, Proof/RefValue.lean); the two statements of the network over the two programs' own records agree
  (Proof/SpecAgree.lean).  The idealization rewrote no operation, so that conjunct is trivial.
-/
import proofs.«172156_j52261162057813_1_alg».proof.Defs
import proofs.«172156_j52261162057813_1_alg».proof.Proof.Gen.Kernel
import proofs.«172156_j52261162057813_1_alg».proof.Proof.Gen.Kernel.Skeleton
import proofs.«172156_j52261162057813_1_alg».proof.Proof.Gen.Kernel.Launch
import proofs.«172156_j52261162057813_1_alg».proof.Proof.Gen.Kernel.Points
import proofs.«172156_j52261162057813_1_alg».proof.Proof.Gen.Kernel.Frame
import proofs.«172156_j52261162057813_1_alg».proof.Proof.Gen.KernelIdeal
import proofs.«172156_j52261162057813_1_alg».proof.Proof.Gen.KernelIdeal.Skeleton
import proofs.«172156_j52261162057813_1_alg».proof.Proof.Gen.KernelIdeal.Launch
import proofs.«172156_j52261162057813_1_alg».proof.Proof.Gen.KernelIdeal.Points
import proofs.«172156_j52261162057813_1_alg».proof.Proof.Gen.KernelIdeal.Frame
import proofs.«172156_j52261162057813_1_alg».proof.Proof.Gen.ReferenceIdeal
import proofs.«172156_j52261162057813_1_alg».proof.Proof.Gen.Pre_finite_inputs
import proofs.«172156_j52261162057813_1_alg».proof.Proof.KernelRun
import proofs.«172156_j52261162057813_1_alg».proof.Proof.KernelValue
import proofs.«172156_j52261162057813_1_alg».proof.Proof.RefValue
import proofs.«172156_j52261162057813_1_alg».proof.Proof.SpecAgree
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Net.run_value m ρ)

/-- The idealization rewrote no operation. -/
theorem preserves : Cert.preserves_Kernel_KernelIdeal := trivial

/-- Both idealized programs end at the network of the argument arrays, which agree. -/
theorem algebraic : Cert.algebraic_KernelIdeal_ReferenceIdeal := by
  intro m ρ m' ρ' _ hagree
  refine ⟨fun c => Cert.KernelIdeal.Net.net (Cert.KernelIdeal.Net.aX m c) (Cert.KernelIdeal.Net.aE m c) (Cert.KernelIdeal.Net.aW1 m c)
    (Cert.KernelIdeal.Net.ab1 m c) (Cert.KernelIdeal.Net.aWg m c) (Cert.KernelIdeal.Net.abg m c) (Cert.KernelIdeal.Net.aWl m c)
    (Cert.KernelIdeal.Net.abl m c), ?_, ?_⟩
  · exact (θ_run Cert.KernelIdeal.defs _ _).mono
      (fun r h c => ⟨(h c).1.trans (Cert.KernelIdeal.Net.result_eq m ρ c), (h c).2⟩)
      (Cert.KernelIdeal.Net.run_result (F := Ideal) m ρ)
  · refine (θ_run Cert.ReferenceIdeal.defs _ _).mono (fun r h c => ⟨(h c).1.trans ?_, (h c).2⟩)
      (Cert.ReferenceIdeal.Net.run_value m' ρ')
    obtain ⟨h0, h1, h2, h3, h4, h5, h6, h7⟩ := hagree c
    show Cert.ReferenceIdeal.Net.net (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
    rw [h0, h1, h2, h3, h4, h5, h6, h7]
    exact Cert.Proof.Agree.net_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
